-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x64 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S40x64 .f32 := Host.absf main_arg5
  let main_cst_6 : FVec F S_ .f32 := constant S_ .f32 0x7F800000#32
  let main_v20 : FVec F S40x64 .f32 := broadcastInDim S40x64 ![] bcast_S_S40x64 main_cst_6
  let main_v21 : IVec S40x64 1 := cmpf .olt main_v19 main_v20
  let main_c_7 : IVec S_ 1 := constantI S_ 1 1#1
  let main_v22 : IVec S_ 1 := (fun x v => Host.reduce IntOp.andi x v reducesTo_S40x64_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S64x128 .f32) (main_arg4 : FVec F S64 .f32) (main_arg5 : FVec F S40x64 .f32) (main_arg6 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x64 : Shape := ⟨2, ![128, 64]⟩
abbrev S64x40 : Shape := ⟨2, ![64, 40]⟩
abbrev S1x64 : Shape := ⟨2, ![1, 64]⟩
abbrev S1x40 : Shape := ⟨2, ![1, 40]⟩
abbrev S10000x128 : Shape := ⟨2, ![10000, 128]⟩
abbrev S10000x64 : Shape := ⟨2, ![10000, 64]⟩
abbrev S50000x40 : Shape := ⟨2, ![50000, 40]⟩
abbrev S10000x40 : Shape := ⟨2, ![10000, 40]⟩

abbrev nBuf : Space → Nat
  | .hbm => 112
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S64x128, .f32⟩
  | .hbm, ⟨4, _⟩ => ⟨S64, .f32⟩
  | .hbm, ⟨5, _⟩ => ⟨S40x64, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x1, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S800000x1, .f32⟩
  | .hbm, ⟨69, _⟩ => ⟨S800000x128, .f32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x128, .bf16⟩
  | .hbm, ⟨92, _⟩ => ⟨S128x64, .f32⟩
  | .hbm, ⟨93, _⟩ => ⟨S128x64, .bf16⟩
  | .hbm, ⟨94, _⟩ => ⟨S64x40, .f32⟩
  | .hbm, ⟨95, _⟩ => ⟨S64x40, .bf16⟩
  | .hbm, ⟨96, _⟩ => ⟨S1x64, .f32⟩
  | .hbm, ⟨97, _⟩ => ⟨S1x40, .f32⟩
  | .hbm, ⟨98, _⟩ => ⟨S1x64, .f32⟩
  | .hbm, ⟨99, _⟩ => ⟨S1x64, .f32⟩
  | .hbm, ⟨100, _⟩ => ⟨S_, .f32⟩
  | .hbm, ⟨101, _⟩ => ⟨S1x64, .f32⟩
  | .hbm, ⟨102, _⟩ => ⟨S1x64, .f32⟩
  | .hbm, ⟨103, _⟩ => ⟨S_, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S_, .f32⟩
  | .hbm, ⟨109, _⟩ => ⟨S1x64, .f32⟩
  | .hbm, ⟨110, _⟩ => ⟨S1x64, .f32⟩
  | .hbm, ⟨111, _⟩ => ⟨S50000x40, .f32⟩
  | .local _ .vmem, ⟨0, _⟩ => ⟨S10000x128, .bf16⟩
  | .local _ .vmem, ⟨1, _⟩ => ⟨S10000x128, .bf16⟩
  | .local _ .vmem, ⟨2, _⟩ => ⟨S128x64, .bf16⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S10000x128, .bf16⟩
  | .local _ .vmem, ⟨9, _⟩ => ⟨S10000x128, .bf16⟩
  | .local _ .vmem, ⟨10, _⟩ => ⟨S128x64, .bf16⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x40, .bf16⟩
  | .local _ .vmem, ⟨15, _⟩ => ⟨S1x40, .f32⟩
  | .local _ .vmem, ⟨16, _⟩ => ⟨S10000x40, .f32⟩
  | .local _ .vmem, ⟨17, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76_0 : Ref sig .tc := ⟨.hbm, 98, rfl⟩
abbrev main_v76_1 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v27 : BitVec 1 := Scalar.cmpi .eq arg0 c4_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x40 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bitsLt_bf16_f32 : FTy.bits .bf16 < FTy.bits .f32
  transposes_S64x128_S128x64_1_0 : S64x128.Transposes [1, 0] S128x64
  transposes_S40x64_S64x40_1_0 : S40x64.Transposes [1, 0] S64x40
  shapeCasts_S64_S1x64 : S64.ShapeCasts S1x64
  shapeCasts_S40_S1x40 : S40.ShapeCasts S1x40
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S10000x64 : S1x64.Broadcasts S10000x64
  reduces_S10000x64_S64 : S10000x64.Reduces [0] S64
  bcast_S_S1x64 : S_.BroadcastsInDim S1x64 (![] : Fin 0 → Fin S1x64.rank)
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x40.size a ≤ S64x40.size a
  hwx1_5 : ∀ i : grid1.Coords, EltTy.bits .bf16 = 32 ∨ (Rect.block (s := S64x40) S64x40.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x40.size a ≤ S50000x40.size a
  hwx1_7 : ∀ i : grid1.Coords, EltTy.bits .f32 = 32 ∨ (Rect.block (s := S50000x40) S10000x40.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v69) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v74) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v76_0) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v76_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v69) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S64x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v75) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v85) S10000x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S128x64 : Shape := ⟨2, ![128, 64]⟩
abbrev S50000x64 : Shape := ⟨2, ![50000, 64]⟩
abbrev S1x64 : Shape := ⟨2, ![1, 64]⟩
abbrev S64x40 : Shape := ⟨2, ![64, 40]⟩
abbrev S50000x40 : Shape := ⟨2, ![50000, 40]⟩
abbrev S1x40 : Shape := ⟨2, ![1, 40]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S64x128, .f32⟩
  | .hbm, ⟨4, _⟩ => ⟨S64, .f32⟩
  | .hbm, ⟨5, _⟩ => ⟨S40x64, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S800000x1, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S800000x1, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S800000x128, .f32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S800000x1, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S128x64, .f32⟩
  | .hbm, ⟨92, _⟩ => ⟨S50000x64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S_, .f32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S_, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S1x64, .f32⟩
  | .hbm, ⟨111, _⟩ => ⟨S50000x64, .f32⟩
  | .hbm, ⟨112, _⟩ => ⟨S50000x64, .f32⟩
  | .hbm, ⟨113, _⟩ => ⟨S_, .f32⟩
  | .hbm, ⟨114, _⟩ => ⟨S64, .f32⟩
  | .hbm, ⟨115, _⟩ => ⟨S64, .f32⟩
  | .hbm, ⟨116, _⟩ => ⟨S64, .f32⟩
  | .hbm, ⟨117, _⟩ => ⟨S1x64, .f32⟩
  | .hbm, ⟨118, _⟩ => ⟨S50000x64, .f32⟩
  | .hbm, ⟨119, _⟩ => ⟨S50000x64, .f32⟩
  | .hbm, ⟨120, _⟩ => ⟨S_, .f32⟩
  | .hbm, ⟨121, _⟩ => ⟨S50000x64, .f32⟩
  | .hbm, ⟨122, _⟩ => ⟨S50000x64, .f32⟩
  | .hbm, ⟨123, _⟩ => ⟨S64x40, .f32⟩
  | .hbm, ⟨124, _⟩ => ⟨S50000x40, .f32⟩
  | .hbm, ⟨125, _⟩ => ⟨S1x40, .f32⟩
  | .hbm, ⟨126, _⟩ => ⟨S50000x40, .f32⟩
  | .hbm, ⟨127, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_cst_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_15 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_17 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call0_cst : Ref sig .tc := ⟨.hbm, 120, rfl⟩
abbrev main_call0_v0 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S50000x64 : S_.BroadcastsInDim S50000x64 (![] : Fin 0 → Fin S50000x64.rank)
  transposes_S40x64_S64x40_1_0 : S40x64.Transposes [1, 0] S64x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x40_S50000x40_1_0_0_1_n_n_wf : DotDims.WF S50000x64 S64x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.K.R0Runs.lean ====
import proofs.«120267_j79353815761144_1_alg».proof.Proof.Gen.Kernel.Launch
import proofs.«120267_j79353815761144_1_alg».proof.Proof.Gen.Kernel.Skeleton
import proofs.«120267_j79353815761144_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the statistics kernel, at the entry contents `V`

The kernel keeps two running sums (of the rows of `h = x·w + b` and of their squares) in two buffers of its own
across the five grid points, clears them at the first point and copies them to its two outputs at the last. -/

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the block was fetched there or its
    index did not move since the last fetch: for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's two branch conditions -/

/-- The first conditional's condition (the point is the first of the grid), from the grid coordinates. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 5 = 0 :=
  (by decide +kernel : ∀ t : Fin grid0.N, cond0_0 (grid0.coords t) ↔ t.val % 5 = 0)

/-- The second conditional's condition (the point is the last of the grid). -/
abbrev cond0_1 (i : grid0.Coords) : Prop := k0_cond2 i = 1#1
/-- It holds at point 4 only. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the two outputs are idle (nothing is stored into them) and are not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At the last point both outputs are live. -/
theorem liveAt0_3_C : ∀ t : Fin cfg0.N, ¬cond0_0 (grid0.coords t) → cond0_1 (grid0.coords t) → cfg0.idle 3 (grid0.coords t) = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- A buffer of each output window, through which its contents are stated (a covering list of writes reads the same
    through any view). -/
abbrev VO0_3 : View sig .tc .vmem S1x64 .f32 := (Memref.whole cc0_stg3_0 : Memref sig .tc .vmem S1x64 .f32).view
abbrev VO0_4 : View sig .tc .vmem S1x64 .f32 := (Memref.whole cc0_stg4_0 : Memref sig .tc .vmem S1x64 .f32).view
/-- Each window's current buffer at point `t`, and its wholeness. -/
abbrev ms0_0 (t : Fin cfg0.N) : Memref sig .tc .vmem S10000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
/-- The two running-sum buffers: whole buffers of the kernel's own, passed beside the windows. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The other scoped buffers of the core (the second kernel's), each whole at some contents: what the region's
    invariant carries beside the two running sums and never touches. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region's entry invariant with the two running-sum buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restOther (F := F) c) ∗ (∃ r, prngReg c r)) := by
  unfold Pipeline.ΦA restOther; rw [scopedRest0_eq]; simp only [scM0_0, scM0_1, owns_whole]; try rfl

end Cert.Kernel.Hand

end
-- ==== Proof.K.R0RunA.lean ====
import proofs.«120267_j79353815761144_1_alg».proof.Proof.K.R0Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the FIRST point (first conditional taken, second not): on whole memrefs — the inputs at their
    contents, the two idle outputs at contents handed back untouched, the two running-sum buffers at anything — it
    runs to the continuation holding the inputs as they were, the outputs as they were, and each running-sum buffer
    with the found pieces written. -/
noncomputable def kernelRun0_A (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) :
    Σ' (L3 : List (View.Piece (Elt F) S1x64 .f32)) (L4 : List (View.Piece (Elt F) S1x64 .f32)) (LS0 : List (View.Piece (Elt F) S1x64 .f32)), { LS1 : List (View.Piece (Elt F) S1x64 .f32) //
      ∀ (xi3 xi4 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨[], [], ?_, ?_, fun xi3 xi4 E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HS0]; · iexists _; iexact HS0
    iexists _; iexact HS1

end Cert.Kernel.Hand

end
-- ==== Proof.K.R0RunB.lean ====
import proofs.«120267_j79353815761144_1_alg».proof.Proof.K.R0Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE point (neither conditional taken): as at the first point, but the two running-sum buffers
    are found at the contents `xs0`, `xs1` the point before left. -/
noncomputable def kernelRun0_B (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) :
    Σ' (L3 : List (View.Piece (Elt F) S1x64 .f32)) (L4 : List (View.Piece (Elt F) S1x64 .f32)) (LS0 : List (View.Piece (Elt F) S1x64 .f32)), { LS1 : List (View.Piece (Elt F) S1x64 .f32) //
      ∀ (xi3 xi4 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨[], [], ?_, ?_, fun xi3 xi4 E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg6.eq_unread hfs0; obtain rfl := harg7.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HS0]; · iexists _; iexact HS0
    iexists _; iexact HS1

end Cert.Kernel.Hand

end
-- ==== Proof.K.R0RunC.lean ====
import proofs.«120267_j79353815761144_1_alg».proof.Proof.K.R0Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the LAST point (second conditional taken): the running-sum buffers are found at `xs0`, `xs1`, the
    outputs at anything; every one of the four ends with its found pieces written. -/
noncomputable def kernelRun0_C (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) :
    Σ' (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg6.eq_unread hfs0; obtain rfl := harg7.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [HS0]; · iexists _; iexact HS0
    iexists _; iexact HS1

end Cert.Kernel.Hand

end
-- ==== Proof.K.R0.lean ====
import proofs.«120267_j79353815761144_1_alg».proof.Proof.K.R0RunA
import proofs.«120267_j79353815761144_1_alg».proof.Proof.K.R0RunB
import proofs.«120267_j79353815761144_1_alg».proof.Proof.K.R0RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves in the outputs and the running sums -/

/-- What the first point leaves in output 3's buffer: its pieces read back (none: a placeholder nothing consults, the window being idle and not written back there). -/
def out0_A_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) : Vec F S1x64 .f32 :=
  VO0_3.read (Elt F) (VO0_3.writes (Elt F) VO0_3.junk (kernelRun0_A c i arg1 harg1 arg2 harg2 arg3 harg3 arg4 harg4 arg5 harg5 arg6 harg6 arg7 harg7 hc0 hc1 x0 x1 x2).1)

/-- What the first point leaves in output 4's buffer: its pieces read back (none: a placeholder nothing consults, the window being idle and not written back there). -/
def out0_A_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) : Vec F S1x64 .f32 :=
  VO0_4.read (Elt F) (VO0_4.writes (Elt F) VO0_4.junk (kernelRun0_A c i arg1 harg1 arg2 harg2 arg3 harg3 arg4 harg4 arg5 harg5 arg6 harg6 arg7 harg7 hc0 hc1 x0 x1 x2).2.1)

/-- At the first point the pieces stored into running-sum buffer 0 tile it, so they cover it. -/
theorem scover0_A_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) (y : S1x64.Idx) :
    ∃ pc ∈ (kernelRun0_A c i arg1 harg1 arg2 harg2 arg3 harg3 arg4 harg4 arg5 harg5 arg6 harg6 arg7 harg7 hc0 hc1 x0 x1 x2).2.2.1, y ∈ pc.1.set :=
  View.cover_of_tiledL (kernelRun0_A c i arg1 harg1 arg2 harg2 arg3 harg3 arg4 harg4 arg5 harg5 arg6 harg6 arg7 harg7 hc0 hc1 x0 x1 x2).2.2.1 S1x64.size (by sl_kernel_rfl) y

/-- What the first point leaves in running-sum buffer 0: its pieces read back. -/
def sout0_A_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2).2.2.1)

/-- At the first point the pieces stored into running-sum buffer 1 tile it, so they cover it. -/
theorem scover0_A_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) (y : S1x64.Idx) :
    ∃ pc ∈ (kernelRun0_A c i arg1 harg1 arg2 harg2 arg3 harg3 arg4 harg4 arg5 harg5 arg6 harg6 arg7 harg7 hc0 hc1 x0 x1 x2).2.2.2.1, y ∈ pc.1.set :=
  View.cover_of_tiledL (kernelRun0_A c i arg1 harg1 arg2 harg2 arg3 harg3 arg4 harg4 arg5 harg5 arg6 harg6 arg7 harg7 hc0 hc1 x0 x1 x2).2.2.2.1 S1x64.size (by sl_kernel_rfl) y

/-- What the first point leaves in running-sum buffer 1: its pieces read back. -/
def sout0_A_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 hc0 hc1 x0 x1 x2).2.2.2.1)

/-- What a middle point leaves in output 3's buffer: its pieces read back (none: a placeholder nothing consults, the window being idle and not written back there). -/
def out0_B_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) : Vec F S1x64 .f32 :=
  VO0_3.read (Elt F) (VO0_3.writes (Elt F) VO0_3.junk (kernelRun0_B c i arg1 harg1 arg2 harg2 arg3 harg3 arg4 harg4 arg5 harg5 arg6 harg6 arg7 harg7 hc0 hc1 x0 x1 x2 xs0 xs1).1)

/-- What a middle point leaves in output 4's buffer: its pieces read back (none: a placeholder nothing consults, the window being idle and not written back there). -/
def out0_B_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) : Vec F S1x64 .f32 :=
  VO0_4.read (Elt F) (VO0_4.writes (Elt F) VO0_4.junk (kernelRun0_B c i arg1 harg1 arg2 harg2 arg3 harg3 arg4 harg4 arg5 harg5 arg6 harg6 arg7 harg7 hc0 hc1 x0 x1 x2 xs0 xs1).2.1)

/-- At a middle point the pieces stored into running-sum buffer 0 tile it, so they cover it. -/
theorem scover0_B_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) (y : S1x64.Idx) :
    ∃ pc ∈ (kernelRun0_B c i arg1 harg1 arg2 harg2 arg3 harg3 arg4 harg4 arg5 harg5 arg6 harg6 arg7 harg7 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.1 S1x64.size (by sl_kernel_rfl) y

/-- What a middle point leaves in running-sum buffer 0: its pieces read back. -/
def sout0_B_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 xs0 xs1).2.2.1)

/-- At a middle point the pieces stored into running-sum buffer 1 tile it, so they cover it. -/
theorem scover0_B_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) (y : S1x64.Idx) :
    ∃ pc ∈ (kernelRun0_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.2.1 S1x64.size (by sl_kernel_rfl) y

/-- What a middle point leaves in running-sum buffer 1: its pieces read back. -/
def sout0_B_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 hc0 hc1 x0 x1 x2 xs0 xs1).2.2.2.1)

/-- At the last point the pieces stored into output 3 tile its block, so they cover it. -/
theorem cover0_C_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) (y : S1x64.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL (kernelRun0_C c i arg1 harg1 arg2 harg2 arg3 harg3 arg4 harg4 arg5 harg5 arg6 harg6 arg7 harg7 hc0 hc1 x0 x1 x2 xs0 xs1).1 S1x64.size (by sl_kernel_rfl) y

/-- What the last point leaves in output 3's buffer: its pieces read back. -/
def out0_C_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) : Vec F S1x64 .f32 :=
  VO0_3.read (Elt F) (VO0_3.writes (Elt F) VO0_3.junk (kernelRun0_C c i arg1 harg1 arg2 harg2 arg3 harg3 arg4 harg4 arg5 harg5 arg6 harg6 arg7 harg7 hc0 hc1 x0 x1 x2 xs0 xs1).1)

/-- At the last point the pieces stored into output 4 tile its block, so they cover it. -/
theorem cover0_C_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) (y : S1x64.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL (kernelRun0_C c i arg1 harg1 arg2 harg2 arg3 harg3 arg4 harg4 arg5 harg5 arg6 harg6 arg7 harg7 hc0 hc1 x0 x1 x2 xs0 xs1).2.1 S1x64.size (by sl_kernel_rfl) y

/-- What the last point leaves in output 4's buffer: its pieces read back. -/
def out0_C_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) : Vec F S1x64 .f32 :=
  VO0_4.read (Elt F) (VO0_4.writes (Elt F) VO0_4.junk (kernelRun0_C c i arg1 harg1 arg2 harg2 arg3 harg3 arg4 harg4 arg5 harg5 arg6 harg6 arg7 harg7 hc0 hc1 x0 x1 x2 xs0 xs1).2.1)

/-- At the last point the pieces stored into running-sum buffer 0 tile it, so they cover it. -/
theorem scover0_C_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) (y : S1x64.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.1 S1x64.size (by sl_kernel_rfl) y

/-- What the last point leaves in running-sum buffer 0: its pieces read back. -/
def sout0_C_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 xs0 xs1).2.2.1)

/-- At the last point the pieces stored into running-sum buffer 1 tile it, so they cover it. -/
theorem scover0_C_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) (y : S1x64.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.2.1 S1x64.size (by sl_kernel_rfl) y

/-- What the last point leaves in running-sum buffer 1: its pieces read back. -/
def sout0_C_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 hc0 hc1 x0 x1 x2 xs0 xs1).2.2.2.1)

/-! ## What the outputs and the running sums hold after each point -/

/-- THE ACCUMULATION. What the two outputs' buffers and the two running-sum buffers hold after the body at position
    `n` (output 3, output 4, running sum 0, running sum 1): the case the point is in, run at the point's memrefs and
    input blocks, over what position `n - 1` left in the running sums. -/
def outsAt0 (c : Dev nD) : (n : ℕ) → n < cfg0.N → Vec F S1x64 .f32 × Vec F S1x64 .f32 × Vec F S1x64 .f32 × Vec F S1x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 5 = 0 then
      if h1 : (n + 1) % 5 = 4 then
        False.elim (by have hN : n + 1 < 5 := lt_of_lt_of_eq hn (show cfg0.N = 5 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 5 = 4 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val % 5 = 0) (h1 : ¬t.val % 5 = 4) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle point: over what the point before left. -/
theorem outsAt0_B (c : Dev nD) (t : Fin cfg0.N) (h0 : ¬t.val % 5 = 0) (h1 : ¬t.val % 5 = 4) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point: over what the point before left. -/
theorem outsAt0_C (c : Dev nD) (t : Fin cfg0.N) (h0 : ¬t.val % 5 = 0) (h1 : t.val % 5 = 4) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the entry invariant (both running-sum
    buffers at anything); afterwards each running-sum buffer at what the point before left in it, the core's other
    scoped buffers and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restOther (F := F) c) ∗ (∃ r, prngReg c r)) := by
  cases n with
  | zero => exact absurd rfl hz
  | succ n => rfl

/-! ## The proof data -/

/-- The proof data of the region on core `c`: the arrays as the region finds them; after the body at point `t` each
    input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the closed forms say which of the three cases the
    point is in, so that case's run applies; the invariant hands the body the two running-sum buffers at what the
    point before left (at anything at the first point) and takes them back at this point's contents; the core's other
    scoped buffers, the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 5 := lt_of_lt_of_eq t.isLt (show cfg0.N = 5 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
      · exfalso; omega
  · by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the entry invariant back: what the running sums hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 5 := N_0; omega)

end Regions

end Cert.Kernel.Hand

end
-- ==== Proof.K.R1.lean ====
import proofs.«120267_j79353815761144_1_alg».proof.Proof.Gen.Kernel.Launch
import proofs.«120267_j79353815761144_1_alg».proof.Proof.Gen.Kernel.Skeleton
import proofs.«120267_j79353815761144_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second pipelined region, at a parameter for the buffer contents it is entered with

The region's kernel reads seven input windows whole and overwrites its one output window whole. At contents
`V` of the core's buffers when the region is entered, this file states: each window's block at a grid point;
what the body leaves in the output window's buffer as a function of the seven input blocks; the body's
separation-logic triple; the pipeline's proof data; and the pipeline library's body obligation at every point.
-/

-- membership in a rectangle with a long axis: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether or not the pipeline fetched
    it there, for any proof data whose array is `V`'s (`hA`) and whose body leaves the block in place (`hafter`):
    where the window is not fetched its block index has not moved, so the buffer still holds the previous point's
    block, which is this point's. Each window is uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x128 := Rect.unit (s := S10000x128) ![0, 0] S10000x128.size inb_S10000x128_S10000x128_0_0
abbrev r1_1 : Rect S128x64 := Rect.unit (s := S128x64) ![0, 0] S128x64.size inb_S128x64_S128x64_0_0
abbrev r1_2 : Rect S1x64 := Rect.unit (s := S1x64) ![0, 0] S1x64.size inb_S1x64_S1x64_0_0
abbrev r1_5 : Rect S64x40 := Rect.unit (s := S64x40) ![0, 0] S64x40.size inb_S64x40_S64x40_0_0
abbrev r1_6 : Rect S1x40 := Rect.unit (s := S1x40) ![0, 0] S1x40.size inb_S1x40_S1x40_0_0
abbrev r1_7 : Rect S10000x40 := Rect.unit (s := S10000x40) ![0, 0] S10000x40.size inb_S10000x40_S10000x40_0_0

/-! ## What the body leaves in the output window's buffer -/

/-- The output window's staging buffer after the body, from the input windows' blocks: its one store, of the
    payload computed from the seven loaded blocks, over the whole buffer. -/
def out1_7 (x0 : Vec F S10000x128 .bf16) (x1 : Vec F S128x64 .bf16) (x2 x3 x4 : Vec F S1x64 .f32) (x5 : Vec F S64x40 .bf16) (x6 : Vec F S1x40 .f32) : Vec F S10000x40 .f32 :=
  View.canon [⟨r1_7, k1_pay1 (View.ld x0 r1_0) (View.ld x1 r1_1) (View.ld x2 r1_2) (View.ld x3 r1_2) (View.ld x4 r1_2) (View.ld x5 r1_5) (View.ld x6 r1_6)⟩]

/-- The one store tiles the buffer, so it covers it. -/
theorem cover1_7 (p0 : Vec F S10000x40 .f32) (y : S10000x40.Idx) :
    ∃ pc ∈ ([⟨r1_7, p0⟩] : List (View.Piece (Elt F) S10000x40 .f32)), y ∈ pc.1.set :=
  View.cover_of_tiled [⟨r1_7, p0⟩] S10000x40.size (by rfl) y

/-! ## The body's triple -/

set_option maxHeartbeats 4000000 in
/-- The kernel body on whole staging memrefs, the inputs' at read contents `xW` and the output's at anything, runs to
    the continuation holding the inputs' as they were and the output's at `out1_7` of the inputs'. The body also reads
    the output buffer before overwriting it; the value read is not used, so nothing is asked of those contents. -/
theorem sound_kernel1 (c : Dev nD) (E : Set ℕ) (i : grid1.Coords) (arg0 : Memref sig .tc .vmem S10000x128 .bf16) (harg0 : arg0.IsWhole) (arg1 : Memref sig .tc .vmem S128x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x40 .bf16) (harg5 : arg5.IsWhole) (arg6 : Memref sig .tc .vmem S1x40 .f32) (harg6 : arg6.IsWhole) (arg7 : Memref sig .tc .vmem S10000x40 .f32) (harg7 : arg7.IsWhole)
    (x0 : Vec F S10000x128 .bf16) (x1 : Vec F S128x64 .bf16) (x2 : Vec F S1x64 .f32) (x3 : Vec F S1x64 .f32) (x4 : Vec F S1x64 .f32) (x5 : Vec F S64x40 .bf16) (x6 : Vec F S1x40 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp2_kernel i arg0 harg0 arg1 harg1 arg2 harg2 arg3 harg3 arg4 harg4 arg5 harg5 arg6 harg6 arg7 harg7) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region's pipeline on core `c`: the arrays as the region finds them (`V`); after the body at
    point `t` each input's buffer at its block and the output's at `out1_7` of the input blocks; the invariant that
    leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
import proofs.«120267_j79353815761144_1_alg».proof.Proof.Gen.Kernel.Launch
import proofs.«120267_j79353815761144_1_alg».proof.Proof.Gen.Kernel.Skeleton
import proofs.«120267_j79353815761144_1_alg».proof.Proof.Gen.Kernel.Points
import proofs.«120267_j79353815761144_1_alg».proof.Proof.K.R0
import proofs.«120267_j79353815761144_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

/-! The whole program run: host operations, the statistics region, host operations, the apply region.
    Between consecutive segments the TensorCore's buffers are named (`Wlaunch`, `Wpre`, `Wstat`, `Wmid`, `Wend`);
    the run ends with every unscoped buffer at `Wend`. -/

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
abbrev Wlaunch : Dev nD → Valuation τ sig (Elt F) := fun c b => (s₀ m ρ).mem ((c : Dev nD), b)
/-- After the first stretch of host operations (the propagation hops, the casts, the reshapes): what the statistics region finds. -/
abbrev Wpre : Dev nD → Valuation τ sig (Elt F) := fun c => StableHlo.after hostOps0 (Wlaunch m ρ c)
abbrev Vpre : (c : Dev nD) → (b : Ref sig .tc) → Buf (Elt F) ((c : Thread nD τ).loc b) := fun c b => Wpre m ρ c b
/-- After the statistics region: its arrays at what its write-backs leave, every other buffer as before. -/
def Wstat (c : Dev nD) : Valuation τ sig (Elt F) :=
  Pipeline.withArrays spec0 c (Wpre m ρ c) fun w => (dat0 (Vpre m ρ) c).arrAt w cfg0.N
theorem Wstat_arr (c : Dev nD) (w : Fin cfg0.W) :
    Wstat m ρ c (Proc.devRef .tc (Pipeline.arrRef spec0 w)) = (dat0 (Vpre m ρ) c).arrAt w cfg0.N := by
  unfold Wstat; exact Pipeline.withArrays_arr spec0 launch0.win.arr_inj c _ _ w
theorem Wstat_of_ne (c : Dev nD) (b : Ref sig .tc) (hb : ∀ w, Pipeline.arrRef spec0 w ≠ b) :
    Wstat m ρ c (Proc.devRef .tc b) = Wpre m ρ c (Proc.devRef .tc b) := by
  unfold Wstat; exact Pipeline.withArrays_of_ne spec0 c _ _ b hb
abbrev Vstat : (c : Dev nD) → (b : Ref sig .tc) → Buf (Elt F) ((c : Thread nD τ).loc b) := fun c b => Wstat m ρ c b
theorem hFstat (c : Dev nD) (w : Fin cfg0.W) : (dat0 (Vpre m ρ) c).arrAt w cfg0.N = Vstat m ρ c (Pipeline.arrRef spec0 w) :=
  (Wstat_arr m ρ c w).symm
theorem hrest_stat (c : Dev nD) : ∀ b, b ∉ Finset.univ.image (Pipeline.arrRef spec0) → Vstat m ρ c b = Vpre m ρ c b :=
  fun b hb => Wstat_of_ne m ρ c b fun w e => hb (Finset.mem_image.mpr ⟨w, Finset.mem_univ _, e⟩)

/-- After the second stretch (mean and variance from the two sums): what the apply region finds. -/
abbrev Wmid : Dev nD → Valuation τ sig (Elt F) := fun c => StableHlo.after hostOps1 (Wstat m ρ c)
abbrev Vmid : (c : Dev nD) → (b : Ref sig .tc) → Buf (Elt F) ((c : Thread nD τ).loc b) := fun c b => Wmid m ρ c b
/-- After the apply region. -/
def Wend (c : Dev nD) : Valuation τ sig (Elt F) :=
  Pipeline.withArrays spec1 c (Wmid m ρ c) fun w => (dat1 (Vmid m ρ) c).arrAt w cfg1.N
theorem Wend_arr (c : Dev nD) (w : Fin cfg1.W) :
    Wend m ρ c (Proc.devRef .tc (Pipeline.arrRef spec1 w)) = (dat1 (Vmid m ρ) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m ρ c (Proc.devRef .tc b) = Wmid m ρ c (Proc.devRef .tc b) := by
  unfold Wend; exact Pipeline.withArrays_of_ne spec1 c _ _ b hb
abbrev Vend : (c : Dev nD) → (b : Ref sig .tc) → Buf (Elt F) ((c : Thread nD τ).loc b) := fun c b => Wend m ρ c b
theorem hFend (c : Dev nD) (w : Fin cfg1.W) : (dat1 (Vmid m ρ) c).arrAt w cfg1.N = Vend m ρ c (Pipeline.arrRef spec1 w) :=
  (Wend_arr m ρ c w).symm
theorem hrest_end (c : Dev nD) : ∀ b, b ∉ Finset.univ.image (Pipeline.arrRef spec1) → Vend m ρ c b = Vmid m ρ c b :=
  fun b hb => Wend_of_ne m ρ c b fun w e => hb (Finset.mem_image.mpr ⟨w, Finset.mem_univ _, e⟩)

/-! ## The argument arrays are never written -/

/-- The seven argument arrays. -/
abbrev argRefs : List (Ref sig .tc) := [main_arg0, main_arg1, main_arg2, main_arg3, main_arg4, main_arg5, main_arg6]

set_option maxHeartbeats 4000000 in
/-- No operation of the first host stretch writes an argument array. -/
theorem hostOps0_keeps (b : Ref sig .tc) (hb : b ∈ argRefs) :
    ∀ op ∈ (hostOps0 : List (HloOp τ sig (Elt F))), (Proc.devRef .tc b : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide)))

/-- Nor does one of the second stretch. -/
theorem hostOps1_keeps (b : Ref sig .tc) (hb : b ∈ argRefs) :
    ∀ op ∈ (hostOps1 : List (HloOp τ sig (Elt F))), (Proc.devRef .tc b : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide)))

/-- An argument array ends as launched: neither host stretch writes it and it is no array of either region. -/
theorem Wend_arg (c : Dev nD) (b : Ref sig .tc) (hb : b ∈ argRefs) (h0 : ∀ w, Pipeline.arrRef spec0 w ≠ b) (h1 : ∀ w, Pipeline.arrRef spec1 w ≠ b) :
    Wend m ρ c (Proc.devRef .tc b) = m ((c : Thread nD τ).loc b) :=
  calc Wend m ρ c (Proc.devRef .tc b)
    _ = Wmid m ρ c (Proc.devRef .tc b) := Wend_of_ne m ρ c b h1
    _ = Wstat m ρ c (Proc.devRef .tc b) := StableHlo.after_of_forall_not_mem (b := Proc.devRef .tc b) _ _ (hostOps1_keeps b hb)
    _ = Wpre m ρ c (Proc.devRef .tc b) := Wstat_of_ne m ρ c b h0
    _ = Wlaunch m ρ c (Proc.devRef .tc b) := StableHlo.after_of_forall_not_mem (b := Proc.devRef .tc b) _ _ (hostOps0_keeps b hb)
    _ = m ((c : Thread nD τ).loc b) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vpre m ρ) c
  | ⟨1, _⟩ => fun c => dat1 (Vmid m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wend m ρ c) ∗ ∃ r, prngReg c r)

/-! ## The regions as segments -/

set_option backward.isDefEq.respectTransparency.types false in
/-- The statistics region: entered from every unscoped buffer at `Wpre`, left at `Wstat`. The invariant starts as the
    class's (every scratch at anything) and ends giving it back, the carried scratch's contents forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vpre m ρ) c).loose
  hwaits := Pipeline.hwaits_of_owed_zero _ _ _ _ L lv 0 fun _ _ => rfl
  pre c := iprop(StableHlo.held (c : Thread nD τ) (Pipeline.ucRefs τ sig) (Wpre m ρ c) ∗ R c)
  post c := iprop(StableHlo.held (c : Thread nD τ) (Pipeline.ucRefs τ sig) (Wstat m ρ c) ∗ R c)
  X c := iprop(∃ r, prngReg c r)
  Y c := iprop(∃ r, prngReg c r)
  Z c := Pipeline.unscopedRest (Ix := Unit) (Name := ℕ) (U := UR sig nD τ) (Lvl := ℕ) spec0 c (Vpre m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vpre m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (Vpre m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (Vpre m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vpre m ρ c) (Vstat m ρ c) ((pdats m ρ 0 c).arrAt · cfg0.N) (hFstat m ρ c) (hrest_stat m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The apply region: entered from every unscoped buffer at `Wmid`, left at `Wend`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vmid m ρ) c).loose
  hwaits := Pipeline.hwaits_of_owed_zero _ _ _ _ L lv 1 fun _ _ => rfl
  pre c := iprop(StableHlo.held (c : Thread nD τ) (Pipeline.ucRefs τ sig) (Wmid m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vmid m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vmid m ρ c) (Vend m ρ c) ((pdats m ρ 1 c).arrAt · cfg1.N) (hFend m ρ c) (hrest_end m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (Wlaunch m ρ)),
    .region (reg0 m ρ),
    .host (hseg hostOps1 hostOps1_sub hostOps1_fresh (Wstat m ρ)),
    .region (reg1 m ρ) ]

set_option maxHeartbeats 4000000 in
theorem main_run (c : Dev nD) : main (F := F) c = Pipeline.Seg.run (segs m ρ) := (main_chain c).trans (by chain_rfl)

set_option backward.isDefEq.respectTransparency.types false in
/-- Every weakly fair execution of the program terminates, nothing faulting, with every unscoped TensorCore buffer at `Wend`. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = Wend m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wlaunch m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wlaunch m ρ c)
        from Pipeline.unscopedBufs_held c (Wlaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := hQ)

/-- The frame: the program runs to the end, faults nowhere, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main m ρ fun s h c =>
    ⟨(h c _ (mem_uc main_arg0 (by decide))).trans (Wend_arg m ρ c main_arg0 (by decide) (by decide) (by decide)),
     (h c _ (mem_uc main_arg1 (by decide))).trans (Wend_arg m ρ c main_arg1 (by decide) (by decide) (by decide)),
     (h c _ (mem_uc main_arg2 (by decide))).trans (Wend_arg m ρ c main_arg2 (by decide) (by decide) (by decide)),
     (h c _ (mem_uc main_arg3 (by decide))).trans (Wend_arg m ρ c main_arg3 (by decide) (by decide) (by decide)),
     (h c _ (mem_uc main_arg4 (by decide))).trans (Wend_arg m ρ c main_arg4 (by decide) (by decide) (by decide)),
     (h c _ (mem_uc main_arg5 (by decide))).trans (Wend_arg m ρ c main_arg5 (by decide) (by decide) (by decide)),
     (h c _ (mem_uc main_arg6 (by decide))).trans (Wend_arg m ρ c main_arg6 (by decide) (by decide) (by decide))⟩

end Cert.Kernel.Hand

end
-- ==== Proof.KI.R0Runs.lean ====
import proofs.«120267_j79353815761144_1_alg».proof.Proof.Gen.KernelIdeal.Launch
import proofs.«120267_j79353815761144_1_alg».proof.Proof.Gen.KernelIdeal.Skeleton
import proofs.«120267_j79353815761144_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the statistics kernel, at the entry contents `V`

The kernel keeps two running sums (of the rows of `h = x·w + b` and of their squares) in two buffers of its own
across the five grid points, clears them at the first point and copies them to its two outputs at the last. -/

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the block was fetched there or its
    index did not move since the last fetch: for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's two branch conditions -/

/-- The first conditional's condition (the point is the first of the grid), from the grid coordinates. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 5 = 0 :=
  (by decide +kernel : ∀ t : Fin grid0.N, cond0_0 (grid0.coords t) ↔ t.val % 5 = 0)

/-- The second conditional's condition (the point is the last of the grid). -/
abbrev cond0_1 (i : grid0.Coords) : Prop := k0_cond2 i = 1#1
/-- It holds at point 4 only. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the two outputs are idle (nothing is stored into them) and are not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At the last point both outputs are live. -/
theorem liveAt0_3_C : ∀ t : Fin cfg0.N, ¬cond0_0 (grid0.coords t) → cond0_1 (grid0.coords t) → cfg0.idle 3 (grid0.coords t) = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- A buffer of each output window, through which its contents are stated (a covering list of writes reads the same
    through any view). -/
abbrev VO0_3 : View sig .tc .vmem S1x64 .f32 := (Memref.whole cc0_stg3_0 : Memref sig .tc .vmem S1x64 .f32).view
abbrev VO0_4 : View sig .tc .vmem S1x64 .f32 := (Memref.whole cc0_stg4_0 : Memref sig .tc .vmem S1x64 .f32).view
/-- Each window's current buffer at point `t`, and its wholeness. -/
abbrev ms0_0 (t : Fin cfg0.N) : Memref sig .tc .vmem S10000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
/-- The two running-sum buffers: whole buffers of the kernel's own, passed beside the windows. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The other scoped buffers of the core (the second kernel's), each whole at some contents: what the region's
    invariant carries beside the two running sums and never touches. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region's entry invariant with the two running-sum buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restOther (F := F) c) ∗ (∃ r, prngReg c r)) := by
  unfold Pipeline.ΦA restOther; rw [scopedRest0_eq]; simp only [scM0_0, scM0_1, owns_whole]; try rfl

end Cert.KernelIdeal.Hand

end
-- ==== Proof.KI.R0RunA.lean ====
import proofs.«120267_j79353815761144_1_alg».proof.Proof.KI.R0Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the FIRST point (first conditional taken, second not): on whole memrefs — the inputs at their
    contents, the two idle outputs at contents handed back untouched, the two running-sum buffers at anything — it
    runs to the continuation holding the inputs as they were, the outputs as they were, and each running-sum buffer
    with the found pieces written. -/
noncomputable def kernelRun0_A (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) :
    Σ' (L3 : List (View.Piece (Elt F) S1x64 .f32)) (L4 : List (View.Piece (Elt F) S1x64 .f32)) (LS0 : List (View.Piece (Elt F) S1x64 .f32)), { LS1 : List (View.Piece (Elt F) S1x64 .f32) //
      ∀ (xi3 xi4 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨[], [], ?_, ?_, fun xi3 xi4 E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HS0]; · iexists _; iexact HS0
    iexists _; iexact HS1

end Cert.KernelIdeal.Hand

end
-- ==== Proof.KI.R0RunB.lean ====
import proofs.«120267_j79353815761144_1_alg».proof.Proof.KI.R0Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE point (neither conditional taken): as at the first point, but the two running-sum buffers
    are found at the contents `xs0`, `xs1` the point before left. -/
noncomputable def kernelRun0_B (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) :
    Σ' (L3 : List (View.Piece (Elt F) S1x64 .f32)) (L4 : List (View.Piece (Elt F) S1x64 .f32)) (LS0 : List (View.Piece (Elt F) S1x64 .f32)), { LS1 : List (View.Piece (Elt F) S1x64 .f32) //
      ∀ (xi3 xi4 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨[], [], ?_, ?_, fun xi3 xi4 E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg6.eq_unread hfs0; obtain rfl := harg7.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HS0]; · iexists _; iexact HS0
    iexists _; iexact HS1

end Cert.KernelIdeal.Hand

end
-- ==== Proof.KI.R0RunC.lean ====
import proofs.«120267_j79353815761144_1_alg».proof.Proof.KI.R0Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the LAST point (second conditional taken): the running-sum buffers are found at `xs0`, `xs1`, the
    outputs at anything; every one of the four ends with its found pieces written. -/
noncomputable def kernelRun0_C (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) :
    Σ' (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg6.eq_unread hfs0; obtain rfl := harg7.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.R0.lean ====
import proofs.«120267_j79353815761144_1_alg».proof.Proof.KI.R0RunA
import proofs.«120267_j79353815761144_1_alg».proof.Proof.KI.R0RunB
import proofs.«120267_j79353815761144_1_alg».proof.Proof.KI.R0RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves in the outputs and the running sums -/

/-- What the first point leaves in output 3's buffer: its pieces read back (none: a placeholder nothing consults, the window being idle and not written back there). -/
def out0_A_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) : Vec F S1x64 .f32 :=
  VO0_3.read (Elt F) (VO0_3.writes (Elt F) VO0_3.junk (kernelRun0_A c i arg1 harg1 arg2 harg2 arg3 harg3 arg4 harg4 arg5 harg5 arg6 harg6 arg7 harg7 hc0 hc1 x0 x1 x2).1)

/-- What the first point leaves in output 4's buffer: its pieces read back (none: a placeholder nothing consults, the window being idle and not written back there). -/
def out0_A_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) : Vec F S1x64 .f32 :=
  VO0_4.read (Elt F) (VO0_4.writes (Elt F) VO0_4.junk (kernelRun0_A c i arg1 harg1 arg2 harg2 arg3 harg3 arg4 harg4 arg5 harg5 arg6 harg6 arg7 harg7 hc0 hc1 x0 x1 x2).2.1)

/-- At the first point the pieces stored into running-sum buffer 0 tile it, so they cover it. -/
theorem scover0_A_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) (y : S1x64.Idx) :
    ∃ pc ∈ (kernelRun0_A c i arg1 harg1 arg2 harg2 arg3 harg3 arg4 harg4 arg5 harg5 arg6 harg6 arg7 harg7 hc0 hc1 x0 x1 x2).2.2.1, y ∈ pc.1.set :=
  View.cover_of_tiledL (kernelRun0_A c i arg1 harg1 arg2 harg2 arg3 harg3 arg4 harg4 arg5 harg5 arg6 harg6 arg7 harg7 hc0 hc1 x0 x1 x2).2.2.1 S1x64.size (by sl_kernel_rfl) y

/-- What the first point leaves in running-sum buffer 0: its pieces read back. -/
def sout0_A_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2).2.2.1)

/-- At the first point the pieces stored into running-sum buffer 1 tile it, so they cover it. -/
theorem scover0_A_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) (y : S1x64.Idx) :
    ∃ pc ∈ (kernelRun0_A c i arg1 harg1 arg2 harg2 arg3 harg3 arg4 harg4 arg5 harg5 arg6 harg6 arg7 harg7 hc0 hc1 x0 x1 x2).2.2.2.1, y ∈ pc.1.set :=
  View.cover_of_tiledL (kernelRun0_A c i arg1 harg1 arg2 harg2 arg3 harg3 arg4 harg4 arg5 harg5 arg6 harg6 arg7 harg7 hc0 hc1 x0 x1 x2).2.2.2.1 S1x64.size (by sl_kernel_rfl) y

/-- What the first point leaves in running-sum buffer 1: its pieces read back. -/
def sout0_A_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 hc0 hc1 x0 x1 x2).2.2.2.1)

/-- What a middle point leaves in output 3's buffer: its pieces read back (none: a placeholder nothing consults, the window being idle and not written back there). -/
def out0_B_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) : Vec F S1x64 .f32 :=
  VO0_3.read (Elt F) (VO0_3.writes (Elt F) VO0_3.junk (kernelRun0_B c i arg1 harg1 arg2 harg2 arg3 harg3 arg4 harg4 arg5 harg5 arg6 harg6 arg7 harg7 hc0 hc1 x0 x1 x2 xs0 xs1).1)

/-- What a middle point leaves in output 4's buffer: its pieces read back (none: a placeholder nothing consults, the window being idle and not written back there). -/
def out0_B_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) : Vec F S1x64 .f32 :=
  VO0_4.read (Elt F) (VO0_4.writes (Elt F) VO0_4.junk (kernelRun0_B c i arg1 harg1 arg2 harg2 arg3 harg3 arg4 harg4 arg5 harg5 arg6 harg6 arg7 harg7 hc0 hc1 x0 x1 x2 xs0 xs1).2.1)

/-- At a middle point the pieces stored into running-sum buffer 0 tile it, so they cover it. -/
theorem scover0_B_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) (y : S1x64.Idx) :
    ∃ pc ∈ (kernelRun0_B c i arg1 harg1 arg2 harg2 arg3 harg3 arg4 harg4 arg5 harg5 arg6 harg6 arg7 harg7 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.1 S1x64.size (by sl_kernel_rfl) y

/-- What a middle point leaves in running-sum buffer 0: its pieces read back. -/
def sout0_B_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 xs0 xs1).2.2.1)

/-- At a middle point the pieces stored into running-sum buffer 1 tile it, so they cover it. -/
theorem scover0_B_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) (y : S1x64.Idx) :
    ∃ pc ∈ (kernelRun0_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.2.1 S1x64.size (by sl_kernel_rfl) y

/-- What a middle point leaves in running-sum buffer 1: its pieces read back. -/
def sout0_B_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 hc0 hc1 x0 x1 x2 xs0 xs1).2.2.2.1)

/-- At the last point the pieces stored into output 3 tile its block, so they cover it. -/
theorem cover0_C_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) (y : S1x64.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL (kernelRun0_C c i arg1 harg1 arg2 harg2 arg3 harg3 arg4 harg4 arg5 harg5 arg6 harg6 arg7 harg7 hc0 hc1 x0 x1 x2 xs0 xs1).1 S1x64.size (by sl_kernel_rfl) y

/-- What the last point leaves in output 3's buffer: its pieces read back. -/
def out0_C_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) : Vec F S1x64 .f32 :=
  VO0_3.read (Elt F) (VO0_3.writes (Elt F) VO0_3.junk (kernelRun0_C c i arg1 harg1 arg2 harg2 arg3 harg3 arg4 harg4 arg5 harg5 arg6 harg6 arg7 harg7 hc0 hc1 x0 x1 x2 xs0 xs1).1)

/-- At the last point the pieces stored into output 4 tile its block, so they cover it. -/
theorem cover0_C_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) (y : S1x64.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL (kernelRun0_C c i arg1 harg1 arg2 harg2 arg3 harg3 arg4 harg4 arg5 harg5 arg6 harg6 arg7 harg7 hc0 hc1 x0 x1 x2 xs0 xs1).2.1 S1x64.size (by sl_kernel_rfl) y

/-- What the last point leaves in output 4's buffer: its pieces read back. -/
def out0_C_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) : Vec F S1x64 .f32 :=
  VO0_4.read (Elt F) (VO0_4.writes (Elt F) VO0_4.junk (kernelRun0_C c i arg1 harg1 arg2 harg2 arg3 harg3 arg4 harg4 arg5 harg5 arg6 harg6 arg7 harg7 hc0 hc1 x0 x1 x2 xs0 xs1).2.1)

/-- At the last point the pieces stored into running-sum buffer 0 tile it, so they cover it. -/
theorem scover0_C_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) (y : S1x64.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.1 S1x64.size (by sl_kernel_rfl) y

/-- What the last point leaves in running-sum buffer 0: its pieces read back. -/
def sout0_C_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 xs0 xs1).2.2.1)

/-- At the last point the pieces stored into running-sum buffer 1 tile it, so they cover it. -/
theorem scover0_C_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) (y : S1x64.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.2.1 S1x64.size (by sl_kernel_rfl) y

/-- What the last point leaves in running-sum buffer 1: its pieces read back. -/
def sout0_C_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 hc0 hc1 x0 x1 x2 xs0 xs1).2.2.2.1)

/-! ## What the outputs and the running sums hold after each point -/

/-- THE ACCUMULATION. What the two outputs' buffers and the two running-sum buffers hold after the body at position
    `n` (output 3, output 4, running sum 0, running sum 1): the case the point is in, run at the point's memrefs and
    input blocks, over what position `n - 1` left in the running sums. -/
def outsAt0 (c : Dev nD) : (n : ℕ) → n < cfg0.N → Vec F S1x64 .f32 × Vec F S1x64 .f32 × Vec F S1x64 .f32 × Vec F S1x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 5 = 0 then
      if h1 : (n + 1) % 5 = 4 then
        False.elim (by have hN : n + 1 < 5 := lt_of_lt_of_eq hn (show cfg0.N = 5 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 5 = 4 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val % 5 = 0) (h1 : ¬t.val % 5 = 4) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle point: over what the point before left. -/
theorem outsAt0_B (c : Dev nD) (t : Fin cfg0.N) (h0 : ¬t.val % 5 = 0) (h1 : ¬t.val % 5 = 4) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point: over what the point before left. -/
theorem outsAt0_C (c : Dev nD) (t : Fin cfg0.N) (h0 : ¬t.val % 5 = 0) (h1 : t.val % 5 = 4) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the entry invariant (both running-sum
    buffers at anything); afterwards each running-sum buffer at what the point before left in it, the core's other
    scoped buffers and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restOther (F := F) c) ∗ (∃ r, prngReg c r)) := by
  cases n with
  | zero => exact absurd rfl hz
  | succ n => rfl

/-! ## The proof data -/

/-- The proof data of the region on core `c`: the arrays as the region finds them; after the body at point `t` each
    input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the closed forms say which of the three cases the
    point is in, so that case's run applies; the invariant hands the body the two running-sum buffers at what the
    point before left (at anything at the first point) and takes them back at this point's contents; the core's other
    scoped buffers, the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 5 := lt_of_lt_of_eq t.isLt (show cfg0.N = 5 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
      · exfalso; omega
  · by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the entry invariant back: what the running sums hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 5 := N_0; omega)

end Regions

end Cert.KernelIdeal.Hand

end
-- ==== Proof.KI.R1.lean ====
import proofs.«120267_j79353815761144_1_alg».proof.Proof.Gen.KernelIdeal.Launch
import proofs.«120267_j79353815761144_1_alg».proof.Proof.Gen.KernelIdeal.Skeleton
import proofs.«120267_j79353815761144_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second pipelined region, at a parameter for the buffer contents it is entered with

The region's kernel reads seven input windows whole and overwrites its one output window whole. At contents
`V` of the core's buffers when the region is entered, this file states: each window's block at a grid point;
what the body leaves in the output window's buffer as a function of the seven input blocks; the body's
separation-logic triple; the pipeline's proof data; and the pipeline library's body obligation at every point.
-/

-- membership in a rectangle with a long axis: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether or not the pipeline fetched
    it there, for any proof data whose array is `V`'s (`hA`) and whose body leaves the block in place (`hafter`):
    where the window is not fetched its block index has not moved, so the buffer still holds the previous point's
    block, which is this point's. Each window is uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x128 := Rect.unit (s := S10000x128) ![0, 0] S10000x128.size inb_S10000x128_S10000x128_0_0
abbrev r1_1 : Rect S128x64 := Rect.unit (s := S128x64) ![0, 0] S128x64.size inb_S128x64_S128x64_0_0
abbrev r1_2 : Rect S1x64 := Rect.unit (s := S1x64) ![0, 0] S1x64.size inb_S1x64_S1x64_0_0
abbrev r1_5 : Rect S64x40 := Rect.unit (s := S64x40) ![0, 0] S64x40.size inb_S64x40_S64x40_0_0
abbrev r1_6 : Rect S1x40 := Rect.unit (s := S1x40) ![0, 0] S1x40.size inb_S1x40_S1x40_0_0
abbrev r1_7 : Rect S10000x40 := Rect.unit (s := S10000x40) ![0, 0] S10000x40.size inb_S10000x40_S10000x40_0_0

/-! ## What the body leaves in the output window's buffer -/

/-- The output window's staging buffer after the body, from the input windows' blocks: its one store, of the
    payload computed from the seven loaded blocks, over the whole buffer. -/
def out1_7 (x0 : Vec F S10000x128 .bf16) (x1 : Vec F S128x64 .bf16) (x2 x3 x4 : Vec F S1x64 .f32) (x5 : Vec F S64x40 .bf16) (x6 : Vec F S1x40 .f32) : Vec F S10000x40 .f32 :=
  View.canon [⟨r1_7, k1_pay1 (View.ld x0 r1_0) (View.ld x1 r1_1) (View.ld x2 r1_2) (View.ld x3 r1_2) (View.ld x4 r1_2) (View.ld x5 r1_5) (View.ld x6 r1_6)⟩]

/-- The one store tiles the buffer, so it covers it. -/
theorem cover1_7 (p0 : Vec F S10000x40 .f32) (y : S10000x40.Idx) :
    ∃ pc ∈ ([⟨r1_7, p0⟩] : List (View.Piece (Elt F) S10000x40 .f32)), y ∈ pc.1.set :=
  View.cover_of_tiled [⟨r1_7, p0⟩] S10000x40.size (by rfl) y

/-! ## The body's triple -/

set_option maxHeartbeats 4000000 in
/-- The kernel body on whole staging memrefs, the inputs' at read contents `xW` and the output's at anything, runs to
    the continuation holding the inputs' as they were and the output's at `out1_7` of the inputs'. The body also reads
    the output buffer before overwriting it; the value read is not used, so nothing is asked of those contents. -/
theorem sound_kernel1 (c : Dev nD) (E : Set ℕ) (i : grid1.Coords) (arg0 : Memref sig .tc .vmem S10000x128 .bf16) (harg0 : arg0.IsWhole) (arg1 : Memref sig .tc .vmem S128x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x40 .bf16) (harg5 : arg5.IsWhole) (arg6 : Memref sig .tc .vmem S1x40 .f32) (harg6 : arg6.IsWhole) (arg7 : Memref sig .tc .vmem S10000x40 .f32) (harg7 : arg7.IsWhole)
    (x0 : Vec F S10000x128 .bf16) (x1 : Vec F S128x64 .bf16) (x2 : Vec F S1x64 .f32) (x3 : Vec F S1x64 .f32) (x4 : Vec F S1x64 .f32) (x5 : Vec F S64x40 .bf16) (x6 : Vec F S1x40 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp2_kernel i arg0 harg0 arg1 harg1 arg2 harg2 arg3 harg3 arg4 harg4 arg5 harg5 arg6 harg6 arg7 harg7) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region's pipeline on core `c`: the arrays as the region finds them (`V`); after the body at
    point `t` each input's buffer at its block and the output's at `out1_7` of the input blocks; the invariant that
    leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«120267_j79353815761144_1_alg».proof.Proof.Gen.KernelIdeal.Launch
import proofs.«120267_j79353815761144_1_alg».proof.Proof.Gen.KernelIdeal.Skeleton
import proofs.«120267_j79353815761144_1_alg».proof.Proof.Gen.KernelIdeal.Points
import proofs.«120267_j79353815761144_1_alg».proof.Proof.KI.R0
import proofs.«120267_j79353815761144_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

/-! The whole program run: host operations, the statistics region, host operations, the apply region.
    Between consecutive segments the TensorCore's buffers are named (`Wlaunch`, `Wpre`, `Wstat`, `Wmid`, `Wend`);
    the run ends with every unscoped buffer at `Wend`. -/

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
abbrev Wlaunch : Dev nD → Valuation τ sig (Elt F) := fun c b => (s₀ m ρ).mem ((c : Dev nD), b)
/-- After the first stretch of host operations (the propagation hops, the casts, the reshapes): what the statistics region finds. -/
abbrev Wpre : Dev nD → Valuation τ sig (Elt F) := fun c => StableHlo.after hostOps0 (Wlaunch m ρ c)
abbrev Vpre : (c : Dev nD) → (b : Ref sig .tc) → Buf (Elt F) ((c : Thread nD τ).loc b) := fun c b => Wpre m ρ c b
/-- After the statistics region: its arrays at what its write-backs leave, every other buffer as before. -/
def Wstat (c : Dev nD) : Valuation τ sig (Elt F) :=
  Pipeline.withArrays spec0 c (Wpre m ρ c) fun w => (dat0 (Vpre m ρ) c).arrAt w cfg0.N
theorem Wstat_arr (c : Dev nD) (w : Fin cfg0.W) :
    Wstat m ρ c (Proc.devRef .tc (Pipeline.arrRef spec0 w)) = (dat0 (Vpre m ρ) c).arrAt w cfg0.N := by
  unfold Wstat; exact Pipeline.withArrays_arr spec0 launch0.win.arr_inj c _ _ w
theorem Wstat_of_ne (c : Dev nD) (b : Ref sig .tc) (hb : ∀ w, Pipeline.arrRef spec0 w ≠ b) :
    Wstat m ρ c (Proc.devRef .tc b) = Wpre m ρ c (Proc.devRef .tc b) := by
  unfold Wstat; exact Pipeline.withArrays_of_ne spec0 c _ _ b hb
abbrev Vstat : (c : Dev nD) → (b : Ref sig .tc) → Buf (Elt F) ((c : Thread nD τ).loc b) := fun c b => Wstat m ρ c b
theorem hFstat (c : Dev nD) (w : Fin cfg0.W) : (dat0 (Vpre m ρ) c).arrAt w cfg0.N = Vstat m ρ c (Pipeline.arrRef spec0 w) :=
  (Wstat_arr m ρ c w).symm
theorem hrest_stat (c : Dev nD) : ∀ b, b ∉ Finset.univ.image (Pipeline.arrRef spec0) → Vstat m ρ c b = Vpre m ρ c b :=
  fun b hb => Wstat_of_ne m ρ c b fun w e => hb (Finset.mem_image.mpr ⟨w, Finset.mem_univ _, e⟩)

/-- After the second stretch (mean and variance from the two sums): what the apply region finds. -/
abbrev Wmid : Dev nD → Valuation τ sig (Elt F) := fun c => StableHlo.after hostOps1 (Wstat m ρ c)
abbrev Vmid : (c : Dev nD) → (b : Ref sig .tc) → Buf (Elt F) ((c : Thread nD τ).loc b) := fun c b => Wmid m ρ c b
/-- After the apply region. -/
def Wend (c : Dev nD) : Valuation τ sig (Elt F) :=
  Pipeline.withArrays spec1 c (Wmid m ρ c) fun w => (dat1 (Vmid m ρ) c).arrAt w cfg1.N
theorem Wend_arr (c : Dev nD) (w : Fin cfg1.W) :
    Wend m ρ c (Proc.devRef .tc (Pipeline.arrRef spec1 w)) = (dat1 (Vmid m ρ) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m ρ c (Proc.devRef .tc b) = Wmid m ρ c (Proc.devRef .tc b) := by
  unfold Wend; exact Pipeline.withArrays_of_ne spec1 c _ _ b hb
abbrev Vend : (c : Dev nD) → (b : Ref sig .tc) → Buf (Elt F) ((c : Thread nD τ).loc b) := fun c b => Wend m ρ c b
theorem hFend (c : Dev nD) (w : Fin cfg1.W) : (dat1 (Vmid m ρ) c).arrAt w cfg1.N = Vend m ρ c (Pipeline.arrRef spec1 w) :=
  (Wend_arr m ρ c w).symm
theorem hrest_end (c : Dev nD) : ∀ b, b ∉ Finset.univ.image (Pipeline.arrRef spec1) → Vend m ρ c b = Vmid m ρ c b :=
  fun b hb => Wend_of_ne m ρ c b fun w e => hb (Finset.mem_image.mpr ⟨w, Finset.mem_univ _, e⟩)

/-! ## The argument arrays are never written -/

/-- The seven argument arrays. -/
abbrev argRefs : List (Ref sig .tc) := [main_arg0, main_arg1, main_arg2, main_arg3, main_arg4, main_arg5, main_arg6]

set_option maxHeartbeats 4000000 in
/-- No operation of the first host stretch writes an argument array. -/
theorem hostOps0_keeps (b : Ref sig .tc) (hb : b ∈ argRefs) :
    ∀ op ∈ (hostOps0 : List (HloOp τ sig (Elt F))), (Proc.devRef .tc b : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide)))

/-- Nor does one of the second stretch. -/
theorem hostOps1_keeps (b : Ref sig .tc) (hb : b ∈ argRefs) :
    ∀ op ∈ (hostOps1 : List (HloOp τ sig (Elt F))), (Proc.devRef .tc b : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide)))

/-- An argument array ends as launched: neither host stretch writes it and it is no array of either region. -/
theorem Wend_arg (c : Dev nD) (b : Ref sig .tc) (hb : b ∈ argRefs) (h0 : ∀ w, Pipeline.arrRef spec0 w ≠ b) (h1 : ∀ w, Pipeline.arrRef spec1 w ≠ b) :
    Wend m ρ c (Proc.devRef .tc b) = m ((c : Thread nD τ).loc b) :=
  calc Wend m ρ c (Proc.devRef .tc b)
    _ = Wmid m ρ c (Proc.devRef .tc b) := Wend_of_ne m ρ c b h1
    _ = Wstat m ρ c (Proc.devRef .tc b) := StableHlo.after_of_forall_not_mem (b := Proc.devRef .tc b) _ _ (hostOps1_keeps b hb)
    _ = Wpre m ρ c (Proc.devRef .tc b) := Wstat_of_ne m ρ c b h0
    _ = Wlaunch m ρ c (Proc.devRef .tc b) := StableHlo.after_of_forall_not_mem (b := Proc.devRef .tc b) _ _ (hostOps0_keeps b hb)
    _ = m ((c : Thread nD τ).loc b) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vpre m ρ) c
  | ⟨1, _⟩ => fun c => dat1 (Vmid m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wend m ρ c) ∗ ∃ r, prngReg c r)

/-! ## The regions as segments -/

set_option backward.isDefEq.respectTransparency.types false in
/-- The statistics region: entered from every unscoped buffer at `Wpre`, left at `Wstat`. The invariant starts as the
    class's (every scratch at anything) and ends giving it back, the carried scratch's contents forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vpre m ρ) c).loose
  hwaits := Pipeline.hwaits_of_owed_zero _ _ _ _ L lv 0 fun _ _ => rfl
  pre c := iprop(StableHlo.held (c : Thread nD τ) (Pipeline.ucRefs τ sig) (Wpre m ρ c) ∗ R c)
  post c := iprop(StableHlo.held (c : Thread nD τ) (Pipeline.ucRefs τ sig) (Wstat m ρ c) ∗ R c)
  X c := iprop(∃ r, prngReg c r)
  Y c := iprop(∃ r, prngReg c r)
  Z c := Pipeline.unscopedRest (Ix := Unit) (Name := ℕ) (U := UR sig nD τ) (Lvl := ℕ) spec0 c (Vpre m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vpre m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (Vpre m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (Vpre m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vpre m ρ c) (Vstat m ρ c) ((pdats m ρ 0 c).arrAt · cfg0.N) (hFstat m ρ c) (hrest_stat m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The apply region: entered from every unscoped buffer at `Wmid`, left at `Wend`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vmid m ρ) c).loose
  hwaits := Pipeline.hwaits_of_owed_zero _ _ _ _ L lv 1 fun _ _ => rfl
  pre c := iprop(StableHlo.held (c : Thread nD τ) (Pipeline.ucRefs τ sig) (Wmid m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vmid m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vmid m ρ c) (Vend m ρ c) ((pdats m ρ 1 c).arrAt · cfg1.N) (hFend m ρ c) (hrest_end m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (Wlaunch m ρ)),
    .region (reg0 m ρ),
    .host (hseg hostOps1 hostOps1_sub hostOps1_fresh (Wstat m ρ)),
    .region (reg1 m ρ) ]

set_option maxHeartbeats 4000000 in
theorem main_run (c : Dev nD) : main (F := F) c = Pipeline.Seg.run (segs m ρ) := (main_chain c).trans (by chain_rfl)

set_option backward.isDefEq.respectTransparency.types false in
/-- Every weakly fair execution of the program terminates, nothing faulting, with every unscoped TensorCore buffer at `Wend`. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = Wend m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wlaunch m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wlaunch m ρ c)
        from Pipeline.unscopedBufs_held c (Wlaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := hQ)

/-- The frame: the program runs to the end, faults nowhere, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main m ρ fun s h c =>
    ⟨(h c _ (mem_uc main_arg0 (by decide))).trans (Wend_arg m ρ c main_arg0 (by decide) (by decide) (by decide)),
     (h c _ (mem_uc main_arg1 (by decide))).trans (Wend_arg m ρ c main_arg1 (by decide) (by decide) (by decide)),
     (h c _ (mem_uc main_arg2 (by decide))).trans (Wend_arg m ρ c main_arg2 (by decide) (by decide) (by decide)),
     (h c _ (mem_uc main_arg3 (by decide))).trans (Wend_arg m ρ c main_arg3 (by decide) (by decide) (by decide)),
     (h c _ (mem_uc main_arg4 (by decide))).trans (Wend_arg m ρ c main_arg4 (by decide) (by decide) (by decide)),
     (h c _ (mem_uc main_arg5 (by decide))).trans (Wend_arg m ρ c main_arg5 (by decide) (by decide) (by decide)),
     (h c _ (mem_uc main_arg6 (by decide))).trans (Wend_arg m ρ c main_arg6 (by decide) (by decide) (by decide))⟩

end Cert.KernelIdeal.Hand

end
-- ==== Proof.RefRun.lean ====
import proofs.«120267_j79353815761144_1_alg».proof.Defs
import proofs.«120267_j79353815761144_1_alg».proof.Proof.Gen.ReferenceIdeal.Read
import proofs.«120267_j79353815761144_1_alg».proof.Proof.Gen.Pre_finite_inputs

/-!
The two-pass program: it runs and leaves its arguments unchanged, and its result is the composed term of its
operations applied to the seven argument arrays.
-/

noncomputable section

namespace Cert.Proof.Ref

open Idealize.ShloMosaic Idealize.ShloMosaic.TcCoe Idealize.SL.Sem

/-- The two-pass program terminates without fault and its argument arrays end unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The two-pass program's run, with its result as the composed term of its operations read stage by stage. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v98)
          = Cert.ReferenceIdeal.Read.val_main_v98 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono
    (fun _ h c => ⟨(h c).1.trans (Cert.ReferenceIdeal.Read.val_main_v98_eq m' c), (h c).2⟩)
    (Cert.ReferenceIdeal.Value.run (F := Ideal) m' ρ')

end Cert.Proof.Ref

end
-- ==== Proof.Hops.lean ====
import proofs.«120267_j79353815761144_1_alg».proof.Proof.Gen.ReferenceIdeal.Read
import proofs.«120267_j79353815761144_1_alg».proof.Proof.Gen.KernelIdeal
import proofs.«120267_j79353815761144_1_alg».proof.KernelIdeal
import Idealize.ShloMosaic.Lib.ValueIdx
import Idealize.ShloMosaic.PureOps.Ideal.Laws

/-!
Five hops of sparse propagation.

The edge list has two rows: row 0 holds each edge's target node, row 1 its source node. One hop sends a
node-feature matrix `x` (50000 rows, 128 columns) to the matrix whose row `r` is the sum, over the edges `e`
with target `r`, of the weight of `e` times the row of `x` at the source of `e` (a negative source index is
first shifted up by 50000): the rows of `x` are gathered at the source indices, scaled by the weights, and
added into a zero matrix at the target indices. Both programs apply this map five times to the input
features. They write the scaling with its two factors in opposite orders; over the extended reals
multiplication commutes, so the two chains are equal. A hop sends a matrix of real numbers to a matrix of
real numbers, because every entry of the result is zero plus a finite sum of products of two reals.
-/

noncomputable section

namespace Cert.Hops

open Idealize.ShloMosaic
open Cert.KernelIdeal Cert.KernelIdeal.Gen
open Cert.ReferenceIdeal.Read

variable {F : FTy → Type} [FloatOps F]

/-! ## The chain as the first program writes it -/

/-- Row 0 of the edge list, flattened: the targets. -/
def kRow0 (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- Row 1 of the edge list, flattened: the sources. -/
def kRow1 (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- The sources with every negative one shifted up by 50000. -/
def kWrap (x1 : (⟨S2x800000, .i32⟩ : BufTy).Contents (Elt F)) : (⟨S800000, .i32⟩ : BufTy).Contents (Elt F) :=
  select (cmpi .slt (kRow1 (F := F) x1) (broadcastInDim S800000 ![] bcast_S_S800000 (constantI S_ 32 0#32)))
    (addi (kRow1 (F := F) x1) (broadcastInDim S800000 ![] bcast_S_S800000 (constantI S_ 32 50000#32)))
    (kRow1 (F := F) x1)

/-- The shifted sources as a column of one-entry index vectors. -/
def kGIdx (x1 : (⟨S2x800000, .i32⟩ : BufTy).Contents (Elt F)) : (⟨S800000x1, .i32⟩ : BufTy).Contents (Elt F) :=
  broadcastInDim S800000x1 ![0] bcast_S800000_S800000x1_0 (kWrap (F := F) x1)

/-- The edge weights repeated along the 128 columns. -/
def kWeight (x2 : (⟨S800000, .f32⟩ : BufTy).Contents (Elt F)) : (⟨S800000x128, .f32⟩ : BufTy).Contents (Elt F) :=
  broadcastInDim S800000x128 ![0, 1] bcast_S800000x1_S800000x128_0_1 (broadcastInDim S800000x1 ![0] bcast_S800000_S800000x1_0 x2)

/-- The zero matrix the products are added into. -/
def kZero : (⟨S50000x128, .f32⟩ : BufTy).Contents (Elt F) :=
  broadcastInDim S50000x128 ![] bcast_S_S50000x128 (constant S_ .f32 0x00000000#32)

/-- The targets as a column of one-entry index vectors. -/
def kSIdx (x1 : (⟨S2x800000, .i32⟩ : BufTy).Contents (Elt F)) : (⟨S800000x1, .i32⟩ : BufTy).Contents (Elt F) :=
  broadcastInDim S800000x1 ![0] bcast_S800000_S800000x1_0 (kRow0 (F := F) x1)

/-- One hop, the gathered row times the weight. -/
def hopK (x1 : (⟨S2x800000, .i32⟩ : BufTy).Contents (Elt F)) (x2 : (⟨S800000, .f32⟩ : BufTy).Contents (Elt F))
    (x : (⟨S50000x128, .f32⟩ : BufTy).Contents (Elt F)) : (⟨S50000x128, .f32⟩ : BufTy).Contents (Elt F) :=
  Host.scatterAdd scatter_S50000x128_S800000x1_S800000x128_1_0_0_1 (kZero (F := F)) (kSIdx (F := F) x1)
    (mulf (Host.gather gather_S50000x128_S800000x1_S800000x128_1_0_n_n_0_1_1128 x (kGIdx (F := F) x1)) (kWeight (F := F) x2))

/-- Five hops. -/
def khops (x0 : (⟨S50000x128, .f32⟩ : BufTy).Contents (Elt F)) (x1 : (⟨S2x800000, .i32⟩ : BufTy).Contents (Elt F))
    (x2 : (⟨S800000, .f32⟩ : BufTy).Contents (Elt F)) : (⟨S50000x128, .f32⟩ : BufTy).Contents (Elt F) :=
  hopK (F := F) x1 x2 (hopK (F := F) x1 x2 (hopK (F := F) x1 x2 (hopK (F := F) x1 x2 (hopK (F := F) x1 x2 x0))))

/-! ## The chain as the second program writes it -/

/-- One hop, the weight times the gathered row. -/
def hopR (x1 : (⟨Cert.ReferenceIdeal.S2x800000, .i32⟩ : BufTy).Contents (Elt F))
    (x2 : (⟨Cert.ReferenceIdeal.S800000, .f32⟩ : BufTy).Contents (Elt F))
    (x : (⟨Cert.ReferenceIdeal.S50000x128, .f32⟩ : BufTy).Contents (Elt F)) :
    (⟨Cert.ReferenceIdeal.S50000x128, .f32⟩ : BufTy).Contents (Elt F) :=
  Host.scatterAdd Cert.ReferenceIdeal.scatter_S50000x128_S800000x1_S800000x128_1_0_0_1 (val_main_v14 (F := F))
    (val_main_v15 (F := F) x1)
    (mulf (val_main_v12 (F := F) x2)
      (Host.gather Cert.ReferenceIdeal.gather_S50000x128_S800000x1_S800000x128_1_0_n_n_0_1_1128 x (val_main_v10 (F := F) x1)))

section
variable (x0 : (⟨Cert.ReferenceIdeal.S50000x128, .f32⟩ : BufTy).Contents (Elt F))
  (x1 : (⟨Cert.ReferenceIdeal.S2x800000, .i32⟩ : BufTy).Contents (Elt F))
  (x2 : (⟨Cert.ReferenceIdeal.S800000, .f32⟩ : BufTy).Contents (Elt F))

/-- The first scatter result is one hop of the input. -/
theorem ref16 : val_main_v16 (F := F) x0 x1 x2 = hopR (F := F) x1 x2 x0 := rfl
/-- Each later scatter result is one hop of the one before: the index and weight arrays are written anew
    before every hop, from the same inputs by the same operations. -/
theorem ref29 : val_main_v29 (F := F) x0 x1 x2 = hopR (F := F) x1 x2 (val_main_v16 (F := F) x0 x1 x2) := rfl
theorem ref42 : val_main_v42 (F := F) x0 x1 x2 = hopR (F := F) x1 x2 (val_main_v29 (F := F) x0 x1 x2) := rfl
theorem ref55 : val_main_v55 (F := F) x0 x1 x2 = hopR (F := F) x1 x2 (val_main_v42 (F := F) x0 x1 x2) := rfl
theorem ref68 : val_main_v68 (F := F) x0 x1 x2 = hopR (F := F) x1 x2 (val_main_v55 (F := F) x0 x1 x2) := rfl

/-- The second program's chain is five hops. -/
theorem ref_chain : val_main_v68 (F := F) x0 x1 x2
    = hopR (F := F) x1 x2 (hopR (F := F) x1 x2 (hopR (F := F) x1 x2 (hopR (F := F) x1 x2 (hopR (F := F) x1 x2 x0)))) := by
  rw [ref68, ref55, ref42, ref29, ref16]
end

/-! ## Real-valued arrays at the extended reals -/

/-- A finite sum of real numbers is a real number. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := h a (Finset.mem_insert_self a s)
    obtain ⟨rs, hrs⟩ := ih (fun i hi => h i (Finset.mem_insert_of_mem hi))
    exact ⟨ra + rs, by rw [Finset.sum_insert ha, hra, hrs, EReal.coe_add]⟩

/-- The entrywise product does not depend on the order of its factors. -/
theorem mulf_comm {s : Shape} {φ : FTy} (a b : FVec Ideal s φ) : mulf a b = mulf b a := by
  funext i
  show FloatOps.mulf (a i) (b i) = FloatOps.mulf (b i) (a i)
  rw [Ideal.mulf_def, Ideal.mulf_def, mul_comm]

/-- The entrywise product of two real-valued arrays is real-valued. -/
theorem mulf_real {s : Shape} {φ : FTy} (a b : FVec Ideal s φ) (ha : ∀ i, ∃ r : ℝ, a i = (r : EReal))
    (hb : ∀ i, ∃ r : ℝ, b i = (r : EReal)) : ∀ i, ∃ r : ℝ, mulf a b i = (r : EReal) := by
  intro i
  obtain ⟨ra, hra⟩ := ha i
  obtain ⟨rb, hrb⟩ := hb i
  refine ⟨ra * rb, ?_⟩
  show FloatOps.mulf (a i) (b i) = _
  rw [Ideal.mulf_def, hra, hrb, EReal.coe_mul]

/-- Every entry of a gather is an entry of its operand. -/
theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

/-- Every entry of a broadcast is an entry of its operand. -/
theorem bcast_real {s t : Shape} (dims : Fin s.rank → Fin t.rank) (h : s.BroadcastsInDim t dims) (x : s.Idx → EReal)
    (hx : ∀ i, ∃ r : ℝ, x i = (r : EReal)) : ∀ j, ∃ r : ℝ, broadcastInDim t dims h x j = (r : EReal) :=
  fun j => hx _

/-- Adding real-valued updates into a real-valued array leaves it real-valued: an entry of the result is the
    operand's entry plus the sum of the updates that land on it. -/
theorem scatterAdd_real {s si su : Shape} {w : Nat} (d : ScatterDims s si su) (z : FVec Ideal s .f32) (idx : IVec si w)
    (u : FVec Ideal su .f32) (hz : ∀ i, ∃ r : ℝ, z i = (r : EReal)) (hu : ∀ j, ∃ r : ℝ, u j = (r : EReal)) :
    ∀ i, ∃ r : ℝ, Host.scatterAdd d z idx u i = (r : EReal) := by
  intro i
  obtain ⟨rz, hrz⟩ := hz i
  obtain ⟨rs, hrs⟩ := sum_real (Finset.univ.filter (fun j => d.resultIdx? j idx = some i)) u (fun j _ => hu j)
  refine ⟨rz + rs, ?_⟩
  show z i + ∑ j ∈ Finset.univ.filter (fun j => d.resultIdx? j idx = some i), u j = _
  rw [hrz, hrs, EReal.coe_add]

/-! ## The two chains agree, and stay among the reals -/

/-- The two ways of writing one hop give the same matrix. -/
theorem hop_eq (x1 : (⟨S2x800000, .i32⟩ : BufTy).Contents (Elt Ideal)) (x2 : (⟨S800000, .f32⟩ : BufTy).Contents (Elt Ideal))
    (x : (⟨S50000x128, .f32⟩ : BufTy).Contents (Elt Ideal)) :
    hopK (F := Ideal) x1 x2 x = hopR (F := Ideal) x1 x2 x := by
  unfold hopK
  rw [mulf_comm]
  rfl

/-- The first program's five hops are the second program's. -/
theorem khops_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) :
    khops (F := Ideal) x0 x1 x2 = val_main_v68 (F := Ideal) x0 x1 x2 := by
  rw [ref_chain]
  unfold khops
  rw [hop_eq, hop_eq, hop_eq, hop_eq, hop_eq]

/-- One hop of a real-valued matrix along real weights is real-valued. -/
theorem hopR_real (x1 : (⟨S2x800000, .i32⟩ : BufTy).Contents (Elt Ideal)) (x2 : (⟨S800000, .f32⟩ : BufTy).Contents (Elt Ideal))
    (h2 : ∀ i, ∃ r : ℝ, x2 i = (r : EReal)) (x : (⟨S50000x128, .f32⟩ : BufTy).Contents (Elt Ideal))
    (hx : ∀ i, ∃ r : ℝ, x i = (r : EReal)) : ∀ i, ∃ r : ℝ, hopR (F := Ideal) x1 x2 x i = (r : EReal) := by
  unfold hopR
  refine scatterAdd_real _ _ _ _ ?_ (mulf_real _ _ ?_ (gather_real _ _ _ hx))
  · intro i
    exact ⟨0, by rw [val_main_v14_apply, val_main_cst_apply, Ideal.ofBits_def, Ideal.ofBits_zero_f32, EReal.coe_zero]⟩
  · intro j
    rw [val_main_v12_apply, val_main_v4_apply]
    exact h2 _

/-- Five hops of real-valued features along real weights are real-valued. -/
theorem hops_real (x0 : (⟨S50000x128, .f32⟩ : BufTy).Contents (Elt Ideal)) (x1 : (⟨S2x800000, .i32⟩ : BufTy).Contents (Elt Ideal))
    (x2 : (⟨S800000, .f32⟩ : BufTy).Contents (Elt Ideal))
    (h0 : ∀ i, ∃ r : ℝ, x0 i = (r : EReal)) (h2 : ∀ i, ∃ r : ℝ, x2 i = (r : EReal)) :
    ∀ i, ∃ r : ℝ, val_main_v68 (F := Ideal) x0 x1 x2 i = (r : EReal) := by
  rw [ref_chain]
  exact hopR_real x1 x2 h2 _ (hopR_real x1 x2 h2 _ (hopR_real x1 x2 h2 _ (hopR_real x1 x2 h2 _ (hopR_real x1 x2 h2 _ h0))))

end Cert.Hops

end
-- ==== Proof.Spec.lean ====
import Idealize.ShloMosaic.PureOps.Ideal

/-!
The mathematical content of the claim, stated over plain index functions on the extended reals.

A node-feature matrix `X` (50000 rows, 128 columns) is sent through a linear layer (`pre`), normalised column
by column with the batch mean and the biased batch variance, rectified, and sent through a second linear layer.
The variance is written twice: `varR` as the mean of the squared deviations from the mean, `varK` as the mean of
the squares less the square of the mean, cut off below at zero. Over the reals the two agree (König–Huygens);
over the extended reals they agree when every entry of `H` is a real number.
-/

noncomputable section

namespace Cert.Spec

open Idealize.ShloMosaic

/-- The number of rows, 50000, as the float literal both programs divide by. -/
abbrev nF : EReal := Ideal.ofBits .f32 0x47435000#32
/-- The variance offset (the literal 1e-10 of both programs). -/
abbrev eps : EReal := Ideal.ofBits .f32 0x2EDBE6FF#32
/-- The zero literal. -/
abbrev z : EReal := Ideal.ofBits .f32 0x00000000#32

/-- First linear layer: row `n` of `X` against row `j` of `W1`, plus the bias. -/
def pre (X : Fin 50000 → Fin 128 → EReal) (W1 : Fin 64 → Fin 128 → EReal) (b1 : Fin 64 → EReal)
    (n : Fin 50000) (j : Fin 64) : EReal :=
  (∑ k : Fin 128, X n k * W1 j k) + b1 j

/-- Column mean. -/
def mean (H : Fin 50000 → Fin 64 → EReal) (j : Fin 64) : EReal :=
  Ideal.div (∑ n : Fin 50000, H n j) nF

/-- Biased column variance as the mean squared deviation. -/
def varR (H : Fin 50000 → Fin 64 → EReal) (j : Fin 64) : EReal :=
  Ideal.div (∑ n : Fin 50000, (H n j - mean H j) * (H n j - mean H j)) nF

/-- Biased column variance as mean of squares less squared mean, cut off below at zero. -/
def varK (H : Fin 50000 → Fin 64 → EReal) (j : Fin 64) : EReal :=
  max (Ideal.div (∑ n : Fin 50000, H n j * H n j) nF - mean H j * mean H j) z

/-- Normalise with a given variance `v` and rectify. -/
def act (H : Fin 50000 → Fin 64 → EReal) (v : Fin 64 → EReal) (n : Fin 50000) (j : Fin 64) : EReal :=
  max ((H n j - mean H j) * Ideal.rsqrt (v j + eps)) z

/-- Second linear layer. -/
def lin2 (A : Fin 50000 → Fin 64 → EReal) (W2 : Fin 40 → Fin 64 → EReal) (b2 : Fin 40 → EReal)
    (n : Fin 50000) (o : Fin 40) : EReal :=
  (∑ j : Fin 64, A n j * W2 o j) + b2 o

/-- The whole map with the two-pass variance. -/
def outR (X : Fin 50000 → Fin 128 → EReal) (W1 : Fin 64 → Fin 128 → EReal) (b1 : Fin 64 → EReal)
    (W2 : Fin 40 → Fin 64 → EReal) (b2 : Fin 40 → EReal) : Fin 50000 → Fin 40 → EReal :=
  lin2 (act (pre X W1 b1) (varR (pre X W1 b1))) W2 b2

/-- The whole map with the one-pass variance. -/
def outK (X : Fin 50000 → Fin 128 → EReal) (W1 : Fin 64 → Fin 128 → EReal) (b1 : Fin 64 → EReal)
    (W2 : Fin 40 → Fin 64 → EReal) (b2 : Fin 40 → EReal) : Fin 50000 → Fin 40 → EReal :=
  lin2 (act (pre X W1 b1) (varK (pre X W1 b1))) W2 b2

end Cert.Spec

end
-- ==== Proof.Law.lean ====
import proofs.«120267_j79353815761144_1_alg».proof.Proof.Spec
import Idealize.ShloMosaic.PureOps.Ideal
import Mathlib.Tactic

/-!
The two ways of writing the biased variance agree on the extended reals as soon as every entry is a real
number: with `μ = (∑ h) / N` one has `∑ (h - μ)² / N = (∑ h²) / N - μ²` (König–Huygens), and the left side,
a sum of squares over a positive number, is nonnegative, so cutting the right side off below at zero changes
nothing. On the extended reals the identity needs real entries, since `⊤ - ⊤ = ⊥` there.
-/

noncomputable section

namespace Cert.Law

open Idealize.ShloMosaic Cert.Spec

/-- The divisor literal denotes the real number 50000. -/
theorem nF_eq : Cert.Spec.nF = ((50000 : ℝ) : EReal) := by
  simp [Ideal.ofBits, Ideal.ieee, -EReal.coe_mul]; norm_num

/-- The zero literal denotes zero. -/
theorem z_eq : Cert.Spec.z = 0 := by
  simp [Ideal.ofBits, Ideal.ieee]

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- König–Huygens over the reals, for a finite index type with `N` elements, `N ≠ 0`, every division
written as a product with `1 / N`. -/
theorem real_var {ι : Type*} [Fintype ι] (h : ι → ℝ) (N : ℝ) (hN : (Fintype.card ι : ℝ) = N) (hN0 : N ≠ 0) :
    (∑ i, (h i - (∑ i, h i) * (1 / N)) * (h i - (∑ i, h i) * (1 / N))) * (1 / N)
      = (∑ i, h i * h i) * (1 / N) - ((∑ i, h i) * (1 / N)) * ((∑ i, h i) * (1 / N)) := by
  have e : ∀ i, (h i - (∑ i, h i) * (1 / N)) * (h i - (∑ i, h i) * (1 / N))
      = h i * h i - 2 * ((∑ i, h i) * (1 / N)) * h i + ((∑ i, h i) * (1 / N)) * ((∑ i, h i) * (1 / N)) :=
    fun i => by ring
  rw [Finset.sum_congr rfl (fun i _ => e i), Finset.sum_add_distrib, Finset.sum_sub_distrib,
    ← Finset.mul_sum, Finset.sum_const, Finset.card_univ, nsmul_eq_mul, hN]
  field_simp
  ring

/-- The mean squared deviation is nonnegative. -/
theorem real_var_nonneg {ι : Type*} [Fintype ι] (h : ι → ℝ) (m N : ℝ) (hN0 : 0 < N) :
    0 ≤ (∑ i, (h i - m) * (h i - m)) * (1 / N) :=
  mul_nonneg (Finset.sum_nonneg fun i _ => mul_self_nonneg _) (by positivity)

/-- The column mean of a real matrix, as a real number. -/
theorem mean_coe (h : Fin 50000 → Fin 64 → ℝ) (j : Fin 64) :
    mean (fun n j => (h n j : EReal)) j = (((∑ n, h n j) * (1 / 50000) : ℝ) : EReal) := by
  unfold mean
  rw [nF_eq, Ideal.div_coe (by norm_num), ← coe_sum, ← EReal.coe_mul]

/-- The two-pass variance of a real matrix, as a real number. -/
theorem varR_coe (h : Fin 50000 → Fin 64 → ℝ) (j : Fin 64) :
    varR (fun n j => (h n j : EReal)) j
      = (((∑ n, (h n j - (∑ n, h n j) * (1 / 50000)) * (h n j - (∑ n, h n j) * (1 / 50000))) * (1 / 50000) : ℝ) : EReal) := by
  unfold varR
  rw [mean_coe, nF_eq, Ideal.div_coe (by norm_num)]
  simp only [← EReal.coe_sub, ← EReal.coe_mul, ← coe_sum]

/-- The one-pass variance of a real matrix, as a real number: the cut-off at zero is idle. -/
theorem varK_coe (h : Fin 50000 → Fin 64 → ℝ) (j : Fin 64) :
    varK (fun n j => (h n j : EReal)) j
      = (((∑ n, (h n j - (∑ n, h n j) * (1 / 50000)) * (h n j - (∑ n, h n j) * (1 / 50000))) * (1 / 50000) : ℝ) : EReal) := by
  unfold varK
  rw [mean_coe, nF_eq, z_eq, Ideal.div_coe (by norm_num)]
  simp only [← EReal.coe_sub, ← EReal.coe_mul, ← coe_sum]
  rw [← real_var (fun n => h n j) 50000 (by simp) (by norm_num)]
  exact max_eq_left (EReal.coe_nonneg.mpr (real_var_nonneg _ _ _ (by norm_num)))

/-- On a matrix of real numbers the one-pass and the two-pass variance agree. -/
theorem varK_eq_varR (H : Fin 50000 → Fin 64 → EReal) (hH : ∀ n j, ∃ r : ℝ, H n j = (r : EReal)) :
    Cert.Spec.varK H = Cert.Spec.varR H := by
  choose h hh using hH
  obtain rfl : H = fun n j => (h n j : EReal) := funext fun n => funext fun j => hh n j
  funext j
  rw [varK_coe, varR_coe]

/-- The first linear layer sends real inputs to real numbers. -/
theorem pre_real (X : Fin 50000 → Fin 128 → EReal) (W1 : Fin 64 → Fin 128 → EReal) (b1 : Fin 64 → EReal)
    (hX : ∀ n k, ∃ r : ℝ, X n k = r) (hW : ∀ j k, ∃ r : ℝ, W1 j k = r) (hb : ∀ j, ∃ r : ℝ, b1 j = r) :
    ∀ n j, ∃ r : ℝ, Cert.Spec.pre X W1 b1 n j = (r : EReal) := by
  choose x hx using hX
  choose w hw using hW
  choose b hb' using hb
  intro n j
  refine ⟨(∑ k, x n k * w j k) + b j, ?_⟩
  unfold pre
  simp only [hx, hw, hb', ← EReal.coe_mul, ← coe_sum, ← EReal.coe_add]

/-- With real inputs the whole map is the same whichever way the variance is written. -/
theorem outK_eq_outR (X : Fin 50000 → Fin 128 → EReal) (W1 : Fin 64 → Fin 128 → EReal) (b1 : Fin 64 → EReal)
    (W2 : Fin 40 → Fin 64 → EReal) (b2 : Fin 40 → EReal)
    (hX : ∀ n k, ∃ r : ℝ, X n k = r) (hW : ∀ j k, ∃ r : ℝ, W1 j k = r) (hb : ∀ j, ∃ r : ℝ, b1 j = r) :
    Cert.Spec.outK X W1 b1 W2 b2 = Cert.Spec.outR X W1 b1 W2 b2 := by
  unfold outK outR
  rw [varK_eq_varR _ (pre_real X W1 b1 hX hW hb)]

end Cert.Law

end
-- ==== Proof.Finite.lean ====
import proofs.«120267_j79353815761144_1_alg».proof.Pre_finite_inputs
import Idealize.ShloMosaic.PureOps.Ideal
import Idealize.ShloMosaic.Lib.ReduceAll
import Idealize.ShloMosaic.Lib.ValueIdx

/-!
The precondition says of each of the six float arrays that every entry `x` has `|x| < +∞`, and takes the
conjunction. On the extended reals `|x| = max x (-x)`, which is `⊤` at both infinities, so the strict bound
leaves exactly the real numbers.
-/

noncomputable section

namespace Cert.Finite

open Idealize.ShloMosaic Cert.Pre_finite_inputs

/-- The pattern the entries are compared with denotes `+∞`. -/
theorem inf_eq : Ideal.ofBits .f32 0x7F800000#32 = (⊤ : EReal) := by
  simp [Ideal.ofBits, Ideal.ieee]

/-- An extended real whose absolute value is strictly below `+∞` is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- The scalar shape has a single index. -/
instance : Subsingleton S_.Idx := ⟨fun a b => funext fun d => d.elim0⟩

/-- One conjunct of the precondition: if the conjunction over all entries of `|a| < +∞` holds, every entry of
`a` is a real number. -/
theorem reals_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
      (cmpf .olt (Host.absf a) (broadcastInDim s ![] hb (constant (F := Ideal) S_ .f32 0x7F800000#32)))
      init hr hu ValueIdx.ix0 = 1#1) :
    ∀ i, ∃ r : ℝ, a i = (r : EReal) := fun i =>
  real_of_abs_lt (a i) (Host.reduce_andi_all _ init hr hu ValueIdx.ix0 e i)

/-- If the precondition holds, every entry of every float argument is a real number. -/
theorem reals_of_pre [Cert.Pre_finite_inputs.Facts]
    (a0 : FVec Ideal S50000x128 .f32) (a1 : IVec S2x800000 32) (a2 : FVec Ideal S800000 .f32)
    (a3 : FVec Ideal S64x128 .f32) (a4 : FVec Ideal S64 .f32) (a5 : FVec Ideal S40x64 .f32)
    (a6 : FVec Ideal S40 .f32)
    (h : Cert.Pre_finite_inputs.fn (F := Ideal) a0 a1 a2 a3 a4 a5 a6 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h0 := congrFun h ValueIdx.ix0
  dsimp only [fn, fn_part1, andi] at h0
  simp only [IntOp.andi_eq_one] at h0
  obtain ⟨⟨⟨⟨⟨e0, e2⟩, e3⟩, e4⟩, e5⟩, e6⟩ := h0
  exact ⟨reals_of_all a0 _ _ _ _ e0, reals_of_all a2 _ _ _ _ e2, reals_of_all a3 _ _ _ _ e3,
    reals_of_all a4 _ _ _ _ e4, reals_of_all a5 _ _ _ _ e5, reals_of_all a6 _ _ _ _ e6⟩

end Cert.Finite

end
-- ==== Proof.KI.HostRead.lean ====
import proofs.«120267_j79353815761144_1_alg».proof.Proof.Hops
import proofs.«120267_j79353815761144_1_alg».proof.Proof.Gen.KernelIdeal.Launch
import Idealize.ShloMosaic.Lib.StableHlo.Run

/-!
What the two stretches of host operations leave in the buffers the two kernel launches read.

The first stretch propagates the features five hops, rounds the result to bf16, transposes the two weight matrices
and rounds them, and reshapes the two bias vectors to one-row matrices. The second stretch turns the column sums and
the column sums of squares the first launch produced into the mean and the variance, the latter as the mean of the
squares less the square of the mean, cut off below at zero. Each statement holds from arbitrary starting contents.
-/

set_option maxRecDepth 16384

noncomputable section

namespace Cert.KernelIdeal.HostRead

open Cert.KernelIdeal Cert.KernelIdeal.Gen Idealize.ShloMosaic Idealize.ShloMosaic.TcCoe

variable {F : FTy → Type} [FloatOps F]

/-! ## The first stretch -/

set_option maxHeartbeats 40000000 in
/-- The rounded features: five hops of the input features, rounded to bf16. -/
theorem after0_v69 (W : Valuation τ sig (Elt F)) :
    StableHlo.after (hostOps0 (F := F)) W (Proc.devRef .tc main_v69)
      = truncf .bf16 (Cert.Hops.khops (F := F) (W (Proc.devRef .tc main_arg0)) (W (Proc.devRef .tc main_arg1))
          (W (Proc.devRef .tc main_arg2))) bitsLt_bf16_f32 := by
  after_results_simp <;> rfl

/-- The first weight matrix, transposed and rounded to bf16. -/
theorem after0_v71 (W : Valuation τ sig (Elt F)) :
    StableHlo.after (hostOps0 (F := F)) W (Proc.devRef .tc main_v71)
      = truncf .bf16 (transpose S128x64 [1, 0] (W (Proc.devRef .tc main_arg3)) transposes_S64x128_S128x64_1_0) bitsLt_bf16_f32 := by
  after_results_simp <;> rfl

/-- The second weight matrix, transposed and rounded to bf16. -/
theorem after0_v73 (W : Valuation τ sig (Elt F)) :
    StableHlo.after (hostOps0 (F := F)) W (Proc.devRef .tc main_v73)
      = truncf .bf16 (transpose S64x40 [1, 0] (W (Proc.devRef .tc main_arg5)) transposes_S40x64_S64x40_1_0) bitsLt_bf16_f32 := by
  after_results_simp <;> rfl

/-- The first bias vector as a one-row matrix. -/
theorem after0_v74 (W : Valuation τ sig (Elt F)) :
    StableHlo.after (hostOps0 (F := F)) W (Proc.devRef .tc main_v74)
      = shapeCast S1x64 (W (Proc.devRef .tc main_arg4)) shapeCasts_S64_S1x64 := by
  after_results_simp <;> rfl

/-- The second bias vector as a one-row matrix. -/
theorem after0_v75 (W : Valuation τ sig (Elt F)) :
    StableHlo.after (hostOps0 (F := F)) W (Proc.devRef .tc main_v75)
      = shapeCast S1x40 (W (Proc.devRef .tc main_arg6)) shapeCasts_S40_S1x40 := by
  after_results_simp <;> rfl

/-! ## The second stretch -/

/-- The column means: the column sums divided by the number of rows. -/
theorem after1_v78 (W : Valuation τ sig (Elt F)) :
    StableHlo.after (hostOps1 (F := F)) W (Proc.devRef .tc main_v78)
      = Host.divf (W (Proc.devRef .tc main_v76_0))
          (broadcastInDim S1x64 ![] bcast_S_S1x64 (constant (F := F) S_ .f32 0x47435000#32)) := by
  after_results_simp <;> rfl

/-- The column variances: the mean of the squares less the square of the mean, cut off below at zero. -/
theorem after1_v84 (W : Valuation τ sig (Elt F)) :
    StableHlo.after (hostOps1 (F := F)) W (Proc.devRef .tc main_v84)
      = maximumf
          (subf
            (Host.divf (W (Proc.devRef .tc main_v76_1))
              (broadcastInDim S1x64 ![] bcast_S_S1x64 (constant (F := F) S_ .f32 0x47435000#32)))
            (mulf
              (Host.divf (W (Proc.devRef .tc main_v76_0))
                (broadcastInDim S1x64 ![] bcast_S_S1x64 (constant (F := F) S_ .f32 0x47435000#32)))
              (Host.divf (W (Proc.devRef .tc main_v76_0))
                (broadcastInDim S1x64 ![] bcast_S_S1x64 (constant (F := F) S_ .f32 0x47435000#32)))))
          (broadcastInDim S1x64 ![] bcast_S_S1x64 (constant (F := F) S_ .f32 0x00000000#32)) := by
  after_results_simp <;> rfl

/-- The second stretch writes only its own eleven results: any other buffer keeps its contents. -/
theorem after1_keep (W : Valuation τ sig (Elt F)) (b : Ref sig .tc)
    (hb : b ∉ [main_cst_13, main_v77, main_v78, main_cst_14, main_v79, main_v80, main_v81, main_v82, main_cst_15, main_v83, main_v84]) :
    StableHlo.after (hostOps1 (F := F)) W (Proc.devRef .tc b) = W (Proc.devRef .tc b) := by
  simp only [List.mem_cons, List.not_mem_nil, or_false, not_or] at hb
  obtain ⟨h0, h1, h2, h3, h4, h5, h6, h7, h8, h9, h10⟩ := hb
  refine StableHlo.after_of_forall_not_mem (b := Proc.devRef .tc b) _ _ (List.forall_iff_forall_mem.mp ?_)
  simp only [hostOps1, List.Forall, StableHlo.nullary_writes, StableHlo.unary_writes, StableHlo.binary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10⟩

/-- The five buffers the first stretch prepared for the launches are still there after the second stretch. -/
theorem after1_v69 (W : Valuation τ sig (Elt F)) :
    StableHlo.after (hostOps1 (F := F)) W (Proc.devRef .tc main_v69) = W (Proc.devRef .tc main_v69) :=
  after1_keep W main_v69 (by decide)
theorem after1_v71 (W : Valuation τ sig (Elt F)) :
    StableHlo.after (hostOps1 (F := F)) W (Proc.devRef .tc main_v71) = W (Proc.devRef .tc main_v71) :=
  after1_keep W main_v71 (by decide)
theorem after1_v73 (W : Valuation τ sig (Elt F)) :
    StableHlo.after (hostOps1 (F := F)) W (Proc.devRef .tc main_v73) = W (Proc.devRef .tc main_v73) :=
  after1_keep W main_v73 (by decide)
theorem after1_v74 (W : Valuation τ sig (Elt F)) :
    StableHlo.after (hostOps1 (F := F)) W (Proc.devRef .tc main_v74) = W (Proc.devRef .tc main_v74) :=
  after1_keep W main_v74 (by decide)
theorem after1_v75 (W : Valuation τ sig (Elt F)) :
    StableHlo.after (hostOps1 (F := F)) W (Proc.devRef .tc main_v75) = W (Proc.devRef .tc main_v75) :=
  after1_keep W main_v75 (by decide)

end Cert.KernelIdeal.HostRead

end
-- ==== Proof.KI.HostAt.lean ====
import proofs.«120267_j79353815761144_1_alg».proof.Proof.KI.HostRead
import proofs.«120267_j79353815761144_1_alg».proof.Proof.Spec
import Idealize.ShloMosaic.Lib.ValueIdx
import Idealize.ShloMosaic.Lib.Pipeline.Value
import Idealize.ShloMosaic.Lib.ValueLayout

/-!
The arrays the host operations prepare for the two launches, read at an index over the extended reals.

Rounding to bf16 changes nothing there; a transposed matrix reads the operand with its two coordinates exchanged; a
vector reshaped to a one-row matrix reads the vector at the column; the mean is the column sum divided by the number
of rows, and the variance is the mean of the squares less the square of the mean, cut off below at zero.
-/

noncomputable section

namespace Cert.KernelIdeal.HostAt

open Cert.KernelIdeal Cert.KernelIdeal.Gen Idealize.ShloMosaic Idealize.ShloMosaic.ValueIdx

/-- Rounding to bf16 is the identity over the extended reals. -/
theorem trunc_at {s : Shape} (y : FVec Ideal s .f32) (i : s.Idx) :
    (truncf .bf16 y bitsLt_bf16_f32 : FVec Ideal s .bf16) i = y i := rfl

/-- The first weight matrix transposed (and rounded) reads, at row `k` and column `j`, the matrix at row `j` and
    column `k`. -/
theorem w1t_at (a3 : FVec Ideal S64x128 .f32) (k : Fin 128) (j : Fin 64) :
    (truncf .bf16 (transpose S128x64 [1, 0] a3 transposes_S64x128_S128x64_1_0) bitsLt_bf16_f32 : FVec Ideal S128x64 .bf16)
        (ix2 k j) = a3 (ix2 j k) :=
  (trunc_at _ _).trans (transpose_ix2_apply a3 transposes_S64x128_S128x64_1_0 k j)

/-- The second weight matrix transposed (and rounded) reads, at row `j` and column `o`, the matrix at row `o` and
    column `j`. -/
theorem w2t_at (a5 : FVec Ideal S40x64 .f32) (j : Fin 64) (o : Fin 40) :
    (truncf .bf16 (transpose S64x40 [1, 0] a5 transposes_S40x64_S64x40_1_0) bitsLt_bf16_f32 : FVec Ideal S64x40 .bf16)
        (ix2 j o) = a5 (ix2 o j) :=
  (trunc_at _ _).trans (transpose_ix2_apply a5 transposes_S40x64_S64x40_1_0 j o)

/-- The first bias vector as a one-row matrix reads the vector at the column. -/
theorem b1row_at (a4 : FVec Ideal S64 .f32) (j : Fin 64) :
    (shapeCast S1x64 a4 shapeCasts_S64_S1x64) (ix2 (0 : Fin 1) j) = a4 (ix1 j) :=
  shapeCast_a_1a_apply a4 shapeCasts_S64_S1x64 0 j

/-- The second bias vector as a one-row matrix reads the vector at the column. -/
theorem b2row_at (a6 : FVec Ideal S40 .f32) (o : Fin 40) :
    (shapeCast S1x40 a6 shapeCasts_S40_S1x40) (ix2 (0 : Fin 1) o) = a6 (ix1 o) :=
  shapeCast_a_1a_apply a6 shapeCasts_S40_S1x40 0 o

/-- The mean at a column is the column sum divided by the number of rows. -/
theorem mean_at (s3 : FVec Ideal S1x64 .f32) (j : Fin 64) :
    (Host.divf s3 (broadcastInDim S1x64 ![] bcast_S_S1x64 (constant (F := Ideal) S_ .f32 0x47435000#32))) (ix2 (0 : Fin 1) j)
      = Ideal.div (s3 (ix2 (0 : Fin 1) j)) Cert.Spec.nF := rfl

/-- The variance at a column is the mean of the squares less the square of the mean, cut off below at zero. -/
theorem var_at (s3 s4 : FVec Ideal S1x64 .f32) (j : Fin 64) :
    (maximumf
        (subf
          (Host.divf s4 (broadcastInDim S1x64 ![] bcast_S_S1x64 (constant (F := Ideal) S_ .f32 0x47435000#32)))
          (mulf
            (Host.divf s3 (broadcastInDim S1x64 ![] bcast_S_S1x64 (constant (F := Ideal) S_ .f32 0x47435000#32)))
            (Host.divf s3 (broadcastInDim S1x64 ![] bcast_S_S1x64 (constant (F := Ideal) S_ .f32 0x47435000#32)))))
        (broadcastInDim S1x64 ![] bcast_S_S1x64 (constant (F := Ideal) S_ .f32 0x00000000#32))) (ix2 (0 : Fin 1) j)
      = max (Ideal.div (s4 (ix2 (0 : Fin 1) j)) Cert.Spec.nF
              - Ideal.div (s3 (ix2 (0 : Fin 1) j)) Cert.Spec.nF * Ideal.div (s3 (ix2 (0 : Fin 1) j)) Cert.Spec.nF)
          Cert.Spec.z := rfl

end Cert.KernelIdeal.HostAt

end
-- ==== Proof.KI.Mid.lean ====
import proofs.«120267_j79353815761144_1_alg».proof.Proof.KI.Run
import proofs.«120267_j79353815761144_1_alg».proof.Proof.KI.HostAt

/-!
What the two regions find in their input arrays, in terms of the argument arrays at launch.

The statistics region reads the propagated features, the first weight matrix transposed and the first bias as a
row. The apply region reads the same three (nothing in between writes them), the second weight matrix transposed,
the second bias as a row, and the mean and the variance the host computes from the two sums the statistics region
left: the column sums and the column sums of squares.
-/

noncomputable section

namespace Cert.KernelIdeal.HandValue

open Cert.KernelIdeal Cert.KernelIdeal.Gen Cert.KernelIdeal.Hand Cert.KernelIdeal.HostRead Cert.KernelIdeal.HostAt
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## Before the statistics region -/

/-- The features after five hops. -/
theorem pre_v69 (c : Dev nD) (n : Fin 50000) (k : Fin 128) :
    Vpre m ρ c main_v69 (ix2 n k)
      = Cert.Hops.khops (F := Ideal) (m ((c : Thread nD τ).loc main_arg0)) (m ((c : Thread nD τ).loc main_arg1))
          (m ((c : Thread nD τ).loc main_arg2)) (ix2 n k) :=
  (congrFun (after0_v69 (Wlaunch m ρ c)) (ix2 n k)).trans (trunc_at _ _)

/-- The first weight matrix, transposed. -/
theorem pre_v71 (c : Dev nD) (k : Fin 128) (j : Fin 64) :
    Vpre m ρ c main_v71 (ix2 k j) = m ((c : Thread nD τ).loc main_arg3) (ix2 j k) :=
  (congrFun (after0_v71 (Wlaunch m ρ c)) (ix2 k j)).trans (w1t_at _ k j)

/-- The first bias, as a row. -/
theorem pre_v74 (c : Dev nD) (j : Fin 64) :
    Vpre m ρ c main_v74 (ix2 (0 : Fin 1) j) = m ((c : Thread nD τ).loc main_arg4) (ix1 j) :=
  (congrFun (after0_v74 (Wlaunch m ρ c)) (ix2 (0 : Fin 1) j)).trans (b1row_at _ j)

/-! ## Before the apply region -/

/-- An array the statistics region only reads is, after it, what it was before. -/
theorem stat_in (c : Dev nD) (w : Fin cfg0.W) (hin : (cfg0.win w).isOut = false) :
    Wstat m ρ c (Proc.devRef .tc (Pipeline.arrRef spec0 w)) = Vpre m ρ c (Pipeline.arrRef spec0 w) :=
  (Wstat_arr m ρ c w).trans (((dat0 (Vpre m ρ) c).arrAt_in w hin _).trans (A_eq0 (Vpre m ρ) c w))

theorem mid_v69_eq (c : Dev nD) : Vmid m ρ c main_v69 = Vpre m ρ c main_v69 :=
  (after1_v69 (Wstat m ρ c)).trans (stat_in m ρ c 0 rfl)
theorem mid_v71_eq (c : Dev nD) : Vmid m ρ c main_v71 = Vpre m ρ c main_v71 :=
  (after1_v71 (Wstat m ρ c)).trans (stat_in m ρ c 1 rfl)
theorem mid_v74_eq (c : Dev nD) : Vmid m ρ c main_v74 = Vpre m ρ c main_v74 :=
  (after1_v74 (Wstat m ρ c)).trans (stat_in m ρ c 2 rfl)

/-- The features after five hops, still. -/
theorem mid_v69 (c : Dev nD) (n : Fin 50000) (k : Fin 128) :
    Vmid m ρ c main_v69 (ix2 n k)
      = Cert.Hops.khops (F := Ideal) (m ((c : Thread nD τ).loc main_arg0)) (m ((c : Thread nD τ).loc main_arg1))
          (m ((c : Thread nD τ).loc main_arg2)) (ix2 n k) :=
  (congrFun (mid_v69_eq m ρ c) (ix2 n k)).trans (pre_v69 m ρ c n k)

/-- The first weight matrix, transposed, still. -/
theorem mid_v71 (c : Dev nD) (k : Fin 128) (j : Fin 64) :
    Vmid m ρ c main_v71 (ix2 k j) = m ((c : Thread nD τ).loc main_arg3) (ix2 j k) :=
  (congrFun (mid_v71_eq m ρ c) (ix2 k j)).trans (pre_v71 m ρ c k j)

/-- The first bias, as a row, still. -/
theorem mid_v74 (c : Dev nD) (j : Fin 64) :
    Vmid m ρ c main_v74 (ix2 (0 : Fin 1) j) = m ((c : Thread nD τ).loc main_arg4) (ix1 j) :=
  (congrFun (mid_v74_eq m ρ c) (ix2 (0 : Fin 1) j)).trans (pre_v74 m ρ c j)

/-- The second weight matrix, transposed: the first stretch prepared it and nothing since has written it. -/
theorem mid_v73 (c : Dev nD) (j : Fin 64) (o : Fin 40) :
    Vmid m ρ c main_v73 (ix2 j o) = m ((c : Thread nD τ).loc main_arg5) (ix2 o j) :=
  (congrFun (((after1_v73 (Wstat m ρ c)).trans (Wstat_of_ne m ρ c main_v73 (by decide))).trans
    (after0_v73 (Wlaunch m ρ c))) (ix2 j o)).trans (w2t_at _ j o)

/-- The second bias, as a row. -/
theorem mid_v75 (c : Dev nD) (o : Fin 40) :
    Vmid m ρ c main_v75 (ix2 (0 : Fin 1) o) = m ((c : Thread nD τ).loc main_arg6) (ix1 o) :=
  (congrFun (((after1_v75 (Wstat m ρ c)).trans (Wstat_of_ne m ρ c main_v75 (by decide))).trans
    (after0_v75 (Wlaunch m ρ c))) (ix2 (0 : Fin 1) o)).trans (b2row_at _ o)

/-- The mean: the column sum the statistics region left, divided by the number of rows. -/
theorem mid_v78 (c : Dev nD) (j : Fin 64) :
    Vmid m ρ c main_v78 (ix2 (0 : Fin 1) j)
      = Ideal.div ((dat0 (Vpre m ρ) c).arrAt 3 cfg0.N (ix2 (0 : Fin 1) j)) Cert.Spec.nF :=
  ((congrFun (after1_v78 (Wstat m ρ c)) (ix2 (0 : Fin 1) j)).trans (mean_at _ j)).trans
    (congrArg (fun s : FVec Ideal S1x64 .f32 => Ideal.div (s (ix2 (0 : Fin 1) j)) Cert.Spec.nF) (Wstat_arr m ρ c 3))

/-- The variance: the mean of the squares less the square of the mean, cut off below at zero, from the two sums
    the statistics region left. -/
theorem mid_v84 (c : Dev nD) (j : Fin 64) :
    Vmid m ρ c main_v84 (ix2 (0 : Fin 1) j)
      = max (Ideal.div ((dat0 (Vpre m ρ) c).arrAt 4 cfg0.N (ix2 (0 : Fin 1) j)) Cert.Spec.nF
              - Ideal.div ((dat0 (Vpre m ρ) c).arrAt 3 cfg0.N (ix2 (0 : Fin 1) j)) Cert.Spec.nF
                * Ideal.div ((dat0 (Vpre m ρ) c).arrAt 3 cfg0.N (ix2 (0 : Fin 1) j)) Cert.Spec.nF)
          Cert.Spec.z :=
  ((congrFun (after1_v84 (Wstat m ρ c)) (ix2 (0 : Fin 1) j)).trans (var_at _ _ j)).trans
    (congrArg₂ (fun s3 s4 : FVec Ideal S1x64 .f32 =>
        max (Ideal.div (s4 (ix2 (0 : Fin 1) j)) Cert.Spec.nF
              - Ideal.div (s3 (ix2 (0 : Fin 1) j)) Cert.Spec.nF * Ideal.div (s3 (ix2 (0 : Fin 1) j)) Cert.Spec.nF)
          Cert.Spec.z)
      (Wstat_arr m ρ c 3) (Wstat_arr m ρ c 4))

end Cert.KernelIdeal.HandValue

end
-- ==== Proof.KI.R1Value.lean ====
import proofs.«120267_j79353815761144_1_alg».proof.Proof.KI.R1
import Idealize.ShloMosaic.Lib.ValueIdx
import Idealize.ShloMosaic.Lib.Pipeline.Value
import Idealize.ShloMosaic.Lib.ValueLayout
import Idealize.ShloMosaic.PureOps.Ideal.Laws
import proofs.«120267_j79353815761144_1_alg».proof.Proof.Spec

/-!
# The second region's output block, read at an index

Over the extended reals the block the body leaves in the output window is, at row `p` and column `q`: the first
linear layer's row (the inputs' row against the first weight's column, plus the bias), centred and scaled column
by column, rectified, sent against the second weight's column, plus the second bias.
-/

noncomputable section

namespace Cert.KernelIdeal.HandValue

open Cert.KernelIdeal Cert.KernelIdeal.Gen Cert.KernelIdeal.Hand
open Idealize.ShloMosaic Idealize.ShloMosaic.ValueIdx
open scoped BigOperators

/-- The offset of every access of the body: the origin. -/
theorem off_zero : (![0, 0] : Fin 2 → Nat) = fun _ => 0 := by
  funext a; match a with | ⟨0, _⟩ => rfl | ⟨1, _⟩ => rfl

/-- The reciprocal square root of a vector, at an index. -/
theorem rsqrt_apply {s : Shape} {φ : FTy} (a : FVec Ideal s φ) (i : s.Idx) : rsqrt a i = Ideal.rsqrt (a i) := rfl

/-! ## The two matrix products at an index -/

theorem mm1_lhs0 (i : S10000x64.Idx) (u : dot_S10000x128_S128x64_S10000x64_1_0_0_1_n_n.contr.Idx) : (dot_S10000x128_S128x64_S10000x64_1_0_0_1_n_n.lhsIdx i u 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm1_lhs1 (i : S10000x64.Idx) (u : dot_S10000x128_S128x64_S10000x64_1_0_0_1_n_n.contr.Idx) : (dot_S10000x128_S128x64_S10000x64_1_0_0_1_n_n.lhsIdx i u 1).val = (u ⟨0, by decide⟩).val :=
  dot_S10000x128_S128x64_S10000x64_1_0_0_1_n_n.lhsIdx_val_of_single rfl i u
theorem mm1_rhs0 (i : S10000x64.Idx) (u : dot_S10000x128_S128x64_S10000x64_1_0_0_1_n_n.contr.Idx) : (dot_S10000x128_S128x64_S10000x64_1_0_0_1_n_n.rhsIdx i u 0).val = (u ⟨0, by decide⟩).val :=
  dot_S10000x128_S128x64_S10000x64_1_0_0_1_n_n.rhsIdx_val_of_single rfl i u
theorem mm1_rhs1 (i : S10000x64.Idx) (u : dot_S10000x128_S128x64_S10000x64_1_0_0_1_n_n.contr.Idx) : (dot_S10000x128_S128x64_S10000x64_1_0_0_1_n_n.rhsIdx i u 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into a zero accumulator, at row `p` and column `c`: the row of the left factor against the column
    of the right one, the contraction's one axis re-indexed by its coordinate. -/
theorem mm1_apply (A : FVec Ideal S10000x128 .bf16) (B : FVec Ideal S128x64 .bf16) (p : Fin 10000) (c : Fin 64) :
    matmul dot_S10000x128_S128x64_S10000x64_1_0_0_1_n_n none A B (constant S10000x64 .f32 0x00000000#32) (ix2 p c)
      = ∑ k : Fin 128, A (ix2 p k) * B (ix2 k c) := by
  show FloatOps.matmul dot_S10000x128_S128x64_S10000x64_1_0_0_1_n_n none A B (constant S10000x64 .f32 0x00000000#32) (ix2 p c) = _
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p c) ((contrEquiv1 dot_S10000x128_S128x64_S10000x64_1_0_0_1_n_n 128 rfl rfl).symm k) = ix2 p k := funext fun a => Fin.ext (by
    match a with
    | ⟨0, _⟩ => exact mm1_lhs0 _ _
    | ⟨1, _⟩ => exact (mm1_lhs1 _ _).trans hk)
  have er : dot_S10000x128_S128x64_S10000x64_1_0_0_1_n_n.rhsIdx (ix2 p c) ((contrEquiv1 dot_S10000x128_S128x64_S10000x64_1_0_0_1_n_n 128 rfl rfl).symm k) = ix2 k c := funext fun a => Fin.ext (by
    match a with
    | ⟨0, _⟩ => exact (mm1_rhs0 _ _).trans hk
    | ⟨1, _⟩ => exact mm1_rhs1 _ _)
  rw [el, er]

theorem mm2_lhs0 (i : S10000x40.Idx) (u : dot_S10000x64_S64x40_S10000x40_1_0_0_1_n_n.contr.Idx) : (dot_S10000x64_S64x40_S10000x40_1_0_0_1_n_n.lhsIdx i u 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem mm2_lhs1 (i : S10000x40.Idx) (u : dot_S10000x64_S64x40_S10000x40_1_0_0_1_n_n.contr.Idx) : (dot_S10000x64_S64x40_S10000x40_1_0_0_1_n_n.lhsIdx i u 1).val = (u ⟨0, by decide⟩).val :=
  dot_S10000x64_S64x40_S10000x40_1_0_0_1_n_n.lhsIdx_val_of_single rfl i u
theorem mm2_rhs0 (i : S10000x40.Idx) (u : dot_S10000x64_S64x40_S10000x40_1_0_0_1_n_n.contr.Idx) : (dot_S10000x64_S64x40_S10000x40_1_0_0_1_n_n.rhsIdx i u 0).val = (u ⟨0, by decide⟩).val :=
  dot_S10000x64_S64x40_S10000x40_1_0_0_1_n_n.rhsIdx_val_of_single rfl i u
theorem mm2_rhs1 (i : S10000x40.Idx) (u : dot_S10000x64_S64x40_S10000x40_1_0_0_1_n_n.contr.Idx) : (dot_S10000x64_S64x40_S10000x40_1_0_0_1_n_n.rhsIdx i u 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The product into a zero accumulator, at row `p` and column `c`: the row of the left factor against the column
    of the right one, the contraction's one axis re-indexed by its coordinate. -/
theorem mm2_apply (A : FVec Ideal S10000x64 .bf16) (B : FVec Ideal S64x40 .bf16) (p : Fin 10000) (c : Fin 40) :
    matmul dot_S10000x64_S64x40_S10000x40_1_0_0_1_n_n none A B (constant S10000x40 .f32 0x00000000#32) (ix2 p c)
      = ∑ k : Fin 64, A (ix2 p k) * B (ix2 k c) := by
  show FloatOps.matmul dot_S10000x64_S64x40_S10000x40_1_0_0_1_n_n none A B (constant S10000x40 .f32 0x00000000#32) (ix2 p c) = _
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p c) ((contrEquiv1 dot_S10000x64_S64x40_S10000x40_1_0_0_1_n_n 64 rfl rfl).symm k) = ix2 p k := funext fun a => Fin.ext (by
    match a with
    | ⟨0, _⟩ => exact mm2_lhs0 _ _
    | ⟨1, _⟩ => exact (mm2_lhs1 _ _).trans hk)
  have er : dot_S10000x64_S64x40_S10000x40_1_0_0_1_n_n.rhsIdx (ix2 p c) ((contrEquiv1 dot_S10000x64_S64x40_S10000x40_1_0_0_1_n_n 64 rfl rfl).symm k) = ix2 k c := funext fun a => Fin.ext (by
    match a with
    | ⟨0, _⟩ => exact (mm2_rhs0 _ _).trans hk
    | ⟨1, _⟩ => exact mm2_rhs1 _ _)
  rw [el, er]

/-! ## The block at an index -/

theorem out1_7_apply (x0 : Vec Ideal S10000x128 .bf16) (x1 : Vec Ideal S128x64 .bf16) (x2 x3 x4 : Vec Ideal S1x64 .f32)
    (x5 : Vec Ideal S64x40 .bf16) (x6 : Vec Ideal S1x40 .f32) (p : Fin 10000) (q : Fin 40) :
    out1_7 (F := Ideal) x0 x1 x2 x3 x4 x5 x6 (ValueIdx.ix2 p q) =
      (∑ j : Fin 64, max ((((∑ k : Fin 128, x0 (ValueIdx.ix2 p k) * x1 (ValueIdx.ix2 k j)) + x2 (ValueIdx.ix2 0 j)) - x3 (ValueIdx.ix2 0 j)) * Ideal.rsqrt (x4 (ValueIdx.ix2 0 j) + Cert.Spec.eps)) Cert.Spec.z * x5 (ValueIdx.ix2 j q)) + x6 (ValueIdx.ix2 0 q) := by
  unfold out1_7
  rw [View.canon_unit_zero off_zero]
  simp only [View.ld_unit_zero (S := S10000x128) off_zero, View.ld_unit_zero (S := S128x64) off_zero,
    View.ld_unit_zero (S := S1x64) off_zero, View.ld_unit_zero (S := S64x40) off_zero,
    View.ld_unit_zero (S := S1x40) off_zero]
  unfold k1_pay1
  simp only [shapeCast_self]
  rw [addf_apply, mm2_apply, broadcastTo_1b_ab_apply]
  refine congrArg (· + _) (Finset.sum_congr rfl fun j _ => ?_)
  rw [truncf_apply, maximumf_apply, mulf_apply, subf_apply, addf_apply, mm1_apply, broadcastTo_1b_ab_apply,
    broadcastTo_1b_ab_apply, broadcastTo_1b_ab_apply, rsqrt_apply, addf_apply, broadcast_apply, broadcast_apply]
  rfl

end Cert.KernelIdeal.HandValue

end
-- ==== Proof.KI.R1Array.lean ====
import proofs.«120267_j79353815761144_1_alg».proof.Proof.KI.R1Value
import Idealize.ShloMosaic.Lib.Pipeline.Value

/-!
# The second region's output array after the region

Each grid point writes back one block of ten thousand rows of the output array; the five blocks tile it. What
a point writes is the block, at that point, of ONE function of the region's input arrays (`applied`), so the
array ends holding that function. Row `r` of the array lies in the block of point `r / 10000`.
-/

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Cert.Spec
open scoped BigOperators

variable (V : (c : Dev nD) → (b : Ref sig .tc) → Buf (Elt Ideal) ((c : Thread nD τ).loc b))

/-- The region's result as one function of its seven input arrays, index by index: row `i 0` of the first array
    through the first linear layer, centred by the third array and scaled by the reciprocal root of the fourth
    plus the offset, rectified, through the second linear layer. -/
def applied (a0 : S50000x128.Idx → EReal) (a1 : S128x64.Idx → EReal) (a2 a3 a4 : S1x64.Idx → EReal)
    (a5 : S64x40.Idx → EReal) (a6 : S1x40.Idx → EReal) : S50000x40.Idx → EReal := fun i =>
  (∑ j : Fin 64, max ((((∑ k : Fin 128, a0 (ix2 ⟨(i 0).val, idx2_lt0 i⟩ k) * a1 (ix2 k j)) + a2 (ix2 0 j)) - a3 (ix2 0 j)) * Ideal.rsqrt (a4 (ix2 0 j) + eps)) z * a5 (ix2 j ⟨(i 1).val, idx2_lt1 i⟩)) + a6 (ix2 0 ⟨(i 1).val, idx2_lt1 i⟩)

/-! ## The index maps over the grid -/

/-- The block index of every window at every grid point: the first input and the output move down the rows with
    the point; every other input stays at its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input window's block, read off its array -/

/-- The first input's block at point `t` is rows `10000 t …` of its array. -/
theorem blk0_apply (c : Dev nD) (t : Fin cfg1.N) (p : Fin 10000) (k : Fin 128) (r : Fin 50000) (hr : r.val = t.val * 10000 + p.val) :
    iblk1 V c 0 t (ix2 p k) = V c main_v69 (ix2 r k) := by
  obtain ⟨f00, f01, f10, f11, f20, f21, f30, f31, f40, f41, f50, f51, f60, f61, f70, f71⟩ := idx_facts1 t
  show V c main_v69 (((cfg1.win 0).blk t).view.emb (ix2 p k)) = V c main_v69 (ix2 r k)
  refine congrArg _ (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-! Every other input's block is its whole array. -/

theorem blk1_apply (c : Dev nD) (t : Fin cfg1.N) (x : S128x64.Idx) : iblk1 V c 1 t x = V c main_v71 x := by
  obtain ⟨f00, f01, f10, f11, f20, f21, f30, f31, f40, f41, f50, f51, f60, f61, f70, f71⟩ := idx_facts1 t
  show V c main_v71 (((cfg1.win 1).blk t).view.emb x) = V c main_v71 x
  refine congrArg _ (funext fun a => Fin.ext ?_)
  match a with
  | ⟨0, _⟩ => show win1_1.index t (0 : Fin 2) * 128 + 1 * (x 0).val = (x 0).val; omega
  | ⟨1, _⟩ => show win1_1.index t (1 : Fin 2) * 64 + 1 * (x 1).val = (x 1).val; omega

theorem blk2_apply (c : Dev nD) (t : Fin cfg1.N) (x : S1x64.Idx) : iblk1 V c 2 t x = V c main_v74 x := by
  obtain ⟨f00, f01, f10, f11, f20, f21, f30, f31, f40, f41, f50, f51, f60, f61, f70, f71⟩ := idx_facts1 t
  show V c main_v74 (((cfg1.win 2).blk t).view.emb x) = V c main_v74 x
  refine congrArg _ (funext fun a => Fin.ext ?_)
  match a with
  | ⟨0, _⟩ => show win1_2.index t (0 : Fin 2) * 1 + 1 * (x 0).val = (x 0).val; omega
  | ⟨1, _⟩ => show win1_2.index t (1 : Fin 2) * 64 + 1 * (x 1).val = (x 1).val; omega

theorem blk3_apply (c : Dev nD) (t : Fin cfg1.N) (x : S1x64.Idx) : iblk1 V c 3 t x = V c main_v78 x := by
  obtain ⟨f00, f01, f10, f11, f20, f21, f30, f31, f40, f41, f50, f51, f60, f61, f70, f71⟩ := idx_facts1 t
  show V c main_v78 (((cfg1.win 3).blk t).view.emb x) = V c main_v78 x
  refine congrArg _ (funext fun a => Fin.ext ?_)
  match a with
  | ⟨0, _⟩ => show win1_3.index t (0 : Fin 2) * 1 + 1 * (x 0).val = (x 0).val; omega
  | ⟨1, _⟩ => show win1_3.index t (1 : Fin 2) * 64 + 1 * (x 1).val = (x 1).val; omega

theorem blk4_apply (c : Dev nD) (t : Fin cfg1.N) (x : S1x64.Idx) : iblk1 V c 4 t x = V c main_v84 x := by
  obtain ⟨f00, f01, f10, f11, f20, f21, f30, f31, f40, f41, f50, f51, f60, f61, f70, f71⟩ := idx_facts1 t
  show V c main_v84 (((cfg1.win 4).blk t).view.emb x) = V c main_v84 x
  refine congrArg _ (funext fun a => Fin.ext ?_)
  match a with
  | ⟨0, _⟩ => show win1_4.index t (0 : Fin 2) * 1 + 1 * (x 0).val = (x 0).val; omega
  | ⟨1, _⟩ => show win1_4.index t (1 : Fin 2) * 64 + 1 * (x 1).val = (x 1).val; omega

theorem blk5_apply (c : Dev nD) (t : Fin cfg1.N) (x : S64x40.Idx) : iblk1 V c 5 t x = V c main_v73 x := by
  obtain ⟨f00, f01, f10, f11, f20, f21, f30, f31, f40, f41, f50, f51, f60, f61, f70, f71⟩ := idx_facts1 t
  show V c main_v73 (((cfg1.win 5).blk t).view.emb x) = V c main_v73 x
  refine congrArg _ (funext fun a => Fin.ext ?_)
  match a with
  | ⟨0, _⟩ => show win1_5.index t (0 : Fin 2) * 64 + 1 * (x 0).val = (x 0).val; omega
  | ⟨1, _⟩ => show win1_5.index t (1 : Fin 2) * 40 + 1 * (x 1).val = (x 1).val; omega

theorem blk6_apply (c : Dev nD) (t : Fin cfg1.N) (x : S1x40.Idx) : iblk1 V c 6 t x = V c main_v75 x := by
  obtain ⟨f00, f01, f10, f11, f20, f21, f30, f31, f40, f41, f50, f51, f60, f61, f70, f71⟩ := idx_facts1 t
  show V c main_v75 (((cfg1.win 6).blk t).view.emb x) = V c main_v75 x
  refine congrArg _ (funext fun a => Fin.ext ?_)
  match a with
  | ⟨0, _⟩ => show win1_6.index t (0 : Fin 2) * 1 + 1 * (x 0).val = (x 0).val; omega
  | ⟨1, _⟩ => show win1_6.index t (1 : Fin 2) * 40 + 1 * (x 1).val = (x 1).val; omega

/-! ## What a point writes back -/

/-- The array row of row `p` of the output's block at point `t`, -/
theorem emb7_row (t : Fin cfg1.N) (p : Fin 10000) (q : Fin 40) :
    ((((cfg1.win 7).blk t).view.emb (ix2 p q)) 0).val = t.val * 10000 + p.val := by
  obtain ⟨f00, f01, f10, f11, f20, f21, f30, f31, f40, f41, f50, f51, f60, f61, f70, f71⟩ := idx_facts1 t
  show win1_7.index t (0 : Fin 2) * 10000 + 1 * p.val = _
  omega

/-- and its column. -/
theorem emb7_col (t : Fin cfg1.N) (p : Fin 10000) (q : Fin 40) :
    ((((cfg1.win 7).blk t).view.emb (ix2 p q)) 1).val = q.val := by
  obtain ⟨f00, f01, f10, f11, f20, f21, f30, f31, f40, f41, f50, f51, f60, f61, f70, f71⟩ := idx_facts1 t
  show win1_7.index t (1 : Fin 2) * 40 + 1 * q.val = _
  omega

/-- What point `t` writes back is block `t` of `applied` of the input arrays as the region finds them. -/
theorem flushed7_eq (c : Dev nD) (t : Fin cfg1.N) :
    (dat1 V c).flushed 7 t = ((cfg1.win 7).blk t).view.read (Elt Ideal)
      (applied (V c main_v69) (V c main_v71) (V c main_v74) (V c main_v78) (V c main_v84) (V c main_v73) (V c main_v75)) := by
  show (cfg1.win 7).cut (grid1.coords t) ((dat1 V c).after 7 t) = _
  rw [after1_7]
  funext y
  obtain ⟨p, q, rfl⟩ : ∃ (p : Fin 10000) (q : Fin 40), y = ix2 p q := ⟨y 0, y 1, eq_ix2 y⟩
  show out1_7 (F := Ideal) (iblk1 V c 0 t) (iblk1 V c 1 t) (iblk1 V c 2 t) (iblk1 V c 3 t) (iblk1 V c 4 t) (iblk1 V c 5 t) (iblk1 V c 6 t) (ix2 p q)
    = applied (V c main_v69) (V c main_v71) (V c main_v74) (V c main_v78) (V c main_v84) (V c main_v73) (V c main_v75) (((cfg1.win 7).blk t).view.emb (ix2 p q))
  rw [out1_7_apply]
  unfold applied
  have hq : (⟨((((cfg1.win 7).blk t).view.emb (ix2 p q)) 1).val, idx2_lt1 _⟩ : Fin 40) = q := Fin.ext (emb7_col t p q)
  have e0 : ∀ k : Fin 128, iblk1 V c 0 t (ix2 p k)
      = V c main_v69 (ix2 ⟨((((cfg1.win 7).blk t).view.emb (ix2 p q)) 0).val, idx2_lt0 _⟩ k) :=
    fun k => blk0_apply V c t p k _ (emb7_row t p q)
  simp only [e0, blk1_apply, blk2_apply, blk3_apply, blk4_apply, blk5_apply, blk6_apply, hq]

/-! ## The blocks tile the array -/

/-- An index of the array is in point `t`'s block iff each coordinate is in the block's range on its axis. -/
theorem mem_blk7 (t : Fin cfg1.N) (i : S50000x40.Idx) :
    i ∈ ((cfg1.win 7).blk t).view.set ↔ ∀ a : Fin 2, win1_7.index t a * S10000x40.size a ≤ (i a).val ∧ (i a).val < win1_7.index t a * S10000x40.size a + S10000x40.size a := by
  show i ∈ ((View.whole main_v85).slice (win1_7.rect t)).set ↔ _
  rw [View.set_slice_whole, Rect.mem_set_unit]
  exact Iff.rfl

/-- Every index of the array is in the block some point writes back: row `r` in that of point `r / 10000`. -/
theorem cover7 (i : S50000x40.Idx) :
    ∃ t : Fin cfg1.N, (cfg1.win 7).flush t = true ∧ i ∈ ((cfg1.win 7).blk t).view.set := by
  have hi0 : (i 0).val < 50000 := (i 0).isLt
  have hi1 : (i 1).val < 40 := (i 1).isLt
  have hN : cfg1.N = 5 := N_1
  refine ⟨⟨(i 0).val / 10000, by omega⟩, flush1_7 _, ?_⟩
  rw [mem_blk7]
  obtain ⟨f00, f01, f10, f11, f20, f21, f30, f31, f40, f41, f50, f51, f60, f61, f70, f71⟩ := idx_facts1 ⟨(i 0).val / 10000, by omega⟩
  intro a
  match a with
  | ⟨0, _⟩ =>
    show win1_7.index ⟨(i 0).val / 10000, _⟩ (0 : Fin 2) * 10000 ≤ (i 0).val ∧ (i 0).val < win1_7.index ⟨(i 0).val / 10000, _⟩ (0 : Fin 2) * 10000 + 10000
    rw [f70]; show (i 0).val / 10000 * 10000 ≤ (i 0).val ∧ (i 0).val < (i 0).val / 10000 * 10000 + 10000
    omega
  | ⟨1, _⟩ =>
    show win1_7.index ⟨(i 0).val / 10000, _⟩ (1 : Fin 2) * 40 ≤ (i 1).val ∧ (i 1).val < win1_7.index ⟨(i 0).val / 10000, _⟩ (1 : Fin 2) * 40 + 40
    rw [f71]
    omega

/-! ## The array after the region -/

/-- The output array after the last point: `applied` of the input arrays as the region finds them. -/
theorem final7 (c : Dev nD) : (dat1 V c).arrAt 7 cfg1.N
    = applied (V c main_v69) (V c main_v71) (V c main_v74) (V c main_v78) (V c main_v84) (V c main_v73) (V c main_v75) :=
  (dat1 V c).arrAt_eq_of_cover 7 _ (fun t _ => flushed7_eq V c t) cover7

/-! ## The function, against the specification -/

/-- At arrays that hold the specification's inputs, with the column means and variances in the third and fourth
    row vectors, `applied` is the specification's map with the one-pass variance. -/
theorem applied_eq_outK (a0 : S50000x128.Idx → EReal) (a1 : S128x64.Idx → EReal) (a2 a3 a4 : S1x64.Idx → EReal)
    (a5 : S64x40.Idx → EReal) (a6 : S1x40.Idx → EReal)
    (X : Fin 50000 → Fin 128 → EReal) (W1 : Fin 64 → Fin 128 → EReal) (b1 : Fin 64 → EReal) (W2 : Fin 40 → Fin 64 → EReal) (b2 : Fin 40 → EReal)
    (h0 : ∀ n k, a0 (ix2 n k) = X n k) (h1 : ∀ k j, a1 (ix2 k j) = W1 j k) (h2 : ∀ j, a2 (ix2 0 j) = b1 j)
    (h3 : ∀ j, a3 (ix2 0 j) = Cert.Spec.mean (Cert.Spec.pre X W1 b1) j) (h4 : ∀ j, a4 (ix2 0 j) = Cert.Spec.varK (Cert.Spec.pre X W1 b1) j)
    (h5 : ∀ j o, a5 (ix2 j o) = W2 o j) (h6 : ∀ o, a6 (ix2 0 o) = b2 o) (n : Fin 50000) (o : Fin 40) :
    applied a0 a1 a2 a3 a4 a5 a6 (ix2 n o) = Cert.Spec.outK X W1 b1 W2 b2 n o := by
  show (∑ j : Fin 64, max ((((∑ k : Fin 128, a0 (ix2 n k) * a1 (ix2 k j)) + a2 (ix2 0 j)) - a3 (ix2 0 j)) * Ideal.rsqrt (a4 (ix2 0 j) + eps)) z * a5 (ix2 j o)) + a6 (ix2 0 o) = _
  simp only [h0, h1, h2, h3, h4, h5, h6]
  rfl

end Cert.KernelIdeal.HandValue

end
-- ==== Proof.KI.R0Blocks.lean ====
import proofs.«120267_j79353815761144_1_alg».proof.Proof.KI.R0Runs
import Idealize.ShloMosaic.Lib.ValueIdx
import Idealize.ShloMosaic.Lib.Pipeline.Value

/-!
The input blocks of the statistics region, read off the arrays at explicit coordinates. A block's coordinate on
an axis is the block index times the block size plus the coordinate inside the block. The first input is cut
into five blocks of 10000 rows, block `t` at the `t`-th grid point; the other two inputs are taken whole at
every point.
-/

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- The block indices of the three inputs, decided once over the five grid points: the first input's row block
is the point's number, every other block index is zero. -/
theorem idx_in0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row `p` of the first input's block at point `t` is row `10000 t + p` of the array. -/
theorem iblk0_0_apply (c : Dev nD) (t : Fin cfg0.N) (p : Fin 10000) (k : Fin 128) :
    iblk0 V c 0 t (ix2 p k)
      = V c main_v69 (ix2 (⟨t.val * 10000 + p.val, by have h : t.val < 5 := t.isLt; have := p.isLt; omega⟩ : Fin 50000) k) := by
  obtain ⟨e0, e1, -⟩ := idx_in0 t
  show V c main_v69 (((cfg0.win 0).blk t).view.emb (ix2 p k)) = _
  congr 1
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

/-- The second input's block is the whole array at every point. -/
theorem iblk0_1_apply (c : Dev nD) (t : Fin cfg0.N) (k : Fin 128) (j : Fin 64) :
    iblk0 V c 1 t (ix2 k j) = V c main_v71 (ix2 k j) := by
  obtain ⟨-, -, e0, e1, -⟩ := idx_in0 t
  show V c main_v71 (((cfg0.win 1).blk t).view.emb (ix2 k j)) = _
  congr 1
  funext a; apply Fin.ext
  match a with
  | ⟨0, _⟩ => show win0_1.index t (0 : Fin 2) * 128 + 1 * k.val = k.val; omega
  | ⟨1, _⟩ => show win0_1.index t (1 : Fin 2) * 64 + 1 * j.val = j.val; omega

/-- The third input's block is the whole one-row array at every point. -/
theorem iblk0_2_apply (c : Dev nD) (t : Fin cfg0.N) (j : Fin 64) :
    iblk0 V c 2 t (ix2 (0 : Fin 1) j) = V c main_v74 (ix2 (0 : Fin 1) j) := by
  obtain ⟨-, -, -, -, e0, e1⟩ := idx_in0 t
  show V c main_v74 (((cfg0.win 2).blk t).view.emb (ix2 (0 : Fin 1) j)) = _
  congr 1
  funext a; apply Fin.ext
  match a with
  | ⟨0, _⟩ => show win0_2.index t (0 : Fin 2) * 1 + 1 * (0 : Fin 1).val = (0 : Fin 1).val; omega
  | ⟨1, _⟩ => show win0_2.index t (1 : Fin 2) * 64 + 1 * j.val = j.val; omega

end Cert.KernelIdeal.HandValue

end
-- ==== Proof.KI.R0Chain.lean ====
import proofs.«120267_j79353815761144_1_alg».proof.Proof.KI.R0
import Idealize.ShloMosaic.Lib.Pipeline.Value
import Idealize.ShloMosaic.Lib.ValueIdx

set_option maxRecDepth 16384

noncomputable section

namespace Cert.KernelIdeal.HandValue

open Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-! # What the region leaves in its two output arrays: the ordered accumulation

Each case's stores are read back as the payloads they carry; the running sums after every point are then an ordered
chain over the points, and the last point copies the chain's end into the two outputs, written back once. -/

theorem hz : (![0, 0] : Fin 2 → Nat) = fun _ => 0 := funext fun a => by fin_cases a <;> rfl

/-! ## The cases' stores, as values -/

/-- FIRST point, first running sum: cleared, read back, and the block's column sums added. -/
theorem sout_A_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) :
    sout0_A_0 c i arg1 harg1 arg2 harg2 arg3 harg3 arg4 harg4 arg5 harg5 arg6 harg6 arg7 harg7 hc0 hc1 x0 x1 x2 = k0_pay4 x0 x1 x2 (k0_pay1 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S1x64) hz, View.readCov_unit_zero (S := S1x64) _ hz]
  simp only [View.readAt_eq_ld, harg1.read_unread, harg2.read_unread, harg3.read_unread, harg6.read_unread, View.ld_unit_zero (S := S10000x128) hz, View.ld_unit_zero (S := S128x64) hz, View.ld_unit_zero (S := S1x64) hz]

/-- FIRST point, second running sum. -/
theorem sout_A_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S10000x128 .bf16) (x1 : Vec F S128x64 .bf16) (x2 : Vec F S1x64 .f32) :
    sout0_A_1 c i arg1 harg1 arg2 harg2 arg3 harg3 arg4 harg4 arg5 harg5 arg6 harg6 arg7 harg7 hc0 hc1 x0 x1 x2 = k0_pay5 x0 x1 x2 (k0_pay2 (F := F)) := by
  unfold sout0_A_1
  rw [View.read_writes_eq_canon _ _ _ (scover0_A_1 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S1x64) hz, View.readCov_unit_zero (S := S1x64) _ hz]
  simp only [View.readAt_eq_ld, harg1.read_unread, harg2.read_unread, harg3.read_unread, harg7.read_unread, View.ld_unit_zero (S := S10000x128) hz, View.ld_unit_zero (S := S128x64) hz, View.ld_unit_zero (S := S1x64) hz]

/-- MIDDLE point, first running sum: what the point before left, plus the block's column sums. -/
theorem sout_B_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) :
    sout0_B_0 c i arg1 harg1 arg2 harg2 arg3 harg3 arg4 harg4 arg5 harg5 arg6 harg6 arg7 harg7 hc0 hc1 x0 x1 x2 xs0 xs1 = k0_pay4 x0 x1 x2 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 xs0 xs1)]
  unfold kernelRun0_B
  dsimp only
  rw [View.canon_unit_zero (S := S1x64) hz]
  simp only [View.readAt_eq_ld, harg1.read_unread, harg2.read_unread, harg3.read_unread, harg6.read_unread, View.ld_unit_zero (S := S10000x128) hz, View.ld_unit_zero (S := S128x64) hz, View.ld_unit_zero (S := S1x64) hz]

/-- MIDDLE point, second running sum. -/
theorem sout_B_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S10000x128 .bf16) (x1 : Vec F S128x64 .bf16) (x2 : Vec F S1x64 .f32) (xs0 xs1 : Vec F S1x64 .f32) :
    sout0_B_1 c i arg1 harg1 arg2 harg2 arg3 harg3 arg4 harg4 arg5 harg5 arg6 harg6 arg7 harg7 hc0 hc1 x0 x1 x2 xs0 xs1 = k0_pay5 x0 x1 x2 xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 xs0 xs1)]
  unfold kernelRun0_B
  dsimp only
  rw [View.canon_unit_zero (S := S1x64) hz]
  simp only [View.readAt_eq_ld, harg1.read_unread, harg2.read_unread, harg3.read_unread, harg7.read_unread, View.ld_unit_zero (S := S10000x128) hz, View.ld_unit_zero (S := S128x64) hz, View.ld_unit_zero (S := S1x64) hz]

/-- LAST point, first running sum. -/
theorem sout_C_0 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) :
    sout0_C_0 c i arg1 harg1 arg2 harg2 arg3 harg3 arg4 harg4 arg5 harg5 arg6 harg6 arg7 harg7 hc0 hc1 x0 x1 x2 xs0 xs1 = k0_pay4 x0 x1 x2 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x64) hz]
  simp only [View.readAt_eq_ld, harg1.read_unread, harg2.read_unread, harg3.read_unread, harg6.read_unread, View.ld_unit_zero (S := S10000x128) hz, View.ld_unit_zero (S := S128x64) hz, View.ld_unit_zero (S := S1x64) hz]

/-- LAST point, second running sum. -/
theorem sout_C_1 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) :
    sout0_C_1 c i arg1 harg1 arg2 harg2 arg3 harg3 arg4 harg4 arg5 harg5 arg6 harg6 arg7 harg7 hc0 hc1 x0 x1 x2 xs0 xs1 = k0_pay5 x0 x1 x2 xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x64) hz]
  simp only [View.readAt_eq_ld, harg1.read_unread, harg2.read_unread, harg3.read_unread, harg7.read_unread, View.ld_unit_zero (S := S10000x128) hz, View.ld_unit_zero (S := S128x64) hz, View.ld_unit_zero (S := S1x64) hz]

/-- LAST point, first output: the first running sum as just stored. -/
theorem out_C_3 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) :
    out0_C_3 c i arg1 harg1 arg2 harg2 arg3 harg3 arg4 harg4 arg5 harg5 arg6 harg6 arg7 harg7 hc0 hc1 x0 x1 x2 xs0 xs1 = k0_pay4 x0 x1 x2 xs0 := by
  unfold out0_C_3
  rw [View.read_writes_eq_canon _ _ _ (cover0_C_3 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x64) hz, View.readCov_unit_zero (S := S1x64) _ hz]
  simp only [View.readAt_eq_ld, harg1.read_unread, harg2.read_unread, harg3.read_unread, harg6.read_unread, View.ld_unit_zero (S := S10000x128) hz, View.ld_unit_zero (S := S128x64) hz, View.ld_unit_zero (S := S1x64) hz]

/-- LAST point, second output: the second running sum as just stored. -/
theorem out_C_4 (c : Dev nD) (i : grid0.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S10000x128 .bf16) (x1 : Vec F S128x64 .bf16) (x2 : Vec F S1x64 .f32) (xs0 xs1 : Vec F S1x64 .f32) :
    out0_C_4 c i arg1 harg1 arg2 harg2 arg3 harg3 arg4 harg4 arg5 harg5 arg6 harg6 arg7 harg7 hc0 hc1 x0 x1 x2 xs0 xs1 = k0_pay5 x0 x1 x2 xs1 := by
  unfold out0_C_4
  rw [View.read_writes_eq_canon _ _ _ (cover0_C_4 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x64) hz, View.readCov_unit_zero (S := S1x64) _ hz]
  simp only [View.readAt_eq_ld, harg1.read_unread, harg2.read_unread, harg3.read_unread, harg7.read_unread, View.ld_unit_zero (S := S10000x128) hz, View.ld_unit_zero (S := S128x64) hz, View.ld_unit_zero (S := S1x64) hz]

section Regions
variable (V : (c : Dev nD) → (b : Ref sig .tc) → Buf (Elt F) ((c : Thread nD τ).loc b))

/-! ## The ordered chain over the points -/

/-- The two running sums after point `n`: at the first point the cleared buffers plus that block's column sums (of `h`
    and of its squares), then each later block's added to what the point before left — in point order. -/
def acc0 (c : Dev nD) : (n : ℕ) → n < cfg0.N → Vec F S1x64 .f32 × Vec F S1x64 .f32
  | 0, h => (k0_pay4 (iblk0 V c 0 ⟨0, h⟩) (iblk0 V c 1 ⟨0, h⟩) (iblk0 V c 2 ⟨0, h⟩) (k0_pay1 (F := F)), k0_pay5 (iblk0 V c 0 ⟨0, h⟩) (iblk0 V c 1 ⟨0, h⟩) (iblk0 V c 2 ⟨0, h⟩) (k0_pay2 (F := F)))
  | n + 1, h => (k0_pay4 (iblk0 V c 0 ⟨n + 1, h⟩) (iblk0 V c 1 ⟨n + 1, h⟩) (iblk0 V c 2 ⟨n + 1, h⟩) (acc0 c n (Nat.lt_of_succ_lt h)).1, k0_pay5 (iblk0 V c 0 ⟨n + 1, h⟩) (iblk0 V c 1 ⟨n + 1, h⟩) (iblk0 V c 2 ⟨n + 1, h⟩) (acc0 c n (Nat.lt_of_succ_lt h)).2)

theorem acc0_zero (c : Dev nD) (h : 0 < cfg0.N) :
    acc0 V c 0 h = (k0_pay4 (iblk0 V c 0 ⟨0, h⟩) (iblk0 V c 1 ⟨0, h⟩) (iblk0 V c 2 ⟨0, h⟩) (k0_pay1 (F := F)), k0_pay5 (iblk0 V c 0 ⟨0, h⟩) (iblk0 V c 1 ⟨0, h⟩) (iblk0 V c 2 ⟨0, h⟩) (k0_pay2 (F := F))) := rfl
theorem acc0_succ (c : Dev nD) (n : ℕ) (h : n + 1 < cfg0.N) :
    acc0 V c (n + 1) h = (k0_pay4 (iblk0 V c 0 ⟨n + 1, h⟩) (iblk0 V c 1 ⟨n + 1, h⟩) (iblk0 V c 2 ⟨n + 1, h⟩) (acc0 V c n (Nat.lt_of_succ_lt h)).1, k0_pay5 (iblk0 V c 0 ⟨n + 1, h⟩) (iblk0 V c 1 ⟨n + 1, h⟩) (iblk0 V c 2 ⟨n + 1, h⟩) (acc0 V c n (Nat.lt_of_succ_lt h)).2) := rfl

/-- What the two running-sum buffers hold after point `n` IS the chain: by induction on the point. -/
theorem scr_eq (c : Dev nD) : ∀ (n : ℕ) (h : n < cfg0.N),
    (outsAt0 V c n h).2.2.1 = (acc0 V c n h).1 ∧ (outsAt0 V c n h).2.2.2 = (acc0 V c n h).2
  | 0, h => by
    rw [outsAt0_A V c ⟨0, h⟩ rfl (by dsimp only; omega), acc0_zero]
    dsimp only
    exact ⟨sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _ (iblk0 V c 0 ⟨0, h⟩) (iblk0 V c 1 ⟨0, h⟩) (iblk0 V c 2 ⟨0, h⟩), sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _ (iblk0 V c 0 ⟨0, h⟩) (iblk0 V c 1 ⟨0, h⟩) (iblk0 V c 2 ⟨0, h⟩)⟩
  | n + 1, h => by
    have hN : cfg0.N = 5 := N_0
    have ih := scr_eq c n (Nat.lt_of_succ_lt h)
    have h0 : ¬(⟨n + 1, h⟩ : Fin cfg0.N).val % 5 = 0 := by dsimp only; omega
    rw [acc0_succ]
    by_cases h1 : (⟨n + 1, h⟩ : Fin cfg0.N).val % 5 = 4
    · rw [outsAt0_C V c ⟨n + 1, h⟩ h0 h1]
      dsimp only
      rw [sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) ((hcond0_1 ⟨n + 1, h⟩).mpr h1) (iblk0 V c 0 ⟨n + 1, h⟩) (iblk0 V c 1 ⟨n + 1, h⟩) (iblk0 V c 2 ⟨n + 1, h⟩) (outsAt0 V c (n + 1 - 1) (Nat.lt_of_le_of_lt (Nat.sub_le _ _) h)).2.2.1 (outsAt0 V c (n + 1 - 1) (Nat.lt_of_le_of_lt (Nat.sub_le _ _) h)).2.2.2,
        sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) ((hcond0_1 ⟨n + 1, h⟩).mpr h1) (iblk0 V c 0 ⟨n + 1, h⟩) (iblk0 V c 1 ⟨n + 1, h⟩) (iblk0 V c 2 ⟨n + 1, h⟩) (outsAt0 V c (n + 1 - 1) (Nat.lt_of_le_of_lt (Nat.sub_le _ _) h)).2.2.1 (outsAt0 V c (n + 1 - 1) (Nat.lt_of_le_of_lt (Nat.sub_le _ _) h)).2.2.2]
      exact ⟨congrArg (k0_pay4 (iblk0 V c 0 ⟨n + 1, h⟩) (iblk0 V c 1 ⟨n + 1, h⟩) (iblk0 V c 2 ⟨n + 1, h⟩)) ih.1, congrArg (k0_pay5 (iblk0 V c 0 ⟨n + 1, h⟩) (iblk0 V c 1 ⟨n + 1, h⟩) (iblk0 V c 2 ⟨n + 1, h⟩)) ih.2⟩
    · rw [outsAt0_B V c ⟨n + 1, h⟩ h0 h1]
      dsimp only
      rw [sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) (fun e => h1 ((hcond0_1 ⟨n + 1, h⟩).mp e)) (iblk0 V c 0 ⟨n + 1, h⟩) (iblk0 V c 1 ⟨n + 1, h⟩) (iblk0 V c 2 ⟨n + 1, h⟩) (outsAt0 V c (n + 1 - 1) (Nat.lt_of_le_of_lt (Nat.sub_le _ _) h)).2.2.1 (outsAt0 V c (n + 1 - 1) (Nat.lt_of_le_of_lt (Nat.sub_le _ _) h)).2.2.2,
        sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) (fun e => h1 ((hcond0_1 ⟨n + 1, h⟩).mp e)) (iblk0 V c 0 ⟨n + 1, h⟩) (iblk0 V c 1 ⟨n + 1, h⟩) (iblk0 V c 2 ⟨n + 1, h⟩) (outsAt0 V c (n + 1 - 1) (Nat.lt_of_le_of_lt (Nat.sub_le _ _) h)).2.2.1 (outsAt0 V c (n + 1 - 1) (Nat.lt_of_le_of_lt (Nat.sub_le _ _) h)).2.2.2]
      exact ⟨congrArg (k0_pay4 (iblk0 V c 0 ⟨n + 1, h⟩) (iblk0 V c 1 ⟨n + 1, h⟩) (iblk0 V c 2 ⟨n + 1, h⟩)) ih.1, congrArg (k0_pay5 (iblk0 V c 0 ⟨n + 1, h⟩) (iblk0 V c 1 ⟨n + 1, h⟩) (iblk0 V c 2 ⟨n + 1, h⟩)) ih.2⟩

/-- At the last point the two outputs' buffers hold the chain's end. -/
theorem outs_last (c : Dev nD) (n : ℕ) (h : n + 1 < cfg0.N) (h4 : n + 1 = 4) :
    (outsAt0 V c (n + 1) h).1 = (acc0 V c (n + 1) h).1 ∧ (outsAt0 V c (n + 1) h).2.1 = (acc0 V c (n + 1) h).2 := by
  have ih := scr_eq V c n (Nat.lt_of_succ_lt h)
  have h0 : ¬(⟨n + 1, h⟩ : Fin cfg0.N).val % 5 = 0 := by dsimp only; omega
  have h1 : (⟨n + 1, h⟩ : Fin cfg0.N).val % 5 = 4 := by dsimp only; omega
  rw [acc0_succ, outsAt0_C V c ⟨n + 1, h⟩ h0 h1]
  dsimp only
  rw [out_C_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) ((hcond0_1 ⟨n + 1, h⟩).mpr h1) (iblk0 V c 0 ⟨n + 1, h⟩) (iblk0 V c 1 ⟨n + 1, h⟩) (iblk0 V c 2 ⟨n + 1, h⟩) (outsAt0 V c (n + 1 - 1) (Nat.lt_of_le_of_lt (Nat.sub_le _ _) h)).2.2.1 (outsAt0 V c (n + 1 - 1) (Nat.lt_of_le_of_lt (Nat.sub_le _ _) h)).2.2.2,
    out_C_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) ((hcond0_1 ⟨n + 1, h⟩).mpr h1) (iblk0 V c 0 ⟨n + 1, h⟩) (iblk0 V c 1 ⟨n + 1, h⟩) (iblk0 V c 2 ⟨n + 1, h⟩) (outsAt0 V c (n + 1 - 1) (Nat.lt_of_le_of_lt (Nat.sub_le _ _) h)).2.2.1 (outsAt0 V c (n + 1 - 1) (Nat.lt_of_le_of_lt (Nat.sub_le _ _) h)).2.2.2]
  exact ⟨congrArg (k0_pay4 (iblk0 V c 0 ⟨n + 1, h⟩) (iblk0 V c 1 ⟨n + 1, h⟩) (iblk0 V c 2 ⟨n + 1, h⟩)) ih.1, congrArg (k0_pay5 (iblk0 V c 0 ⟨n + 1, h⟩) (iblk0 V c 1 ⟨n + 1, h⟩) (iblk0 V c 2 ⟨n + 1, h⟩)) ih.2⟩

/-! ## The two output arrays after the region -/

theorem lt4 : 3 + 1 < cfg0.N := by rw [show cfg0.N = 5 from N_0]; decide

/-- The chain's end, as contents of each output array (its one block IS the array). -/
abbrev result3 (c : Dev nD) : Buf (Elt F) ((c : Thread nD τ).loc main_v76_0) := (acc0 V c (3 + 1) lt4).1
abbrev result4 (c : Dev nD) : Buf (Elt F) ((c : Thread nD τ).loc main_v76_1) := (acc0 V c (3 + 1) lt4).2

/-- The one write-back of output 3, at the last point, writes the chain's end. -/
theorem flushed3 (c : Dev nD) (t : Fin cfg0.N) (hf : (cfg0.win 3).flush t = true) :
    (dat0 V c).flushed 3 t = ((cfg0.win 3).blk t).view.read (Elt F) (result3 V c) := by
  have hN : cfg0.N = 5 := N_0
  have h4 : t.val = 4 := by have := (flush0_3 t).mp hf; have := t.isLt; omega
  obtain rfl : t = t0_4 := Fin.ext h4
  show (cfg0.win 3).cut (grid0.coords t0_4) ((dat0 V c).after 3 t0_4) = _
  rw [after0_3, show outsAt0 V c t0_4.val t0_4.isLt = outsAt0 V c (3 + 1) lt4 from rfl, (outs_last V c 3 lt4 rfl).1]
  have hz' : (fun a => win0_3.index t0_4 a * main_v76_0.ty.shape.size a) = fun _ => 0 := funext fun a => by fin_cases a <;> decide
  exact (Memref.read_access_unit_zero (Elt F) main_v76_0 hz' (fun a => by rw [congrFun hz' a]; simp) (result3 V c)).symm

theorem flushed4 (c : Dev nD) (t : Fin cfg0.N) (hf : (cfg0.win 4).flush t = true) :
    (dat0 V c).flushed 4 t = ((cfg0.win 4).blk t).view.read (Elt F) (result4 V c) := by
  have hN : cfg0.N = 5 := N_0
  have h4 : t.val = 4 := by have := (flush0_4 t).mp hf; have := t.isLt; omega
  obtain rfl : t = t0_4 := Fin.ext h4
  show (cfg0.win 4).cut (grid0.coords t0_4) ((dat0 V c).after 4 t0_4) = _
  rw [after0_4, show outsAt0 V c t0_4.val t0_4.isLt = outsAt0 V c (3 + 1) lt4 from rfl, (outs_last V c 3 lt4 rfl).2]
  have hz' : (fun a => win0_4.index t0_4 a * main_v76_1.ty.shape.size a) = fun _ => 0 := funext fun a => by fin_cases a <;> decide
  exact (Memref.read_access_unit_zero (Elt F) main_v76_1 hz' (fun a => by rw [congrFun hz' a]; simp) (result4 V c)).symm

/-- Output 3's array after the region is the chain's end: the last point's block covers it. -/
theorem arrAt3 (c : Dev nD) : (dat0 V c).arrAt 3 cfg0.N = result3 V c :=
  (dat0 V c).arrAt_eq_of_cover 3 (result3 V c) (flushed3 V c) fun i =>
    ⟨t0_4, (flush0_3 t0_4).mpr rfl, by
      show i ∈ ((View.whole main_v76_0).slice (win0_3.rect t0_4)).set
      rw [View.set_slice_whole, Rect.mem_set_unit]
      intro a
      have h0 : (i 0 : Nat) < 1 := (i 0).isLt
      have h1 : (i 1 : Nat) < 64 := (i 1).isLt
      match a with
      | ⟨0, _⟩ => show win0_3.index t0_4 0 * win0_3.size 0 ≤ (i 0 : Nat) ∧ (i 0 : Nat) < win0_3.index t0_4 0 * win0_3.size 0 + win0_3.xsize (grid0.coords t0_4) 0
                  rw [show win0_3.index t0_4 0 * win0_3.size 0 = 0 from by decide +kernel, show win0_3.xsize (grid0.coords t0_4) 0 = 1 from by decide +kernel]; omega
      | ⟨1, _⟩ => show win0_3.index t0_4 1 * win0_3.size 1 ≤ (i 1 : Nat) ∧ (i 1 : Nat) < win0_3.index t0_4 1 * win0_3.size 1 + win0_3.xsize (grid0.coords t0_4) 1
                  rw [show win0_3.index t0_4 1 * win0_3.size 1 = 0 from by decide +kernel, show win0_3.xsize (grid0.coords t0_4) 1 = 64 from by decide +kernel]; omega⟩

/-- Output 4's array after the region is the chain's end: the last point's block covers it. -/
theorem arrAt4 (c : Dev nD) : (dat0 V c).arrAt 4 cfg0.N = result4 V c :=
  (dat0 V c).arrAt_eq_of_cover 4 (result4 V c) (flushed4 V c) fun i =>
    ⟨t0_4, (flush0_4 t0_4).mpr rfl, by
      show i ∈ ((View.whole main_v76_1).slice (win0_4.rect t0_4)).set
      rw [View.set_slice_whole, Rect.mem_set_unit]
      intro a
      have h0 : (i 0 : Nat) < 1 := (i 0).isLt
      have h1 : (i 1 : Nat) < 64 := (i 1).isLt
      match a with
      | ⟨0, _⟩ => show win0_4.index t0_4 0 * win0_4.size 0 ≤ (i 0 : Nat) ∧ (i 0 : Nat) < win0_4.index t0_4 0 * win0_4.size 0 + win0_4.xsize (grid0.coords t0_4) 0
                  rw [show win0_4.index t0_4 0 * win0_4.size 0 = 0 from by decide +kernel, show win0_4.xsize (grid0.coords t0_4) 0 = 1 from by decide +kernel]; omega
      | ⟨1, _⟩ => show win0_4.index t0_4 1 * win0_4.size 1 ≤ (i 1 : Nat) ∧ (i 1 : Nat) < win0_4.index t0_4 1 * win0_4.size 1 + win0_4.xsize (grid0.coords t0_4) 1
                  rw [show win0_4.index t0_4 1 * win0_4.size 1 = 0 from by decide +kernel, show win0_4.xsize (grid0.coords t0_4) 1 = 64 from by decide +kernel]; omega⟩

end Regions

end Cert.KernelIdeal.HandValue

end
-- ==== Proof.KI.R0Pay.lean ====
import proofs.«120267_j79353815761144_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal.Gen
open Idealize.ShloMosaic Idealize.ShloMosaic.ValueIdx

/-! # The statistics kernel's payloads read at an index, over the extended reals

With `h = x·w + b` (a 10000×64 block: row `p`, column `j`), the first running sum gains `∑ₚ h p j` at a point and
the second `∑ₚ (h p j)²`. -/

/-! ## The matrix product's operand indices, coordinate by coordinate -/

theorem lhs0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

section
variable (x0 : Vec Ideal S10000x128 .bf16) (x1 : Vec Ideal S128x64 .bf16) (x2 : Vec Ideal S1x64 .f32)

/-- Entry (p, j) of `h = x·w + b`: row `p` of `x` against column `j` of `w`, plus the bias at `j`. -/
def Hrow (p : Fin 10000) (j : Fin 64) : EReal :=
  (∑ k : Fin 128, ((x0 (ix2 p k) : EReal) * (x1 (ix2 k j) : EReal))) + (x2 (ix2 0 j) : EReal)

/-- The zero block the first point stores is zero everywhere. -/
theorem pay1_apply (j : Fin 64) : k0_pay1 (F := Ideal) (ix2 0 j) = 0 := by
  unfold k0_pay1
  simp only [shapeCast_self]
  exact Ideal.ofBits_zero_f32
theorem pay2_apply (j : Fin 64) : k0_pay2 (F := Ideal) (ix2 0 j) = 0 := by
  unfold k0_pay2
  simp only [shapeCast_self]
  exact Ideal.ofBits_zero_f32

/-- The product into the zero block, at (p, j): the sum over the 128 contracted coordinates. -/
theorem matmul_at (p : Fin 10000) (j : Fin 64) :
    (FloatOps.matmul (F := Ideal) (φ₁ := FTy.bf16) (φ₂ := FTy.bf16) dot_S10000x128_S128x64_S10000x64_1_0_0_1_n_n none (x0 : FVec Ideal S10000x128 .bf16) (x1 : FVec Ideal S128x64 .bf16) (constant S10000x64 .f32 0x00000000#32) (ix2 p j) : EReal)
      = ∑ k : Fin 128, ((x0 (ix2 p k) : EReal) * (x1 (ix2 k j) : EReal)) := by
  refine (Ideal.matmul_constant_zero_apply (φ₁ := FTy.bf16) (φ₂ := FTy.bf16) dot_S10000x128_S128x64_S10000x64_1_0_0_1_n_n none x0 x1 (ix2 p j)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p j) ((contrEquiv1 dot_S10000x128_S128x64_S10000x64_1_0_0_1_n_n 128 rfl rfl).symm k) = ix2 p k := funext fun a => Fin.ext (by
    match a with
    | ⟨0, _⟩ => exact lhs0 _ _
    | ⟨1, _⟩ => exact (lhs1 _ _).trans hk)
  have er : dot_S10000x128_S128x64_S10000x64_1_0_0_1_n_n.rhsIdx (ix2 p j) ((contrEquiv1 dot_S10000x128_S128x64_S10000x64_1_0_0_1_n_n 128 rfl rfl).symm k) = ix2 k j := funext fun a => Fin.ext (by
    match a with
    | ⟨0, _⟩ => exact (rhs0 _ _).trans hk
    | ⟨1, _⟩ => exact rhs1 _ _)
  rw [el, er]

/-- `h` at (p, j). -/
theorem pay3_apply (p : Fin 10000) (j : Fin 64) : k0_pay3 x0 x1 x2 (ix2 p j) = Hrow x0 x1 x2 p j := by
  unfold k0_pay3 Hrow
  simp only [shapeCast_self]
  refine congrArg₂ (· + ·) (matmul_at x0 x1 p j) ?_
  exact broadcastTo_apply x2 broadcasts_S1x64_S10000x64 (ix2 p j) (ix2 0 j) (fun a => by
    match a with
    | ⟨0, _⟩ => rfl
    | ⟨1, _⟩ => rfl)

/-- A column sum of a 10000×64 block, kept as a 1×64 row: at column `j` the sum over the 10000 rows. -/
theorem colsum_apply (src : FVec Ideal S10000x64 .f32) (hφ : FKind.Formats .f32)
    (hacc : (0x00000000#32 : BitVec 32) = FKind.add.neutral .f32 hφ) (j : Fin 64) :
    shapeCast S1x64 (multiReduction .add [0] S64 src 0x00000000#32 reduces_S10000x64_S64 hφ hacc) shapeCasts_S64_S1x64 (ix2 0 j)
      = ∑ p : Fin 10000, src (ix2 p j) := by
  refine (shapeCast_addUnit_apply ![64] _ shapeCasts_S64_S1x64 (ix2 0 j)).trans ?_
  have e1 : (fun a : Fin 1 => (ix2 (0 : Fin 1) j : S1x64.Idx) a.succ) = ix1 j := funext fun a => by
    match a with
    | ⟨0, _⟩ => rfl
  refine (congrArg (multiReduction .add [0] S64 src 0x00000000#32 reduces_S10000x64_S64 hφ hacc) e1).trans ?_
  refine (Ideal.multiReduction_add_single src 0x00000000#32 reduces_S10000x64_S64 hφ hacc (ix1 j)).trans ?_
  refine Finset.sum_congr rfl fun p _ => ?_
  refine congrArg src (funext fun a => Fin.ext ?_)
  match a with
  | ⟨0, _⟩ => rfl
  | ⟨1, _⟩ => rfl

/-- The first running sum after a point: what it held plus the column sum of `h`. -/
theorem pay4_apply (a : Vec Ideal S1x64 .f32) (j : Fin 64) :
    k0_pay4 x0 x1 x2 a (ix2 0 j) = a (ix2 0 j) + ∑ p : Fin 10000, Hrow x0 x1 x2 p j := by
  unfold k0_pay4
  simp only [shapeCast_self]
  refine congrArg (a (ix2 0 j) + ·) ?_
  refine (colsum_apply (k0_pay3 x0 x1 x2) (.inl rfl) rfl j).trans ?_
  exact Finset.sum_congr rfl fun p _ => pay3_apply x0 x1 x2 p j

/-- The second running sum after a point: what it held plus the column sum of `h`'s squares. -/
theorem pay5_apply (a : Vec Ideal S1x64 .f32) (j : Fin 64) :
    k0_pay5 x0 x1 x2 a (ix2 0 j) = a (ix2 0 j) + ∑ p : Fin 10000, Hrow x0 x1 x2 p j * Hrow x0 x1 x2 p j := by
  unfold k0_pay5
  simp only [shapeCast_self]
  refine congrArg (a (ix2 0 j) + ·) ?_
  refine (colsum_apply (mulf (k0_pay3 x0 x1 x2) (k0_pay3 x0 x1 x2)) (.inl rfl) rfl j).trans ?_
  refine Finset.sum_congr rfl fun p _ => ?_
  show k0_pay3 x0 x1 x2 (ix2 p j) * k0_pay3 x0 x1 x2 (ix2 p j) = _
  rw [pay3_apply]

end

end Cert.KernelIdeal.HandValue

end
-- ==== Proof.KI.R0Value.lean ====
import proofs.«120267_j79353815761144_1_alg».proof.Proof.KI.R0Chain
import proofs.«120267_j79353815761144_1_alg».proof.Proof.KI.R0Pay

set_option maxRecDepth 16384

noncomputable section

namespace Cert.KernelIdeal.HandValue

open Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

/-! # The two output arrays of the statistics kernel, over the extended reals

Output 3 ends holding, at column `j`, the sum over the five row blocks (in block order) of the column sums of
`h = x·w + b`; output 4 the same of `h`'s squares. -/

section Regions
variable (V : (c : Dev nD) → (b : Ref sig .tc) → Buf (Elt Ideal) ((c : Thread nD τ).loc b))

/-- Entry (p, j) of `h` at point `t`: row `p` of that point's block of `x` against column `j` of `w`, plus the bias. -/
def H (c : Dev nD) (t : Fin cfg0.N) (p : Fin 10000) (j : Fin 64) : EReal :=
  Hrow (iblk0 V c 0 t) (iblk0 V c 1 t) (iblk0 V c 2 t) p j

/-- The ordered sum after point `n` of the blocks' column sums of `h`, from zero: `(((0 + S₀) + S₁) + …) + Sₙ`. -/
def sumH (c : Dev nD) : (n : ℕ) → n < cfg0.N → Fin 64 → EReal
  | 0, h, j => 0 + ∑ p : Fin 10000, H V c ⟨0, h⟩ p j
  | n + 1, h, j => sumH c n (Nat.lt_of_succ_lt h) j + ∑ p : Fin 10000, H V c ⟨n + 1, h⟩ p j

/-- The same of `h`'s squares. -/
def sumHH (c : Dev nD) : (n : ℕ) → n < cfg0.N → Fin 64 → EReal
  | 0, h, j => 0 + ∑ p : Fin 10000, H V c ⟨0, h⟩ p j * H V c ⟨0, h⟩ p j
  | n + 1, h, j => sumHH c n (Nat.lt_of_succ_lt h) j + ∑ p : Fin 10000, H V c ⟨n + 1, h⟩ p j * H V c ⟨n + 1, h⟩ p j

/-- The chain of running sums, read at column `j`, is the ordered sum: by induction on the point. -/
theorem acc0_apply (c : Dev nD) : ∀ (n : ℕ) (h : n < cfg0.N) (j : Fin 64),
    (acc0 V c n h).1 (ix2 0 j) = sumH V c n h j ∧ (acc0 V c n h).2 (ix2 0 j) = sumHH V c n h j
  | 0, h, j => by
    rw [acc0_zero]
    dsimp only
    exact ⟨(pay4_apply (iblk0 V c 0 ⟨0, h⟩) (iblk0 V c 1 ⟨0, h⟩) (iblk0 V c 2 ⟨0, h⟩) (k0_pay1 (F := Ideal)) j).trans
        (congrArg (· + ∑ p : Fin 10000, Hrow (iblk0 V c 0 ⟨0, h⟩) (iblk0 V c 1 ⟨0, h⟩) (iblk0 V c 2 ⟨0, h⟩) p j) (pay1_apply j)),
      (pay5_apply (iblk0 V c 0 ⟨0, h⟩) (iblk0 V c 1 ⟨0, h⟩) (iblk0 V c 2 ⟨0, h⟩) (k0_pay2 (F := Ideal)) j).trans
        (congrArg (· + ∑ p : Fin 10000, Hrow (iblk0 V c 0 ⟨0, h⟩) (iblk0 V c 1 ⟨0, h⟩) (iblk0 V c 2 ⟨0, h⟩) p j * Hrow (iblk0 V c 0 ⟨0, h⟩) (iblk0 V c 1 ⟨0, h⟩) (iblk0 V c 2 ⟨0, h⟩) p j) (pay2_apply j))⟩
  | n + 1, h, j => by
    have ih := acc0_apply c n (Nat.lt_of_succ_lt h) j
    rw [acc0_succ]
    dsimp only
    exact ⟨(pay4_apply (iblk0 V c 0 ⟨n + 1, h⟩) (iblk0 V c 1 ⟨n + 1, h⟩) (iblk0 V c 2 ⟨n + 1, h⟩) (acc0 V c n (Nat.lt_of_succ_lt h)).1 j).trans
        (congrArg (· + ∑ p : Fin 10000, Hrow (iblk0 V c 0 ⟨n + 1, h⟩) (iblk0 V c 1 ⟨n + 1, h⟩) (iblk0 V c 2 ⟨n + 1, h⟩) p j) ih.1),
      (pay5_apply (iblk0 V c 0 ⟨n + 1, h⟩) (iblk0 V c 1 ⟨n + 1, h⟩) (iblk0 V c 2 ⟨n + 1, h⟩) (acc0 V c n (Nat.lt_of_succ_lt h)).2 j).trans
        (congrArg (· + ∑ p : Fin 10000, Hrow (iblk0 V c 0 ⟨n + 1, h⟩) (iblk0 V c 1 ⟨n + 1, h⟩) (iblk0 V c 2 ⟨n + 1, h⟩) p j * Hrow (iblk0 V c 0 ⟨n + 1, h⟩) (iblk0 V c 1 ⟨n + 1, h⟩) (iblk0 V c 2 ⟨n + 1, h⟩) p j) ih.2)⟩

/-- OUTPUT 3 after the region, at column `j`: the ordered sum over the five points of the column sums of `h`. -/
theorem out3_apply (c : Dev nD) (j : Fin 64) :
    ((dat0 V c).arrAt 3 cfg0.N : Vec Ideal S1x64 .f32) (ix2 0 j) = sumH V c (3 + 1) lt4 j := by
  rw [arrAt3 V c]
  exact (acc0_apply V c (3 + 1) lt4 j).1

/-- OUTPUT 4 after the region, at column `j`: the same of `h`'s squares. -/
theorem out4_apply (c : Dev nD) (j : Fin 64) :
    ((dat0 V c).arrAt 4 cfg0.N : Vec Ideal S1x64 .f32) (ix2 0 j) = sumHH V c (3 + 1) lt4 j := by
  rw [arrAt4 V c]
  exact (acc0_apply V c (3 + 1) lt4 j).2

/-- The ordered sums written out over the five points. -/
theorem sumH_five (c : Dev nD) (j : Fin 64) :
    sumH V c (3 + 1) lt4 j = ((((0 + ∑ p : Fin 10000, H V c t0_0 p j) + ∑ p : Fin 10000, H V c t0_1 p j) + ∑ p : Fin 10000, H V c t0_2 p j) + ∑ p : Fin 10000, H V c t0_3 p j) + ∑ p : Fin 10000, H V c t0_4 p j := rfl
theorem sumHH_five (c : Dev nD) (j : Fin 64) :
    sumHH V c (3 + 1) lt4 j = ((((0 + ∑ p : Fin 10000, H V c t0_0 p j * H V c t0_0 p j) + ∑ p : Fin 10000, H V c t0_1 p j * H V c t0_1 p j) + ∑ p : Fin 10000, H V c t0_2 p j * H V c t0_2 p j) + ∑ p : Fin 10000, H V c t0_3 p j * H V c t0_3 p j) + ∑ p : Fin 10000, H V c t0_4 p j * H V c t0_4 p j := rfl

end Regions

end Cert.KernelIdeal.HandValue

end
-- ==== Proof.Blocks.lean ====
import proofs.«120267_j79353815761144_1_alg».proof.Proof.Spec
import proofs.«120267_j79353815761144_1_alg».proof.Proof.Law
import Idealize.ShloMosaic.PureOps.Ideal
import Mathlib.Tactic

/-!
A sum over 50000 rows, taken as five partial sums over blocks of 10000 consecutive rows that are added one
after the other to a zero start value, is the sum over all rows: row `n` is row `p` of block `t` for exactly
one pair with `n = 10000 t + p`.
-/

noncomputable section

namespace Cert.Blocks

open Idealize.ShloMosaic

/-- A sum over `m * n` consecutive indices, cut into `m` blocks of `n`. -/
theorem sum_blocks {M : Type*} [AddCommMonoid M] (m n : ℕ) (f : Fin (m * n) → M) :
    (∑ i : Fin (m * n), f i)
      = ∑ t : Fin m, ∑ p : Fin n, f ⟨t.val * n + p.val, by
          have h1 := t.isLt
          have h2 := p.isLt
          calc t.val * n + p.val < t.val * n + n := Nat.add_lt_add_left h2 _
            _ = (t.val + 1) * n := (Nat.succ_mul _ _).symm
            _ ≤ m * n := Nat.mul_le_mul_right _ h1⟩ := by
  rw [← Equiv.sum_comp finProdFinEquiv f, Fintype.sum_prod_type]
  refine Finset.sum_congr rfl fun t _ => Finset.sum_congr rfl fun p _ => ?_
  congr 1
  apply Fin.ext
  show p.val + n * t.val = t.val * n + p.val
  rw [Nat.mul_comm, Nat.add_comm]

/-- The sum over the 50000 rows as five block sums of 10000 rows. -/
theorem sum_rows_blocks (f : Fin 50000 → EReal) :
    (∑ n : Fin 50000, f n)
      = ∑ t : Fin 5, ∑ p : Fin 10000, f ⟨t.val * 10000 + p.val, by have := t.isLt; have := p.isLt; omega⟩ :=
  sum_blocks 5 10000 f

/-- Five terms added one after the other to the zero literal are their sum. -/
theorem sum_five (g : Fin 5 → EReal) :
    ((((Cert.Spec.z + g 0) + g 1) + g 2) + g 3) + g 4 = ∑ t : Fin 5, g t := by
  rw [Cert.Law.z_eq, zero_add, Fin.sum_univ_five]

/-- The sum of `f` over the rows of block `t`. -/
def blockSum (f : Fin 50000 → EReal) (t : Fin 5) : EReal :=
  ∑ p : Fin 10000, f ⟨t.val * 10000 + p.val, by have := t.isLt; have := p.isLt; omega⟩

/-- The five block sums added one after the other to the zero literal are the sum over all rows. -/
theorem acc_blocks (f : Fin 50000 → EReal) :
    ((((Cert.Spec.z + blockSum f 0) + blockSum f 1) + blockSum f 2) + blockSum f 3) + blockSum f 4
      = ∑ n : Fin 50000, f n := by
  rw [sum_five (blockSum f), sum_rows_blocks]
  rfl

end Cert.Blocks

end
-- ==== Proof.KI.KValue.lean ====
import proofs.«120267_j79353815761144_1_alg».proof.Proof.KI.Mid
import proofs.«120267_j79353815761144_1_alg».proof.Proof.KI.R1Array
import proofs.«120267_j79353815761144_1_alg».proof.Proof.KI.R0Blocks
import proofs.«120267_j79353815761144_1_alg».proof.Proof.KI.R0Value
import proofs.«120267_j79353815761144_1_alg».proof.Proof.Blocks

/-!
The value the first program leaves in its result array, in terms of the argument arrays at launch.

The statistics region adds, block after block of 10000 rows, the column sums of the pre-activation and of its
square; over all five blocks these are the sums over the 50000 rows. The host divides them by the number of rows
into the mean and the one-pass variance, and the apply region normalises, rectifies and applies the second linear
layer. With the features after five hops as the input matrix this is the specification's map with the one-pass
variance.
-/

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The input matrix of the dense layers: the features after five hops. -/
abbrev Xk (c : Dev nD) : Fin 50000 → Fin 128 → EReal := fun n k =>
  Cert.Hops.khops (F := Ideal) (m ((c : Thread nD τ).loc main_arg0)) (m ((c : Thread nD τ).loc main_arg1))
    (m ((c : Thread nD τ).loc main_arg2)) (ix2 n k)
/-- The first weight matrix. -/
abbrev W1k (c : Dev nD) : Fin 64 → Fin 128 → EReal := fun j k => m ((c : Thread nD τ).loc main_arg3) (ix2 j k)
/-- The first bias. -/
abbrev b1k (c : Dev nD) : Fin 64 → EReal := fun j => m ((c : Thread nD τ).loc main_arg4) (ix1 j)
/-- The second weight matrix. -/
abbrev W2k (c : Dev nD) : Fin 40 → Fin 64 → EReal := fun o j => m ((c : Thread nD τ).loc main_arg5) (ix2 o j)
/-- The second bias. -/
abbrev b2k (c : Dev nD) : Fin 40 → EReal := fun o => m ((c : Thread nD τ).loc main_arg6) (ix1 o)

/-! ## The two sums the statistics region leaves -/

/-- A row of the statistics region's pre-activation, read through the input blocks at point `t`: row
    `10000 t + p` of the first linear layer at the features after five hops. -/
theorem H_eq (c : Dev nD) (t : Fin cfg0.N) (p : Fin 10000) (j : Fin 64) :
    H (Vpre m ρ) c t p j
      = Cert.Spec.pre (Xk m c) (W1k m c) (b1k m c)
          (⟨t.val * 10000 + p.val, by have h : t.val < 5 := t.isLt; have := p.isLt; omega⟩ : Fin 50000) j := by
  unfold H Hrow Cert.Spec.pre
  exact congrArg₂ (· + ·)
    (Finset.sum_congr rfl fun k _ => congrArg₂ (· * ·)
      ((iblk0_0_apply (Vpre m ρ) c t p k).trans (pre_v69 m ρ c _ k))
      ((iblk0_1_apply (Vpre m ρ) c t k j).trans (pre_v71 m ρ c k j)))
    ((iblk0_2_apply (Vpre m ρ) c t j).trans (pre_v74 m ρ c j))

/-- The column sum over the rows of point `t`'s block is that block's share of the sum over all rows. -/
theorem block_eq (c : Dev nD) (t : Fin cfg0.N) (j : Fin 64) :
    (∑ p : Fin 10000, H (Vpre m ρ) c t p j)
      = Cert.Blocks.blockSum (fun n => Cert.Spec.pre (Xk m c) (W1k m c) (b1k m c) n j) ⟨t.val, t.isLt⟩ :=
  Finset.sum_congr rfl fun p _ => H_eq m ρ c t p j

/-- The same for the squares. -/
theorem blockSq_eq (c : Dev nD) (t : Fin cfg0.N) (j : Fin 64) :
    (∑ p : Fin 10000, H (Vpre m ρ) c t p j * H (Vpre m ρ) c t p j)
      = Cert.Blocks.blockSum (fun n => Cert.Spec.pre (Xk m c) (W1k m c) (b1k m c) n j
          * Cert.Spec.pre (Xk m c) (W1k m c) (b1k m c) n j) ⟨t.val, t.isLt⟩ :=
  Finset.sum_congr rfl fun p _ => congrArg₂ (· * ·) (H_eq m ρ c t p j) (H_eq m ρ c t p j)

/-- The first sum array: at column `j`, the sum over all 50000 rows of the pre-activation. -/
theorem sum3 (c : Dev nD) (j : Fin 64) :
    (dat0 (Vpre m ρ) c).arrAt 3 cfg0.N (ix2 (0 : Fin 1) j)
      = ∑ n : Fin 50000, Cert.Spec.pre (Xk m c) (W1k m c) (b1k m c) n j := by
  refine (out3_apply (Vpre m ρ) c j).trans ?_
  rw [sumH_five, block_eq, block_eq, block_eq, block_eq, block_eq]
  have h := Cert.Blocks.acc_blocks (fun n => Cert.Spec.pre (Xk m c) (W1k m c) (b1k m c) n j)
  rw [Cert.Law.z_eq] at h
  exact h

/-- The second sum array: at column `j`, the sum over all 50000 rows of the squared pre-activation. -/
theorem sum4 (c : Dev nD) (j : Fin 64) :
    (dat0 (Vpre m ρ) c).arrAt 4 cfg0.N (ix2 (0 : Fin 1) j)
      = ∑ n : Fin 50000, Cert.Spec.pre (Xk m c) (W1k m c) (b1k m c) n j
          * Cert.Spec.pre (Xk m c) (W1k m c) (b1k m c) n j := by
  refine (out4_apply (Vpre m ρ) c j).trans ?_
  rw [sumHH_five, blockSq_eq, blockSq_eq, blockSq_eq, blockSq_eq, blockSq_eq]
  have h := Cert.Blocks.acc_blocks (fun n => Cert.Spec.pre (Xk m c) (W1k m c) (b1k m c) n j
    * Cert.Spec.pre (Xk m c) (W1k m c) (b1k m c) n j)
  rw [Cert.Law.z_eq] at h
  exact h

/-! ## The result array -/

/-- The result array of the first program is the specification's map with the one-pass variance, at the features
    after five hops. -/
theorem kernel_value (c : Dev nD) (n : Fin 50000) (o : Fin 40) :
    Wend m ρ c (Proc.devRef .tc main_v85) (ix2 n o)
      = Cert.Spec.outK (Xk m c) (W1k m c) (b1k m c) (W2k m c) (b2k m c) n o := by
  refine (congrFun ((Wend_arr m ρ c 7).trans (final7 (Vmid m ρ) c)) (ix2 n o)).trans
    (applied_eq_outK _ _ _ _ _ _ _ (Xk m c) (W1k m c) (b1k m c) (W2k m c) (b2k m c)
      (fun n k => mid_v69 m ρ c n k) (fun k j => mid_v71 m ρ c k j) (fun j => mid_v74 m ρ c j) (fun j => ?_) (fun j => ?_)
      (fun j o => mid_v73 m ρ c j o) (fun o => mid_v75 m ρ c o) n o)
  · rw [mid_v78, sum3]
    rfl
  · rw [mid_v84, sum3, sum4]
    rfl

end Cert.KernelIdeal.HandValue

end
-- ==== Proof.RefValue.lean ====
import proofs.«120267_j79353815761144_1_alg».proof.Proof.Gen.ReferenceIdeal.Read
import proofs.«120267_j79353815761144_1_alg».proof.Proof.Spec
import Idealize.ShloMosaic.Lib.ValueIdx
import Idealize.ShloMosaic.PureOps.Ideal.Laws

/-!
The reference program after its propagation stage, read index by index on the extended reals.

Write `X` for the propagated feature matrix. The remaining operations form the first linear layer
`H = X · W1ᵀ + b1`, the column mean `μ_j = (∑ₙ H n j) / N`, the biased column variance
`σ²_j = (∑ₙ (H n j - μ_j)²) / N`, the rectified normalised value `max ((H n j - μ_j) · (σ²_j + ε)^(-1/2)) 0`, and the
second linear layer. Each is identified here with the corresponding definition of the specification, one stage at a
time; the last theorem composes them.
-/

noncomputable section

namespace Cert.ReferenceIdeal.RefValue

open Cert.ReferenceIdeal Cert.ReferenceIdeal.Read Idealize.ShloMosaic Idealize.ShloMosaic.ValueIdx

/-! ## Where each layout operation and each contraction reads -/

/-- The first contraction reads row `n` of the left operand at column `k`. -/
theorem lidx70 (n : Fin 50000) (j : Fin 64) (k : Fin 128) : lidx_main_v70 (ix2 n j) k = ix2 n k :=
  funext fun a => Fin.ext (by match a with | ⟨0, _⟩ => rfl | ⟨1, _⟩ => rfl)
/-- … and the transposed weight at row `k`, column `j`. -/
theorem ridx70 (n : Fin 50000) (j : Fin 64) (k : Fin 128) : ridx_main_v70 (ix2 n j) k = ix2 k j :=
  funext fun a => Fin.ext (by match a with | ⟨0, _⟩ => rfl | ⟨1, _⟩ => rfl)
/-- The transposed first weight at `(k, j)` is the weight at `(j, k)`. -/
theorem idx69 (k : Fin 128) (j : Fin 64) : idx_main_v69 (ix2 k j) = ix2 j k :=
  funext fun a => Fin.ext (by match a with | ⟨0, _⟩ => rfl | ⟨1, _⟩ => rfl)
/-- A row vector broadcast down the rows is read at its column. -/
theorem idx72 (n : Fin 50000) (j : Fin 64) : idx_main_v72 (ix2 n j) = ix2 (0 : Fin 1) j :=
  funext fun a => Fin.ext (by match a with | ⟨0, _⟩ => rfl | ⟨1, _⟩ => rfl)
theorem idx71 (o : Fin 1) (j : Fin 64) : idx_main_v71 (ix2 o j) = ix1 j :=
  funext fun a => Fin.ext (by match a with | ⟨0, _⟩ => rfl)
/-- The sum over the rows reads column `j` at row `n`. -/
theorem idx74 (j : Fin 64) (n : Fin 50000) : idx_main_v74 (ix1 j) n = ix2 n j :=
  funext fun a => Fin.ext (by match a with | ⟨0, _⟩ => rfl | ⟨1, _⟩ => rfl)
theorem idx78 (n : Fin 50000) (j : Fin 64) : idx_main_v78 (ix2 n j) = ix2 (0 : Fin 1) j :=
  funext fun a => Fin.ext (by match a with | ⟨0, _⟩ => rfl | ⟨1, _⟩ => rfl)
theorem idx77 (o : Fin 1) (j : Fin 64) : idx_main_v77 (ix2 o j) = ix1 j :=
  funext fun a => Fin.ext (by match a with | ⟨0, _⟩ => rfl)
theorem idx81 (j : Fin 64) (n : Fin 50000) : idx_main_v81 (ix1 j) n = ix2 n j :=
  funext fun a => Fin.ext (by match a with | ⟨0, _⟩ => rfl | ⟨1, _⟩ => rfl)
theorem idx85 (n : Fin 50000) (j : Fin 64) : idx_main_v85 (ix2 n j) = ix2 (0 : Fin 1) j :=
  funext fun a => Fin.ext (by match a with | ⟨0, _⟩ => rfl | ⟨1, _⟩ => rfl)
theorem idx84 (o : Fin 1) (j : Fin 64) : idx_main_v84 (ix2 o j) = ix1 j :=
  funext fun a => Fin.ext (by match a with | ⟨0, _⟩ => rfl)
theorem idx91 (n : Fin 50000) (j : Fin 64) : idx_main_v91 (ix2 n j) = ix2 (0 : Fin 1) j :=
  funext fun a => Fin.ext (by match a with | ⟨0, _⟩ => rfl | ⟨1, _⟩ => rfl)
theorem idx90 (o : Fin 1) (j : Fin 64) : idx_main_v90 (ix2 o j) = ix1 j :=
  funext fun a => Fin.ext (by match a with | ⟨0, _⟩ => rfl)
/-- The second contraction reads row `p` of the activation at column `k`, and the transposed weight at `(k, q)`. -/
theorem lidx95 (p : Fin 50000) (q : Fin 40) (k : Fin 64) : lidx_main_v95 (ix2 p q) k = ix2 p k :=
  funext fun a => Fin.ext (by match a with | ⟨0, _⟩ => rfl | ⟨1, _⟩ => rfl)
theorem ridx95 (p : Fin 50000) (q : Fin 40) (k : Fin 64) : ridx_main_v95 (ix2 p q) k = ix2 k q :=
  funext fun a => Fin.ext (by match a with | ⟨0, _⟩ => rfl | ⟨1, _⟩ => rfl)
theorem idx94 (k : Fin 64) (q : Fin 40) : idx_main_v94 (ix2 k q) = ix2 q k :=
  funext fun a => Fin.ext (by match a with | ⟨0, _⟩ => rfl | ⟨1, _⟩ => rfl)
theorem idx97 (p : Fin 50000) (q : Fin 40) : idx_main_v97 (ix2 p q) = ix2 (0 : Fin 1) q :=
  funext fun a => Fin.ext (by match a with | ⟨0, _⟩ => rfl | ⟨1, _⟩ => rfl)
theorem idx96 (o : Fin 1) (q : Fin 40) : idx_main_v96 (ix2 o q) = ix1 q :=
  funext fun a => Fin.ext (by match a with | ⟨0, _⟩ => rfl)

section
variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S64x128, .f32⟩ : BufTy).Contents (Elt Ideal))
  (x4 : (⟨S64, .f32⟩ : BufTy).Contents (Elt Ideal)) (x5 : (⟨S40x64, .f32⟩ : BufTy).Contents (Elt Ideal))
  (x6 : (⟨S40, .f32⟩ : BufTy).Contents (Elt Ideal))

/-! ## The stages -/

/-- The first linear layer: entry `(n, j)` is row `n` of the propagated features against row `j` of the weight, plus
    the bias. -/
theorem pre_eq (n : Fin 50000) (j : Fin 64) :
    val_main_v73 (F := Ideal) x0 x1 x2 x3 x4 (ix2 n j) =
      Cert.Spec.pre (fun n k => val_main_v68 (F := Ideal) x0 x1 x2 (ix2 n k)) (fun j k => x3 (ix2 j k))
        (fun j => x4 (ix1 j)) n j := by
  rw [val_main_v73_apply, val_main_v70_apply, val_main_v72_apply, val_main_v71_apply]
  simp only [val_main_v69_apply, lidx70, ridx70, idx69, idx72, idx71, Ideal.addf_def]
  unfold Cert.Spec.pre
  rfl

/-- The column mean: the sum of the column, started from the zero literal, over the row count. -/
theorem mean_eq (j : Fin 64) :
    val_main_v76 (F := Ideal) x0 x1 x2 x3 x4 (ix1 j) =
      Cert.Spec.mean (fun n j => val_main_v73 (F := Ideal) x0 x1 x2 x3 x4 (ix2 n j)) j := by
  rw [val_main_v76_apply, val_main_v74_apply, val_main_v75_apply, val_main_cst_13_apply, val_main_cst_14_apply]
  simp only [idx74, Ideal.hostDivf_def, Ideal.ofBits_def, Ideal.ofBits_zero_f32, zero_add]
  unfold Cert.Spec.mean
  rfl

/-- The deviation of an entry from its column mean. -/
theorem dev_eq (n : Fin 50000) (j : Fin 64) :
    val_main_v79 (F := Ideal) x0 x1 x2 x3 x4 (ix2 n j) =
      val_main_v73 (F := Ideal) x0 x1 x2 x3 x4 (ix2 n j) -
        Cert.Spec.mean (fun n j => val_main_v73 (F := Ideal) x0 x1 x2 x3 x4 (ix2 n j)) j := by
  rw [val_main_v79_apply, val_main_v78_apply, val_main_v77_apply, idx78, idx77, mean_eq, Ideal.subf_def]

/-- The squared deviation. -/
theorem sq_eq (n : Fin 50000) (j : Fin 64) :
    val_main_v80 (F := Ideal) x0 x1 x2 x3 x4 (ix2 n j) =
      (val_main_v73 (F := Ideal) x0 x1 x2 x3 x4 (ix2 n j) -
        Cert.Spec.mean (fun n j => val_main_v73 (F := Ideal) x0 x1 x2 x3 x4 (ix2 n j)) j) *
      (val_main_v73 (F := Ideal) x0 x1 x2 x3 x4 (ix2 n j) -
        Cert.Spec.mean (fun n j => val_main_v73 (F := Ideal) x0 x1 x2 x3 x4 (ix2 n j)) j) := by
  rw [val_main_v80_apply, dev_eq, Ideal.mulf_def]

/-- The biased column variance: the mean of the squared deviations from the column mean. -/
theorem var_eq (j : Fin 64) :
    val_main_v83 (F := Ideal) x0 x1 x2 x3 x4 (ix1 j) =
      Cert.Spec.varR (fun n j => val_main_v73 (F := Ideal) x0 x1 x2 x3 x4 (ix2 n j)) j := by
  rw [val_main_v83_apply, val_main_v81_apply, val_main_v82_apply, val_main_cst_15_apply, val_main_cst_16_apply]
  simp only [idx81, sq_eq, Ideal.hostDivf_def, Ideal.ofBits_def, Ideal.ofBits_zero_f32, zero_add]
  unfold Cert.Spec.varR
  rfl

/-- The deviation from the column mean, as the normalisation reads it (a second copy of the broadcast mean). -/
theorem dev2_eq (n : Fin 50000) (j : Fin 64) :
    val_main_v86 (F := Ideal) x0 x1 x2 x3 x4 (ix2 n j) =
      val_main_v73 (F := Ideal) x0 x1 x2 x3 x4 (ix2 n j) -
        Cert.Spec.mean (fun n j => val_main_v73 (F := Ideal) x0 x1 x2 x3 x4 (ix2 n j)) j := by
  rw [val_main_v86_apply, val_main_v85_apply, val_main_v84_apply, idx85, idx84, mean_eq, Ideal.subf_def]

/-- The inverse root of the offset variance, broadcast down the rows. -/
theorem scale_eq (n : Fin 50000) (j : Fin 64) :
    val_main_v91 (F := Ideal) x0 x1 x2 x3 x4 (ix2 n j) =
      Ideal.rsqrt (Cert.Spec.varR (fun n j => val_main_v73 (F := Ideal) x0 x1 x2 x3 x4 (ix2 n j)) j + Cert.Spec.eps) := by
  rw [val_main_v91_apply, val_main_v90_apply, idx91, idx90, val_main_v89_apply, val_main_v88_apply, var_eq,
    val_main_v87_apply, val_main_cst_17_apply, Ideal.hostUnary_rsqrt_def, Ideal.addf_def, Ideal.ofBits_def]

/-- The activation: the deviation from the column mean times the inverse root of the offset variance, rectified. -/
theorem act_eq (n : Fin 50000) (j : Fin 64) :
    val_main_v93 (F := Ideal) x0 x1 x2 x3 x4 (ix2 n j) =
      Cert.Spec.act (fun n j => val_main_v73 (F := Ideal) x0 x1 x2 x3 x4 (ix2 n j))
        (Cert.Spec.varR (fun n j => val_main_v73 (F := Ideal) x0 x1 x2 x3 x4 (ix2 n j))) n j := by
  rw [val_main_v93_apply, val_main_v92_apply, dev2_eq, scale_eq, val_main_call0_v0_apply, val_main_call0_cst_apply,
    Ideal.maximumf_def, Ideal.mulf_def, Ideal.ofBits_def]
  unfold Cert.Spec.act
  rfl

/-- The second linear layer over the activation. -/
theorem lin2_eq (p : Fin 50000) (q : Fin 40) :
    val_main_v98 (F := Ideal) x0 x1 x2 x3 x4 x5 x6 (ix2 p q) =
      Cert.Spec.lin2 (fun n j => val_main_v93 (F := Ideal) x0 x1 x2 x3 x4 (ix2 n j)) (fun o j => x5 (ix2 o j))
        (fun o => x6 (ix1 o)) p q := by
  rw [val_main_v98_apply, val_main_v95_apply, val_main_v97_apply, val_main_v96_apply]
  simp only [val_main_v94_apply, lidx95, ridx95, idx94, idx97, idx96, Ideal.addf_def]
  unfold Cert.Spec.lin2
  rfl

end

/-! ## The whole map -/

/-- The reference's result at `(p, q)` is the specification's two-pass map of the propagated features, the two weights
    and the two biases. -/
theorem ref_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S64x128, .f32⟩ : BufTy).Contents (Elt Ideal))
    (x4 : (⟨S64, .f32⟩ : BufTy).Contents (Elt Ideal)) (x5 : (⟨S40x64, .f32⟩ : BufTy).Contents (Elt Ideal))
    (x6 : (⟨S40, .f32⟩ : BufTy).Contents (Elt Ideal)) (p : Fin 50000) (q : Fin 40) :
    val_main_v98 (F := Ideal) x0 x1 x2 x3 x4 x5 x6 (ix2 p q) =
      Cert.Spec.outR (fun n k => val_main_v68 (F := Ideal) x0 x1 x2 (ix2 n k)) (fun j k => x3 (ix2 j k))
        (fun j => x4 (ix1 j)) (fun o j => x5 (ix2 o j)) (fun o => x6 (ix1 o)) p q := by
  have hH : (fun n j => val_main_v73 (F := Ideal) x0 x1 x2 x3 x4 (ix2 n j)) =
      Cert.Spec.pre (fun n k => val_main_v68 (F := Ideal) x0 x1 x2 (ix2 n k)) (fun j k => x3 (ix2 j k))
        (fun j => x4 (ix1 j)) := funext fun n => funext fun j => pre_eq x0 x1 x2 x3 x4 n j
  have hA : (fun n j => val_main_v93 (F := Ideal) x0 x1 x2 x3 x4 (ix2 n j)) =
      Cert.Spec.act (fun n j => val_main_v73 (F := Ideal) x0 x1 x2 x3 x4 (ix2 n j))
        (Cert.Spec.varR (fun n j => val_main_v73 (F := Ideal) x0 x1 x2 x3 x4 (ix2 n j))) :=
    funext fun n => funext fun j => act_eq x0 x1 x2 x3 x4 n j
  rw [lin2_eq, hA, hH]
  unfold Cert.Spec.outR
  rfl

end Cert.ReferenceIdeal.RefValue

end
-- ==== Proof.lean ====
import proofs.«120267_j79353815761144_1_alg».proof.Defs
import proofs.«120267_j79353815761144_1_alg».proof.Proof.Gen.Kernel
import proofs.«120267_j79353815761144_1_alg».proof.Proof.Gen.Kernel.Skeleton
import proofs.«120267_j79353815761144_1_alg».proof.Proof.Gen.Kernel.Launch
import proofs.«120267_j79353815761144_1_alg».proof.Proof.Gen.Kernel.Regions
import proofs.«120267_j79353815761144_1_alg».proof.Proof.Gen.Kernel.Points
import proofs.«120267_j79353815761144_1_alg».proof.Proof.Gen.KernelIdeal
import proofs.«120267_j79353815761144_1_alg».proof.Proof.Gen.KernelIdeal.Skeleton
import proofs.«120267_j79353815761144_1_alg».proof.Proof.Gen.KernelIdeal.Launch
import proofs.«120267_j79353815761144_1_alg».proof.Proof.Gen.KernelIdeal.Regions
import proofs.«120267_j79353815761144_1_alg».proof.Proof.Gen.KernelIdeal.Points
import proofs.«120267_j79353815761144_1_alg».proof.Proof.Gen.ReferenceIdeal
import proofs.«120267_j79353815761144_1_alg».proof.Proof.Gen.Pre_finite_inputs
import proofs.«120267_j79353815761144_1_alg».proof.Proof.K.Run
import proofs.«120267_j79353815761144_1_alg».proof.Proof.KI.Run
import proofs.«120267_j79353815761144_1_alg».proof.Proof.RefRun
import proofs.«120267_j79353815761144_1_alg».proof.Proof.Hops
import proofs.«120267_j79353815761144_1_alg».proof.Proof.Law
import proofs.«120267_j79353815761144_1_alg».proof.Proof.Finite
import proofs.«120267_j79353815761144_1_alg».proof.Proof.KI.KValue
import proofs.«120267_j79353815761144_1_alg».proof.Proof.RefValue
import Idealize.ShloMosaic.Adequacy
import Idealize.ShloMosaic.Init

/-!
The claim: two programs for one layer of a graph network run without fault, leave their seven arguments as they
were, and — read on the extended reals, where every operation is exact — end with the same result whenever all
float inputs are finite.

Both programs first send the node features (50000 rows, 128 columns) five times along the weighted edges: gather
the source rows, scale each by its edge weight, and add the scaled rows into the target rows of a zero matrix.
The two write the scaling as a product with the factors in opposite order; nothing else differs, so the five
hops are one function of the features, the edge list and the weights. Then both apply a linear layer (64
columns), normalise every column with its mean and its biased variance over the 50000 rows, offset by a small
constant, rectify, and apply a second linear layer (40 columns).

They differ in the variance. The second program takes the mean of the squared deviations from the mean, which
needs the mean first: two passes over the rows. The first program takes the mean of the squares less the square
of the mean and cuts the difference off below at zero: one pass, in which the column sums and the column sums of
squares are gathered block by block — five blocks of 10000 rows, each block's sums added in turn to a zero start
value, which is the sum over all rows. For real numbers the two variances are equal (König–Huygens:
`∑ (h - μ)² / N = ∑ h² / N - μ²` with `μ = ∑ h / N`), and the common value, a sum of squares over a positive
number, is nonnegative, so the cut-off changes nothing. On the extended reals the identity fails at an infinity
(`⊤ - ⊤ = ⊥`). This is where the precondition is used: it says that every entry `x` of every float argument
has `|x| < +∞`, hence is a real number; real features along real weights stay real through the five hops, and
real weights and biases keep the first linear layer real, so the matrix whose column variances are taken has
real entries and the two variances agree. Everything after the variance is the same expression in both.
-/

noncomputable section

namespace Cert.Proof

open Idealize.ShloMosaic Idealize.ShloMosaic.TcCoe Idealize.SL.Sem

/-- The two results agree: with real inputs the five hops give a real matrix, on which the one-pass and the
two-pass variance are the same number. -/
theorem value_eq (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_finite_inputs := Cert.Pre_finite_inputs.Gen.facts) m) (c : Dev Cert.KernelIdeal.nD) :
    Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.KernelIdeal.Hand.Wend m ρ c (Proc.devRef .tc Cert.KernelIdeal.main_v85) := by
  have hreal := Cert.Finite.reals_of_pre _ _ _ _ _ _ _ (hpre c)
  funext i
  obtain ⟨n, o, rfl⟩ : ∃ (n : Fin 50000) (o : Fin 40), i = ValueIdx.ix2 n o := ⟨i 0, i 1, ValueIdx.eq_ix2 i⟩
  rw [Cert.ReferenceIdeal.RefValue.ref_eq, Cert.KernelIdeal.HandValue.kernel_value m ρ c n o]
  have hX : Cert.KernelIdeal.HandValue.Xk m c
      = fun n k => Cert.ReferenceIdeal.Read.val_main_v68 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ValueIdx.ix2 n k) := by
    funext n k
    show Cert.Hops.khops (F := Ideal) _ _ _ _ = _
    rw [Cert.Hops.khops_eq]
  rw [hX]
  exact (congrFun (congrFun (Cert.Law.outK_eq_outR _ _ _ _ _
    (fun n k => Cert.Hops.hops_real _ _ _ hreal.1 hreal.2.1 (ValueIdx.ix2 n k))
    (fun j k => hreal.2.2.1 (ValueIdx.ix2 j k)) (fun j => hreal.2.2.2.1 (ValueIdx.ix1 j))) n) o).symm

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- From memories that agree on the seven arguments both programs run, leave the arguments as they were, and end
with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Wend m ρ c (Proc.devRef .tc Cert.KernelIdeal.main_v85), ?_, ?_⟩
  · exact Cert.KernelIdeal.Hand.run_main (F := Ideal) m ρ fun s h c =>
      ⟨h c _ (Cert.KernelIdeal.Hand.mem_uc Cert.KernelIdeal.main_v85 (by decide)),
        (h c _ (Cert.KernelIdeal.Hand.mem_uc Cert.KernelIdeal.main_arg0 (by decide))).trans
          (Cert.KernelIdeal.Hand.Wend_arg m ρ c Cert.KernelIdeal.main_arg0 (by decide) (by decide) (by decide)),
        (h c _ (Cert.KernelIdeal.Hand.mem_uc Cert.KernelIdeal.main_arg1 (by decide))).trans
          (Cert.KernelIdeal.Hand.Wend_arg m ρ c Cert.KernelIdeal.main_arg1 (by decide) (by decide) (by decide)),
        (h c _ (Cert.KernelIdeal.Hand.mem_uc Cert.KernelIdeal.main_arg2 (by decide))).trans
          (Cert.KernelIdeal.Hand.Wend_arg m ρ c Cert.KernelIdeal.main_arg2 (by decide) (by decide) (by decide)),
        (h c _ (Cert.KernelIdeal.Hand.mem_uc Cert.KernelIdeal.main_arg3 (by decide))).trans
          (Cert.KernelIdeal.Hand.Wend_arg m ρ c Cert.KernelIdeal.main_arg3 (by decide) (by decide) (by decide)),
        (h c _ (Cert.KernelIdeal.Hand.mem_uc Cert.KernelIdeal.main_arg4 (by decide))).trans
          (Cert.KernelIdeal.Hand.Wend_arg m ρ c Cert.KernelIdeal.main_arg4 (by decide) (by decide) (by decide)),
        (h c _ (Cert.KernelIdeal.Hand.mem_uc Cert.KernelIdeal.main_arg5 (by decide))).trans
          (Cert.KernelIdeal.Hand.Wend_arg m ρ c Cert.KernelIdeal.main_arg5 (by decide) (by decide) (by decide)),
        (h c _ (Cert.KernelIdeal.Hand.mem_uc Cert.KernelIdeal.main_arg6 (by decide))).trans
          (Cert.KernelIdeal.Hand.Wend_arg m ρ c Cert.KernelIdeal.main_arg6 (by decide) (by decide) (by decide))⟩
  · refine (θ_run Cert.ReferenceIdeal.defs _ _).mono (fun r h c => ⟨(h c).1.trans ?_, (h c).2⟩) (Cert.Proof.Ref.ref_run m' ρ')
    obtain ⟨e0, e1, e2, e3, e4, e5, e6⟩ := hagree c
    rw [e0, e1, e2, e3, e4, e5, e6]
    exact value_eq m ρ hpre c

theorem claim : Cert.Claim :=
  ⟨Cert.Kernel.Gen.facts, Cert.KernelIdeal.Gen.facts, Cert.ReferenceIdeal.Gen.facts, Cert.Pre_finite_inputs.Gen.facts,
    frame_k, frame_ki, Cert.Proof.Ref.frame_ri, trivial, algebraic⟩

end Cert.Proof

end
